-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S6x10 : Shape := ⟨2, ![6, 10]⟩
abbrev S6 : Shape := ⟨1, ![6]⟩
abbrev S1x6 : Shape := ⟨2, ![1, 6]⟩
abbrev S1 : Shape := ⟨1, ![1]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S6x10 : S_.BroadcastsInDim S6x10 (![] : Fin 0 → Fin S6x10.rank)
  reducesTo_S6x10_S_d0_1 : S6x10.ReducesTo [0, 1] S_
  bcast_S_S6 : S_.BroadcastsInDim S6 (![] : Fin 0 → Fin S6.rank)
  reducesTo_S6_S_d0 : S6.ReducesTo [0] S_
  bcast_S_S1x6 : S_.BroadcastsInDim S1x6 (![] : Fin 0 → Fin S1x6.rank)
  reducesTo_S1x6_S_d0_1 : S1x6.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S6 .f32) (main_arg5 : FVec F S1x6 .f32) (main_arg6 : FVec F S1 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S1x6 .f32 := Host.absf main_arg5
  let main_cst_8 : FVec F S_ .f32 := constant S_ .f32 0x7F800000#32
  let main_v25 : FVec F S1x6 .f32 := broadcastInDim S1x6 ![] bcast_S_S1x6 main_cst_8
  let main_v26 : IVec S1x6 1 := cmpf .olt main_v24 main_v25
  let main_c_9 : IVec S_ 1 := constantI S_ 1 1#1
  let main_v27 : IVec S_ 1 := (fun x v => Host.reduce IntOp.andi x v reducesTo_S1x6_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1048576x10 .f32) (main_arg1 : FVec F S6x10 .f32) (main_arg2 : FVec F S6 .f32) (main_arg3 : FVec F S6 .f32) (main_arg4 : FVec F S6 .f32) (main_arg5 : FVec F S1x6 .f32) (main_arg6 : FVec F S1 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S6x10 .f32 := Host.absf main_arg1
  let main_cst_0 : FVec F S_ .f32 := constant S_ .f32 0x7F800000#32
  let main_v5 : FVec F S6x10 .f32 := broadcastInDim S6x10 ![] bcast_S_S6x10 main_cst_0
  let main_v6 : IVec S6x10 1 := cmpf .olt main_v4 main_v5
  let main_c_1 : IVec S_ 1 := constantI S_ 1 1#1
  let main_v7 : IVec S_ 1 := (fun x v => Host.reduce IntOp.andi x v reducesTo_S6x10_S_d0_1 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_v13 main_v16
-- ==== Kernel.lean ====
abbrev S1048576x10 : Shape := ⟨2, ![1048576, 10]⟩
abbrev S6x10 : Shape := ⟨2, ![6, 10]⟩
abbrev S6 : Shape := ⟨1, ![6]⟩
abbrev S1x6 : Shape := ⟨2, ![1, 6]⟩
abbrev S1 : Shape := ⟨1, ![1]⟩
abbrev S10x1048576 : Shape := ⟨2, ![10, 1048576]⟩
abbrev S10x6 : Shape := ⟨2, ![10, 6]⟩
abbrev S6x1 : Shape := ⟨2, ![6, 1]⟩
abbrev S6x1048576 : Shape := ⟨2, ![6, 1048576]⟩
abbrev S16x6x128 : Shape := ⟨3, ![16, 6, 128]⟩
abbrev S10x65536 : Shape := ⟨2, ![10, 65536]⟩
abbrev S6x65536 : Shape := ⟨2, ![6, 65536]⟩
abbrev S1x6x128 : Shape := ⟨3, ![1, 6, 128]⟩
abbrev S8x65536 : Shape := ⟨2, ![8, 65536]⟩
abbrev S2x65536 : Shape := ⟨2, ![2, 65536]⟩
abbrev S8x1 : Shape := ⟨2, ![8, 1]⟩
abbrev S2x1 : Shape := ⟨2, ![2, 1]⟩
abbrev S65536 : Shape := ⟨1, ![65536]⟩
abbrev S1x65536 : Shape := ⟨2, ![1, 65536]⟩
abbrev S6x128 : Shape := ⟨2, ![6, 128]⟩
abbrev S1x1 : Shape := ⟨2, ![1, 1]⟩
abbrev S1x1048576 : Shape := ⟨2, ![1, 1048576]⟩
abbrev S6x131072 : Shape := ⟨2, ![6, 131072]⟩
abbrev S1x131072 : Shape := ⟨2, ![1, 131072]⟩
abbrev S1x6x1 : Shape := ⟨3, ![1, 6, 1]⟩
abbrev S1x1x1 : Shape := ⟨3, ![1, 1, 1]⟩
abbrev S131072 : Shape := ⟨1, ![131072]⟩
abbrev S1048576x1 : Shape := ⟨2, ![1048576, 1]⟩

abbrev nBuf : Space → Nat
  | .hbm => 18
  | .vmem => 17
  | .smem => 0
  | _ => 0

abbrev bufTy : (tb : Table) → Fin (tcTables nBuf tb) → BufTy
  | .hbm, ⟨0, _⟩ => ⟨S1048576x10, .f32⟩
  | .hbm, ⟨1, _⟩ => ⟨S6x10, .f32⟩
  | .hbm, ⟨2, _⟩ => ⟨S6, .f32⟩
  | .hbm, ⟨3, _⟩ => ⟨S6, .f32⟩
  | .hbm, ⟨4, _⟩ => ⟨S6, .f32⟩
  | .hbm, ⟨5, _⟩ => ⟨S1x6, .f32⟩
  | .hbm, ⟨6, _⟩ => ⟨S1, .f32⟩
  | .hbm, ⟨7, _⟩ => ⟨S10x1048576, .f32⟩
  | .hbm, ⟨8, _⟩ => ⟨S10x6, .f32⟩
  | .hbm, ⟨9, _⟩ => ⟨S6x1, .f32⟩
  | .hbm, ⟨10, _⟩ => ⟨S6x1048576, .bf16⟩
  | .hbm, ⟨11, _⟩ => ⟨S16x6x128, .f32⟩
  | .hbm, ⟨12, _⟩ => ⟨S6x1, .f32⟩
  | .hbm, ⟨13, _⟩ => ⟨S6x1, .f32⟩
  | .hbm, ⟨14, _⟩ => ⟨S6x1, .f32⟩
  | .hbm, ⟨15, _⟩ => ⟨S1x1, .f32⟩
  | .hbm, ⟨16, _⟩ => ⟨S1x1048576, .f32⟩
  | .hbm, ⟨17, _⟩ => ⟨S1048576x1, .f32⟩
  | .local _ .vmem, ⟨0, _⟩ => ⟨S10x65536, .f32⟩
  | .local _ .vmem, ⟨1, _⟩ => ⟨S10x65536, .f32⟩
  | .local _ .vmem, ⟨2, _⟩ => ⟨S10x6, .f32⟩
  | .local _ .vmem, ⟨3, _⟩ => ⟨S6x1, .f32⟩
  | .local _ .vmem, ⟨4, _⟩ => ⟨S6x65536, .bf16⟩
  | .local _ .vmem, ⟨5, _⟩ => ⟨S6x65536, .bf16⟩
  | .local _ .vmem, ⟨6, _⟩ => ⟨S1x6x128, .f32⟩
  | .local _ .vmem, ⟨7, _⟩ => ⟨S1x6x128, .f32⟩
  | .local _ .vmem, ⟨8, _⟩ => ⟨S6x131072, .bf16⟩
  | .local _ .vmem, ⟨9, _⟩ => ⟨S6x131072, .bf16⟩
  | .local _ .vmem, ⟨10, _⟩ => ⟨S16x6x128, .f32⟩
  | .local _ .vmem, ⟨11, _⟩ => ⟨S6x1, .f32⟩
  | .local _ .vmem, ⟨12, _⟩ => ⟨S6x1, .f32⟩
  | .local _ .vmem, ⟨13, _⟩ => ⟨S6x1, .f32⟩
  | .local _ .vmem, ⟨14, _⟩ => ⟨S1x1, .f32⟩
  | .local _ .vmem, ⟨15, _⟩ => ⟨S1x131072, .f32⟩
  | .local _ .vmem, ⟨16, _⟩ => ⟨S1x131072, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x65536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S6x131072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x6x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S6x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S6x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x131072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S1048576x10_S10x1048576_1_0 : S1048576x10.Transposes [1, 0] S10x1048576
  transposes_S6x10_S10x6_1_0 : S6x10.Transposes [1, 0] S10x6
  shapeCasts_S6_S6x1 : S6.ShapeCasts S6x1
  inb_S10x65536_S8x65536_0_0 : ∀ a, (![0, 0] : Fin 2 → Nat) a + S8x65536.size a ≤ S10x65536.size a
  h_S8x65536 : 0 < S8x65536.numel
  shapeCasts_S8x65536_S8x65536 : S8x65536.ShapeCasts S8x65536
  inb_S10x65536_S2x65536_8_0 : ∀ a, (![8, 0] : Fin 2 → Nat) a + S2x65536.size a ≤ S10x65536.size a
  h_S2x65536 : 0 < S2x65536.numel
  shapeCasts_S2x65536_S2x65536 : S2x65536.ShapeCasts S2x65536
  inb_S10x6_S8x1_0_0 : ∀ a, (![0, 0] : Fin 2 → Nat) a + S8x1.size a ≤ S10x6.size a
  h_S8x1 : 0 < S8x1.numel
  shapeCasts_S8x1_S8x1 : S8x1.ShapeCasts S8x1
  inb_S10x6_S2x1_8_0 : ∀ a, (![8, 0] : Fin 2 → Nat) a + S2x1.size a ≤ S10x6.size a
  h_S2x1 : 0 < S2x1.numel
  shapeCasts_S2x1_S2x1 : S2x1.ShapeCasts S2x1
  broadcasts_S8x1_S8x65536 : S8x1.Broadcasts S8x65536
  reduces_S8x65536_S65536 : S8x65536.Reduces [0] S65536
  shapeCasts_S65536_S1x65536 : S65536.ShapeCasts S1x65536
  broadcasts_S2x1_S2x65536 : S2x1.Broadcasts S2x65536
  reduces_S2x65536_S65536 : S2x65536.Reduces [0] S65536
  inb_S10x6_S8x1_0_1 : ∀ a, (![0, 1] : Fin 2 → Nat) a + S8x1.size a ≤ S10x6.size a
  inb_S10x6_S2x1_8_1 : ∀ a, (![8, 1] : Fin 2 → Nat) a + S2x1.size a ≤ S10x6.size a
  inb_S10x6_S8x1_0_2 : ∀ a, (![0, 2] : Fin 2 → Nat) a + S8x1.size a ≤ S10x6.size a
  inb_S10x6_S2x1_8_2 : ∀ a, (![8, 2] : Fin 2 → Nat) a + S2x1.size a ≤ S10x6.size a
  inb_S10x6_S8x1_0_3 : ∀ a, (![0, 3] : Fin 2 → Nat) a + S8x1.size a ≤ S10x6.size a
  inb_S10x6_S2x1_8_3 : ∀ a, (![8, 3] : Fin 2 → Nat) a + S2x1.size a ≤ S10x6.size a
  inb_S10x6_S8x1_0_4 : ∀ a, (![0, 4] : Fin 2 → Nat) a + S8x1.size a ≤ S10x6.size a
  inb_S10x6_S2x1_8_4 : ∀ a, (![8, 4] : Fin 2 → Nat) a + S2x1.size a ≤ S10x6.size a
  inb_S10x6_S8x1_0_5 : ∀ a, (![0, 5] : Fin 2 → Nat) a + S8x1.size a ≤ S10x6.size a
  inb_S10x6_S2x1_8_5 : ∀ a, (![8, 5] : Fin 2 → Nat) a + S2x1.size a ≤ S10x6.size a
  concatenates_S1x65536_S1x65536_S1x65536_S1x65536_S1x65536_S1x65536_S6x65536_d0 : Shape.Concatenates [S1x65536, S1x65536, S1x65536, S1x65536, S1x65536, S1x65536] S6x65536 0
  inb_S6x1_S6x1_0_0 : ∀ a, (![0, 0] : Fin 2 → Nat) a + S6x1.size a ≤ S6x1.size a
  h_S6x1 : 0 < S6x1.numel
  shapeCasts_S6x1_S6x1 : S6x1.ShapeCasts S6x1
  broadcasts_S6x1_S6x65536 : S6x1.Broadcasts S6x65536
  bitsLt_bf16_f32 : FTy.bits .bf16 < FTy.bits .f32
  inb_S6x65536_S6x65536_0_0 : ∀ a, (![0, 0] : Fin 2 → Nat) a + S6x65536.size a ≤ S6x65536.size a
  h_S6x65536 : 0 < S6x65536.numel
  packedbf16_S6x65536_S6x65536_0_0 : (Rect.unit (s := S6x65536) ![0, 0] S6x65536.size inb_S6x65536_S6x65536_0_0).PackedRows (EltTy.packing .bf16)
  reduces_S6x65536_S6 : S6x65536.Reduces [1] S6
  iota_S6x128_d1_w32 : S6x128.Iotas .tc 32 [1]
  broadcasts_S6x1_S6x128 : S6x1.Broadcasts S6x128
  inb_S1x6x128_S1x6x128_0_0_0 : ∀ a, (![0, 0, 0] : Fin 3 → Nat) a + S1x6x128.size a ≤ S1x6x128.size a
  h_S1x6x128 : 0 < S1x6x128.numel
  shapeCasts_S1x6x128_S6x128 : S1x6x128.ShapeCasts S6x128
  shapeCasts_S6x128_S1x6x128 : S6x128.ShapeCasts S1x6x128
  shapeCasts_S1x6_S6x1 : S1x6.ShapeCasts S6x1
  shapeCasts_S1_S1x1 : S1.ShapeCasts S1x1
  inb_S16x6x128_S16x6x128_0_0_0 : ∀ a, (![0, 0, 0] : Fin 3 → Nat) a + S16x6x128.size a ≤ S16x6x128.size a
  h_S16x6x128 : 0 < S16x6x128.numel
  shapeCasts_S16x6x128_S16x6x128 : S16x6x128.ShapeCasts S16x6x128
  reduces_S16x6x128_S6x128 : S16x6x128.Reduces [0] S6x128
  slices_S6x128_o0_0_S6x1 : S6x128.Slices ![0, 0] S6x1
  slices_S6x128_o0_1_S6x1 : S6x128.Slices ![0, 1] S6x1
  shapeCasts_S6x1_S1x6x1 : S6x1.ShapeCasts S1x6x1
  reduces_S1x6x1_S1 : S1x6x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S6x131072_S6x131072_0_0 : ∀ a, (![0, 0] : Fin 2 → Nat) a + S6x131072.size a ≤ S6x131072.size a
  h_S6x131072 : 0 < S6x131072.numel
  shapeCasts_S6x131072_S6x131072 : S6x131072.ShapeCasts S6x131072
  broadcasts_S6x1_S6x131072 : S6x1.Broadcasts S6x131072
  reduces_S6x131072_S131072 : S6x131072.Reduces [0] S131072
  shapeCasts_S131072_S1x131072 : S131072.ShapeCasts S1x131072
  inb_S1x131072_S1x131072_0_0 : ∀ a, (![0, 0] : Fin 2 → Nat) a + S1x131072.size a ≤ S1x131072.size a
  h_S1x131072 : 0 < S1x131072.numel
  transposes_S1x1048576_S1048576x1_1_0 : S1x1048576.Transposes [1, 0] S1048576x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x65536.size a ≤ S10x1048576.size a
  hwx0_0 : ∀ i : grid0.Coords, EltTy.bits .f32 = 32 ∨ (Rect.block (s := S10x1048576) S10x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x6.size a ≤ S10x6.size a
  hwx0_1 : ∀ i : grid0.Coords, EltTy.bits .f32 = 32 ∨ (Rect.block (s := S10x6) S10x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x1.size a ≤ S6x1.size a
  hwx0_2 : ∀ i : grid0.Coords, EltTy.bits .f32 = 32 ∨ (Rect.block (s := S6x1) S6x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6x65536.size a ≤ S6x1048576.size a
  hwx0_3 : ∀ i : grid0.Coords, EltTy.bits .bf16 = 32 ∨ (Rect.block (s := S6x1048576) S6x65536.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x6x128.size a ≤ S16x6x128.size a
  hwx0_4 : ∀ i : grid0.Coords, EltTy.bits .f32 = 32 ∨ (Rect.block (s := S16x6x128) S1x6x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6x131072.size a ≤ S6x1048576.size a
  hwx1_0 : ∀ i : grid1.Coords, EltTy.bits .bf16 = 32 ∨ (Rect.block (s := S6x1048576) S6x131072.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x6x128.size a ≤ S16x6x128.size a
  hwx1_1 : ∀ i : grid1.Coords, EltTy.bits .f32 = 32 ∨ (Rect.block (s := S16x6x128) S16x6x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x1.size a ≤ S6x1.size a
  hwx1_2 : ∀ i : grid1.Coords, EltTy.bits .f32 = 32 ∨ (Rect.block (s := S6x1) S6x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x1.size a ≤ S6x1.size a
  hwx1_3 : ∀ i : grid1.Coords, EltTy.bits .f32 = 32 ∨ (Rect.block (s := S6x1) S6x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S6x1.size a ≤ S6x1.size a
  hwx1_4 : ∀ i : grid1.Coords, EltTy.bits .f32 = 32 ∨ (Rect.block (s := S6x1) S6x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x131072.size a ≤ S1x1048576.size a
  hwx1_6 : ∀ i : grid1.Coords, EltTy.bits .f32 = 32 ∨ (Rect.block (s := S1x1048576) S1x131072.size (cc1_transform_6 i) (hinb1_6 i)).WholeWords (EltTy.packing .f32)

variable [Facts₀]

abbrev win0_0 : Pipeline.Window sig grid0 :=
  Pipeline.Window.ofSpec (Memref.whole main_v0) S10x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S6x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S6x65536.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x6x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S6x131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S16x6x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S6x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S6x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S6x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x131072.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1048576x10 : Shape := ⟨2, ![1048576, 10]⟩
abbrev S6x10 : Shape := ⟨2, ![6, 10]⟩
abbrev S6 : Shape := ⟨1, ![6]⟩
abbrev S1x6 : Shape := ⟨2, ![1, 6]⟩
abbrev S1 : Shape := ⟨1, ![1]⟩
abbrev S10x1048576 : Shape := ⟨2, ![10, 1048576]⟩
abbrev S_ : Shape := ⟨0, ![]⟩
abbrev S6x1 : Shape := ⟨2, ![6, 1]⟩
abbrev S2048x6x128 : Shape := ⟨3, ![2048, 6, 128]⟩
abbrev S10x512 : Shape := ⟨2, ![10, 512]⟩
abbrev S1x6x128 : Shape := ⟨3, ![1, 6, 128]⟩
abbrev S6x512 : Shape := ⟨2, ![6, 512]⟩
abbrev S6x128 : Shape := ⟨2, ![6, 128]⟩
abbrev S2048x6x1 : Shape := ⟨3, ![2048, 6, 1]⟩
abbrev S2048x6 : Shape := ⟨2, ![2048, 6]⟩
abbrev S1x1 : Shape := ⟨2, ![1, 1]⟩
abbrev S1x1048576 : Shape := ⟨2, ![1, 1048576]⟩
abbrev S1x512 : Shape := ⟨2, ![1, 512]⟩
abbrev S512 : Shape := ⟨1, ![512]⟩
abbrev S1048576x1 : Shape := ⟨2, ![1048576, 1]⟩

abbrev nBuf : Space → Nat
  | .hbm => 50
  | .vmem => 14
  | .smem => 0
  | _ => 0

abbrev bufTy : (tb : Table) → Fin (tcTables nBuf tb) → BufTy
  | .hbm, ⟨0, _⟩ => ⟨S1048576x10, .f32⟩
  | .hbm, ⟨1, _⟩ => ⟨S6x10, .f32⟩
  | .hbm, ⟨2, _⟩ => ⟨S6, .f32⟩
  | .hbm, ⟨3, _⟩ => ⟨S6, .f32⟩
  | .hbm, ⟨4, _⟩ => ⟨S6, .f32⟩
  | .hbm, ⟨5, _⟩ => ⟨S1x6, .f32⟩
  | .hbm, ⟨6, _⟩ => ⟨S1, .f32⟩
  | .hbm, ⟨7, _⟩ => ⟨S10x1048576, .f32⟩
  | .hbm, ⟨8, _⟩ => ⟨S_, .i32⟩
  | .hbm, ⟨9, _⟩ => ⟨S_, .f32⟩
  | .hbm, ⟨10, _⟩ => ⟨S10x1048576, .f32⟩
  | .hbm, ⟨11, _⟩ => ⟨S6x1, .f32⟩
  | .hbm, ⟨12, _⟩ => ⟨S2048x6x128, .f32⟩
  | .hbm, ⟨13, _⟩ => ⟨S2048x6x1, .f32⟩
  | .hbm, ⟨14, _⟩ => ⟨S2048x6, .f32⟩
  | .hbm, ⟨15, _⟩ => ⟨S_, .f32⟩
  | .hbm, ⟨16, _⟩ => ⟨S6, .f32⟩
  | .hbm, ⟨17, _⟩ => ⟨S2048x6x1, .f32⟩
  | .hbm, ⟨18, _⟩ => ⟨S2048x6, .f32⟩
  | .hbm, ⟨19, _⟩ => ⟨S_, .f32⟩
  | .hbm, ⟨20, _⟩ => ⟨S6, .f32⟩
  | .hbm, ⟨21, _⟩ => ⟨S_, .f32⟩
  | .hbm, ⟨22, _⟩ => ⟨S6, .f32⟩
  | .hbm, ⟨23, _⟩ => ⟨S6, .f32⟩
  | .hbm, ⟨24, _⟩ => ⟨S_, .f32⟩
  | .hbm, ⟨25, _⟩ => ⟨S6, .f32⟩
  | .hbm, ⟨26, _⟩ => ⟨S6, .f32⟩
  | .hbm, ⟨27, _⟩ => ⟨S6, .f32⟩
  | .hbm, ⟨28, _⟩ => ⟨S6, .f32⟩
  | .hbm, ⟨29, _⟩ => ⟨S_, .f32⟩
  | .hbm, ⟨30, _⟩ => ⟨S6, .f32⟩
  | .hbm, ⟨31, _⟩ => ⟨S6, .f32⟩
  | .hbm, ⟨32, _⟩ => ⟨S_, .f32⟩
  | .hbm, ⟨33, _⟩ => ⟨S6, .f32⟩
  | .hbm, ⟨34, _⟩ => ⟨S6, .f32⟩
  | .hbm, ⟨35, _⟩ => ⟨S6, .f32⟩
  | .hbm, ⟨36, _⟩ => ⟨S6, .f32⟩
  | .hbm, ⟨37, _⟩ => ⟨S6, .f32⟩
  | .hbm, ⟨38, _⟩ => ⟨S6, .f32⟩
  | .hbm, ⟨39, _⟩ => ⟨S6, .f32⟩
  | .hbm, ⟨40, _⟩ => ⟨S6, .f32⟩
  | .hbm, ⟨41, _⟩ => ⟨S6x1, .f32⟩
  | .hbm, ⟨42, _⟩ => ⟨S6, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x1, .f32⟩
  | .hbm, ⟨48, _⟩ => ⟨S1x1048576, .f32⟩
  | .hbm, ⟨49, _⟩ => ⟨S1048576x1, .f32⟩
  | .local _ .vmem, ⟨0, _⟩ => ⟨S10x512, .f32⟩
  | .local _ .vmem, ⟨1, _⟩ => ⟨S10x512, .f32⟩
  | .local _ .vmem, ⟨2, _⟩ => ⟨S6x10, .f32⟩
  | .local _ .vmem, ⟨3, _⟩ => ⟨S6x1, .f32⟩
  | .local _ .vmem, ⟨4, _⟩ => ⟨S1x6x128, .f32⟩
  | .local _ .vmem, ⟨5, _⟩ => ⟨S1x6x128, .f32⟩
  | .local _ .vmem, ⟨6, _⟩ => ⟨S10x512, .f32⟩
  | .local _ .vmem, ⟨7, _⟩ => ⟨S10x512, .f32⟩
  | .local _ .vmem, ⟨8, _⟩ => ⟨S6x10, .f32⟩
  | .local _ .vmem, ⟨9, _⟩ => ⟨S6x1, .f32⟩
  | .local _ .vmem, ⟨10, _⟩ => ⟨S6x1, .f32⟩
  | .local _ .vmem, ⟨11, _⟩ => ⟨S1x1, .f32⟩
  | .local _ .vmem, ⟨12, _⟩ => ⟨S1x512, .f32⟩
  | .local _ .vmem, ⟨13, _⟩ => ⟨S1x512, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2048], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S10x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S6x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S1048576x10_S10x1048576_1_0 : S1048576x10.Transposes [1, 0] S10x1048576
  pads_S10x1048576_S10x1048576_000_000 : S10x1048576.Pads (![0, 0] : Fin 2 → Nat) ![0, 0] ![0, 0] S10x1048576
  h_S_ : 0 < S_.numel
  shapeCasts_S6_S6x1 : S6.ShapeCasts S6x1
  inb_S6x10_S6x10_0_0 : ∀ a, (![0, 0] : Fin 2 → Nat) a + S6x10.size a ≤ S6x10.size a
  h_S6x10 : 0 < S6x10.numel
  inb_S10x512_S10x512_0_0 : ∀ a, (![0, 0] : Fin 2 → Nat) a + S10x512.size a ≤ S10x512.size a
  h_S10x512 : 0 < S10x512.numel
  shapeCasts_S10x512_S10x512 : S10x512.ShapeCasts S10x512
  inb_S6x1_S6x1_0_0 : ∀ a, (![0, 0] : Fin 2 → Nat) a + S6x1.size a ≤ S6x1.size a
  h_S6x1 : 0 < S6x1.numel
  shapeCasts_S6x1_S6x1 : S6x1.ShapeCasts S6x1
  broadcasts_S6x1_S6x512 : S6x1.Broadcasts S6x512
  iota_S6x512_d1_w32 : S6x512.Iotas .tc 32 [1]
  reduces_S6x512_S6 : S6x512.Reduces [1] S6
  iota_S6x128_d1_w32 : S6x128.Iotas .tc 32 [1]
  broadcasts_S6x1_S6x128 : S6x1.Broadcasts S6x128
  inb_S1x6x128_S1x6x128_0_0_0 : ∀ a, (![0, 0, 0] : Fin 3 → Nat) a + S1x6x128.size a ≤ S1x6x128.size a
  h_S1x6x128 : 0 < S1x6x128.numel
  shapeCasts_S1x6x128_S6x128 : S1x6x128.ShapeCasts S6x128
  shapeCasts_S6x128_S1x6x128 : S6x128.ShapeCasts S1x6x128
  slices_S2048x6x128_S2048x6x1_0_0_0 : S2048x6x128.Slices ![0, 0, 0] S2048x6x1
  shapeCasts_S2048x6x1_S2048x6 : S2048x6x1.ShapeCasts S2048x6
  reducesTo_S2048x6_S6_d0 : S2048x6.ReducesTo [0] S6
  slices_S2048x6x128_S2048x6x1_0_0_1 : S2048x6x128.Slices ![0, 0, 1] S2048x6x1
  bcast_S_S6 : S_.BroadcastsInDim S6 (![] : Fin 0 → Fin S6.rank)
  shapeCasts_S1x6_S6 : S1x6.ShapeCasts S6
  reducesTo_S6_S_d0 : S6.ReducesTo [0] S_
  shapeCasts_S1_S_ : S1.ShapeCasts S_
  shapeCasts_S_S1x1 : S_.ShapeCasts S1x1
  reduces_S6x512_S512 : S6x512.Reduces [0] S512
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x512 : S1x1.Broadcasts S1x512
  inb_S1x512_S1x512_0_0 : ∀ a, (![0, 0] : Fin 2 → Nat) a + S1x512.size a ≤ S1x512.size a
  h_S1x512 : 0 < S1x512.numel
  transposes_S1x1048576_S1048576x1_1_0 : S1x1048576.Transposes [1, 0] S1048576x1
  dot_S6x10_S10x512_S6x512_1_0_0_1_n_n_wf : DotDims.WF S6x10 S10x512 S6x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x512.size a ≤ S10x1048576.size a
  hwx0_0 : ∀ i : grid0.Coords, EltTy.bits .f32 = 32 ∨ (Rect.block (s := S10x1048576) S10x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x10.size a ≤ S6x10.size a
  hwx0_1 : ∀ i : grid0.Coords, EltTy.bits .f32 = 32 ∨ (Rect.block (s := S6x10) S6x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x1.size a ≤ S6x1.size a
  hwx0_2 : ∀ i : grid0.Coords, EltTy.bits .f32 = 32 ∨ (Rect.block (s := S6x1) S6x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x6x128.size a ≤ S2048x6x128.size a
  hwx0_3 : ∀ i : grid0.Coords, EltTy.bits .f32 = 32 ∨ (Rect.block (s := S2048x6x128) S1x6x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10x512.size a ≤ S10x1048576.size a
  hwx1_0 : ∀ i : grid1.Coords, EltTy.bits .f32 = 32 ∨ (Rect.block (s := S10x1048576) S10x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x10.size a ≤ S6x10.size a
  hwx1_1 : ∀ i : grid1.Coords, EltTy.bits .f32 = 32 ∨ (Rect.block (s := S6x10) S6x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x1.size a ≤ S6x1.size a
  hwx1_2 : ∀ i : grid1.Coords, EltTy.bits .f32 = 32 ∨ (Rect.block (s := S6x1) S6x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x1.size a ≤ S6x1.size a
  hwx1_3 : ∀ i : grid1.Coords, EltTy.bits .f32 = 32 ∨ (Rect.block (s := S6x1) S6x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x1048576.size a
  hwx1_5 : ∀ i : grid1.Coords, EltTy.bits .f32 = 32 ∨ (Rect.block (s := S1x1048576) S1x512.size (cc1_transform_5 i) (hinb1_5 i)).WholeWords (EltTy.packing .f32)

variable [Facts₀]

def dot_S6x10_S10x512_S6x512_1_0_0_1_n_n : DotDims S6x10 S10x512 S6x512 where
  lhsContracting := [1]
  rhsContracting := [0]
  lhsNonContracting := [0]
  rhsNonContracting := [1]
  lhsBatch := []
  rhsBatch := []
  wf := dot_S6x10_S10x512_S6x512_1_0_0_1_n_n_wf

abbrev win0_0 : Pipeline.Window sig grid0 :=
  Pipeline.Window.ofSpec (Memref.whole main_v1) S10x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S6x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x6x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S10x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S6x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S6x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.KRun.lean ====
/-
  The idealized kernel's run with its RESULT named. The program is five segments: three host stretches and two
  pipelined regions. After the last stretch every unscoped buffer of a core holds the last boundary's contents
  (the fold of the stretches and of the regions' write-backs from the launch memory), so in every final state the
  result buffer holds that fold read at the result, and the seven arguments are as launched.
-/
import proofs.«111320_g2000302046306206_pallasbulk_911_14_alg».proof.Proof.Gen.KernelIdeal.Frame

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and each argument as launched. -/
theorem run_named : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.KRun

end
-- ==== Proof.KHost.lean ====
/-
  The idealized kernel's host side: what the buffers the two passes read hold when each pass is entered, and what the
  result buffer holds at the end, in terms of the launch memory and of the arrays the passes leave.

  Before the first pass the input and the first layer's weights are transposed and the bias is viewed as a column.
  Between the passes gamma, beta and the second layer's weights are viewed as columns and its bias as a 1×1 cell; the
  first pass's two output arrays are untouched. After the second pass its [1, B] output row is transposed to [B, 1].
-/
import proofs.«111320_g2000302046306206_pallasbulk_911_14_alg».proof.Proof.Gen.KernelIdeal.Frame
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo
open Idealize.SL.Sem

variable {F : FTy → Type} [FloatOps F]

/-! ## Each stretch over any contents -/

section Stretches
variable (X : Valuation τ sig (Elt F))

theorem pre_xt : after (hostOps0 (F := F)) X (Proc.devRef .tc main_v0)
    = transpose S10x1048576 [1, 0] (X (Proc.devRef .tc main_arg0)) transposes_S1048576x10_S10x1048576_1_0 := by
  after_results <;> rfl
theorem pre_w1t : after (hostOps0 (F := F)) X (Proc.devRef .tc main_v1)
    = transpose S10x6 [1, 0] (X (Proc.devRef .tc main_arg1)) transposes_S6x10_S10x6_1_0 := by
  after_results <;> rfl
theorem pre_b1c : after (hostOps0 (F := F)) X (Proc.devRef .tc main_v2)
    = shapeCast S6x1 (X (Proc.devRef .tc main_arg2)) shapeCasts_S6_S6x1 := by
  after_results <;> rfl
theorem pre_keep3 : after (hostOps0 (F := F)) X (Proc.devRef .tc main_arg3) = X (Proc.devRef .tc main_arg3) := by after_results <;> rfl
theorem pre_keep4 : after (hostOps0 (F := F)) X (Proc.devRef .tc main_arg4) = X (Proc.devRef .tc main_arg4) := by after_results <;> rfl
theorem pre_keep5 : after (hostOps0 (F := F)) X (Proc.devRef .tc main_arg5) = X (Proc.devRef .tc main_arg5) := by after_results <;> rfl
theorem pre_keep6 : after (hostOps0 (F := F)) X (Proc.devRef .tc main_arg6) = X (Proc.devRef .tc main_arg6) := by after_results <;> rfl

theorem mid_h : after (hostOps1 (F := F)) X (Proc.devRef .tc main_v3_0) = X (Proc.devRef .tc main_v3_0) := by after_results <;> rfl
theorem mid_s : after (hostOps1 (F := F)) X (Proc.devRef .tc main_v3_1) = X (Proc.devRef .tc main_v3_1) := by after_results <;> rfl
theorem mid_g : after (hostOps1 (F := F)) X (Proc.devRef .tc main_v4)
    = shapeCast S6x1 (X (Proc.devRef .tc main_arg3)) shapeCasts_S6_S6x1 := by after_results <;> rfl
theorem mid_bt : after (hostOps1 (F := F)) X (Proc.devRef .tc main_v5)
    = shapeCast S6x1 (X (Proc.devRef .tc main_arg4)) shapeCasts_S6_S6x1 := by after_results <;> rfl
theorem mid_w2c : after (hostOps1 (F := F)) X (Proc.devRef .tc main_v6)
    = shapeCast S6x1 (X (Proc.devRef .tc main_arg5)) shapeCasts_S1x6_S6x1 := by after_results <;> rfl
theorem mid_b2c : after (hostOps1 (F := F)) X (Proc.devRef .tc main_v7)
    = shapeCast S1x1 (X (Proc.devRef .tc main_arg6)) shapeCasts_S1_S1x1 := by after_results <;> rfl

theorem post_out : after (hostOps2 (F := F)) X (Proc.devRef .tc main_v9)
    = transpose S1048576x1 [1, 0] (X (Proc.devRef .tc main_v8)) transposes_S1x1048576_S1048576x1_1_0 := by
  after_results <;> rfl

end Stretches

/-! ## The run's boundaries -/

variable (m : (ℓ : Loc nD τ sig) → Buf (Elt F) ℓ) (ρ : Dev nD → PrngReg)

/-- What the first pass reads. -/
theorem entry0_xt (c : Dev nD) : V1 m ρ c main_v0
    = transpose S10x1048576 [1, 0] (m ((c : Thread nD τ).loc main_arg0)) transposes_S1048576x10_S10x1048576_1_0 := pre_xt (W0 m ρ c)
theorem entry0_w1t (c : Dev nD) : V1 m ρ c main_v1
    = transpose S10x6 [1, 0] (m ((c : Thread nD τ).loc main_arg1)) transposes_S6x10_S10x6_1_0 := pre_w1t (W0 m ρ c)
theorem entry0_b1c (c : Dev nD) : V1 m ρ c main_v2
    = shapeCast S6x1 (m ((c : Thread nD τ).loc main_arg2)) shapeCasts_S6_S6x1 := pre_b1c (W0 m ρ c)

/-- What the second pass reads: the first pass's two arrays, and the four small arguments re-laid. -/
theorem entry1_h (c : Dev nD) : V3 m ρ c main_v3_0 = (dat0 (V1 m ρ) c).arrAt 3 cfg0.N :=
  (mid_h (W2 m ρ c)).trans (W2_arr m ρ c 3)
theorem entry1_s (c : Dev nD) : V3 m ρ c main_v3_1 = (dat0 (V1 m ρ) c).arrAt 4 cfg0.N :=
  (mid_s (W2 m ρ c)).trans (W2_arr m ρ c 4)
theorem entry1_g (c : Dev nD) : V3 m ρ c main_v4 = shapeCast S6x1 (m ((c : Thread nD τ).loc main_arg3)) shapeCasts_S6_S6x1 := by
  refine (mid_g (W2 m ρ c)).trans (congrArg (fun x => shapeCast S6x1 x shapeCasts_S6_S6x1) ?_)
  exact (W2_of_ne m ρ c main_arg3 (by decide)).trans (pre_keep3 (W0 m ρ c))
theorem entry1_bt (c : Dev nD) : V3 m ρ c main_v5 = shapeCast S6x1 (m ((c : Thread nD τ).loc main_arg4)) shapeCasts_S6_S6x1 := by
  refine (mid_bt (W2 m ρ c)).trans (congrArg (fun x => shapeCast S6x1 x shapeCasts_S6_S6x1) ?_)
  exact (W2_of_ne m ρ c main_arg4 (by decide)).trans (pre_keep4 (W0 m ρ c))
theorem entry1_w2c (c : Dev nD) : V3 m ρ c main_v6 = shapeCast S6x1 (m ((c : Thread nD τ).loc main_arg5)) shapeCasts_S1x6_S6x1 := by
  refine (mid_w2c (W2 m ρ c)).trans (congrArg (fun x => shapeCast S6x1 x shapeCasts_S1x6_S6x1) ?_)
  exact (W2_of_ne m ρ c main_arg5 (by decide)).trans (pre_keep5 (W0 m ρ c))
theorem entry1_b2c (c : Dev nD) : V3 m ρ c main_v7 = shapeCast S1x1 (m ((c : Thread nD τ).loc main_arg6)) shapeCasts_S1_S1x1 := by
  refine (mid_b2c (W2 m ρ c)).trans (congrArg (fun x => shapeCast S1x1 x shapeCasts_S1_S1x1) ?_)
  exact (W2_of_ne m ρ c main_arg6 (by decide)).trans (pre_keep6 (W0 m ρ c))

/-- The result buffer at the end: the second pass's output row, transposed. -/
theorem result_eq (c : Dev nD) : W5 m ρ c (Proc.devRef .tc main_v9)
    = transpose S1048576x1 [1, 0] ((dat1 (V3 m ρ) c).arrAt 6 cfg1.N) transposes_S1x1048576_S1048576x1_1_0 :=
  (post_out (W4 m ρ c)).trans (congrArg (fun x => transpose S1048576x1 [1, 0] x transposes_S1x1048576_S1048576x1_1_0) (W4_arr m ρ c 6))

end Cert.KernelIdeal.KHost

end
-- ==== Proof.KForms.lean ====
/-
  The kernel's arrangement of the two-layer network, as plain functions of its arrays, index by index, on the
  extended reals.

  Layer one at feature f of sample b is the sum over the first eight input features plus the sum over the last two
  of input times weight, plus the bias, clamped below at zero. A block i of 65536 consecutive samples contributes, to
  lane 0 of its statistics row f, the sum of the activations and, to lane 1, the sum of their squares. The second pass
  totals the sixteen blocks' rows, forms mean = total · 2^-20 and variance = max(square total · 2^-20 - mean², 0),
  the scale gamma · rsqrt(variance + eps) and the shift beta - mean · scale, folds both into the second layer's
  weights and bias, and applies 0.5 · tanh(0.5 · y) + 0.5 to y = (sum over the features of activation times
  folded weight) plus folded bias. Float literals are kept as their words.
-/
import Idealize.ShloMosaic.Lib.ValueIdx
import Idealize.ShloMosaic.PureOps.Ideal.Laws

noncomputable section

namespace TwoLayer

open Idealize.ShloMosaic Idealize.ShloMosaic.ValueIdx

/-- Sample number q of block i, for blocks of 65536 samples. -/
def at65536 (i : Fin 16) (q : Fin 65536) : Fin 1048576 := ⟨i.val * 65536 + q.val, by have := i.isLt; have := q.isLt; omega⟩
/-- Sample number q of block i, for blocks of 131072 samples. -/
def at131072 (i : Fin 8) (q : Fin 131072) : Fin 1048576 := ⟨i.val * 131072 + q.val, by have := i.isLt; have := q.isLt; omega⟩
/-- Input feature k of the first eight. -/
def lo8 (k : Fin 8) : Fin 10 := ⟨k.val, by have := k.isLt; omega⟩
/-- Input feature 8 + k of the last two. -/
def hi2 (k : Fin 2) : Fin 10 := ⟨8 + k.val, by have := k.isLt; omega⟩

/-- Layer one with its clamp at zero, the sum over the ten input features taken as eight plus two. -/
def hidK (xt : (⟨2, ![10, 1048576]⟩ : Shape).Idx → EReal) (w1t : (⟨2, ![10, 6]⟩ : Shape).Idx → EReal)
    (b1c : (⟨2, ![6, 1]⟩ : Shape).Idx → EReal) (f : Fin 6) (b : Fin 1048576) : EReal :=
  max (((∑ k : Fin 8, xt (ix2 (lo8 k) b) * w1t (ix2 (lo8 k) f)) + (∑ k : Fin 2, xt (ix2 (hi2 k) b) * w1t (ix2 (hi2 k) f)))
    + b1c (ix2 f (0 : Fin 1))) (Ideal.ofBits .f32 0x00000000#32)

/-- The statistics block i, row f, lane l: the block's sum of activations in lane 0, of their squares in lane 1. -/
def statK (xt : (⟨2, ![10, 1048576]⟩ : Shape).Idx → EReal) (w1t : (⟨2, ![10, 6]⟩ : Shape).Idx → EReal)
    (b1c : (⟨2, ![6, 1]⟩ : Shape).Idx → EReal) (i : Fin 16) (f : Fin 6) (l : Fin 128) : EReal :=
  (if l.val = 0 then ∑ q : Fin 65536, hidK xt w1t b1c f (at65536 i q) else Ideal.ofBits .f32 0x00000000#32)
    + (if l.val = 1 then ∑ q : Fin 65536, hidK xt w1t b1c f (at65536 i q) * hidK xt w1t b1c f (at65536 i q)
        else Ideal.ofBits .f32 0x00000000#32)

/-- Row f, lane l of the statistics totalled over the sixteen blocks. -/
def totK (st : (⟨3, ![16, 6, 128]⟩ : Shape).Idx → EReal) (f : Fin 6) (l : Fin 128) : EReal := ∑ i : Fin 16, st (ix3 i f l)

/-- The batch mean of feature f: its total times 2^-20. -/
def meanK (st : (⟨3, ![16, 6, 128]⟩ : Shape).Idx → EReal) (f : Fin 6) : EReal :=
  totK st f (0 : Fin 128) * Ideal.ofBits .f32 0x35800000#32

/-- The batch variance of feature f, clamped below at zero. -/
def varK (st : (⟨3, ![16, 6, 128]⟩ : Shape).Idx → EReal) (f : Fin 6) : EReal :=
  max (totK st f (1 : Fin 128) * Ideal.ofBits .f32 0x35800000#32 - meanK st f * meanK st f) (Ideal.ofBits .f32 0x00000000#32)

/-- gamma · rsqrt(variance + eps). -/
def scaleK (st : (⟨3, ![16, 6, 128]⟩ : Shape).Idx → EReal) (g : (⟨2, ![6, 1]⟩ : Shape).Idx → EReal) (f : Fin 6) : EReal :=
  g (ix2 f (0 : Fin 1)) * Ideal.rsqrt (varK st f + Ideal.ofBits .f32 0x3727C5AC#32)

/-- beta - mean · scale. -/
def shiftK (st : (⟨3, ![16, 6, 128]⟩ : Shape).Idx → EReal) (g bt : (⟨2, ![6, 1]⟩ : Shape).Idx → EReal) (f : Fin 6) : EReal :=
  bt (ix2 f (0 : Fin 1)) - meanK st f * scaleK st g f

/-- The second layer's weight with the scale folded in. -/
def w2eK (st : (⟨3, ![16, 6, 128]⟩ : Shape).Idx → EReal) (g w2c : (⟨2, ![6, 1]⟩ : Shape).Idx → EReal) (f : Fin 6) : EReal :=
  w2c (ix2 f (0 : Fin 1)) * scaleK st g f

/-- The second layer's bias with the shift folded in: the sum over the [1,6,1] array of weight times shift, plus the bias. -/
def b2eK (st : (⟨3, ![16, 6, 128]⟩ : Shape).Idx → EReal) (g bt w2c : (⟨2, ![6, 1]⟩ : Shape).Idx → EReal)
    (b2c : (⟨2, ![1, 1]⟩ : Shape).Idx → EReal) : EReal :=
  (∑ j : (⟨3, ![1, 6, 1]⟩ : Shape).Idx, w2c (ix2 (j 1) (0 : Fin 1)) * shiftK st g bt (j 1)) + b2c (ix2 (0 : Fin 1) (0 : Fin 1))

/-- The output at sample b from the cached activations h and the statistics st. -/
def outK (h : (⟨2, ![6, 1048576]⟩ : Shape).Idx → EReal) (st : (⟨3, ![16, 6, 128]⟩ : Shape).Idx → EReal)
    (g bt w2c : (⟨2, ![6, 1]⟩ : Shape).Idx → EReal) (b2c : (⟨2, ![1, 1]⟩ : Shape).Idx → EReal) (b : Fin 1048576) : EReal :=
  Ideal.ofBits .f32 0x3F000000#32
      * Ideal.tanh (Ideal.ofBits .f32 0x3F000000#32 * ((∑ f : Fin 6, h (ix2 f b) * w2eK st g w2c f) + b2eK st g bt w2c b2c))
    + Ideal.ofBits .f32 0x3F000000#32

end TwoLayer

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«111320_g2000302046306206_pallasbulk_911_14_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.KLayout.lean ====
/-
  Composite layout steps of the kernel's first pass, read at an index at exact arithmetic.

  A matrix [A,B] multiplied entrywise by an [A,1] column spread along the columns, summed down the rows and kept
  as the [1,B] row, reads at (0,q) the sum over k of X(k,q) · W(k,0). Six [1,B] rows stacked along axis 0 read, at
  (f,q), row f at (0,q).
-/
import Idealize.ShloMosaic.Lib.ValueIdx
import Idealize.ShloMosaic.Lib.Pipeline.Value
import Idealize.ShloMosaic.PureOps.Ideal.Laws
import proofs.«111320_g2000302046306206_pallasbulk_911_14_alg».proof.Proof.LibKeepdims
import proofs.«111320_g2000302046306206_pallasbulk_911_14_alg».proof.Proof.LibColumnOps
import proofs.«111320_g2000302046306206_pallasbulk_911_14_alg».proof.Proof.LibRowOps

noncomputable section

namespace TwoLayer.Layout

open Idealize.ShloMosaic Idealize.ShloMosaic.ValueIdx

/-- Σ_k X(k,q) · W(k,0), as the kernel computes it: broadcast, multiply, sum over axis 0, keep as a row. -/
theorem weighted_colsum_row_apply {A B : ℕ} (X : FVec Ideal ⟨2, ![A, B]⟩ .f32) (W : FVec Ideal ⟨2, ![A, 1]⟩ .f32)
    (hb : (⟨2, ![A, 1]⟩ : Shape).Broadcasts ⟨2, ![A, B]⟩) (hred : Shape.Reduces ⟨2, ![A, B]⟩ [0] ⟨1, ![B]⟩)
    (hc : (⟨1, ![B]⟩ : Shape).ShapeCasts ⟨2, ![1, B]⟩) (hφ : FKind.Formats .f32)
    (hacc : (0x00000000#32 : BitVec 32) = 0x00000000#32) (z : Fin 1) (q : Fin B) :
    shapeCast ⟨2, ![1, B]⟩
        (multiReduction .add [0] ⟨1, ![B]⟩ (mulf X (broadcastTo ⟨2, ![A, B]⟩ W hb)) 0x00000000#32 hred hφ hacc) hc (ix2 z q)
      = ∑ k : Fin A, X (ix2 k q) * W (ix2 k (0 : Fin 1)) := by
  refine (LibRowOps.shapeCast_row_apply _ hc z q).trans ?_
  refine (LibKeepdims.sum_axis0_apply _ 0x00000000#32 hred hφ hacc q).trans ?_
  refine Finset.sum_congr rfl fun k _ => ?_
  refine (mulf_apply _ _ _).trans ?_
  exact congrArg (X (ix2 k q) * ·) (LibColumnOps.broadcastTo_col_apply W hb k q)

/-- The same sum when the product is already formed: sum over axis 0, keep as a row. -/
theorem colsum_row_apply {A B : ℕ} (Y : FVec Ideal ⟨2, ![A, B]⟩ .f32)
    (hred : Shape.Reduces ⟨2, ![A, B]⟩ [0] ⟨1, ![B]⟩)
    (hc : (⟨1, ![B]⟩ : Shape).ShapeCasts ⟨2, ![1, B]⟩) (hφ : FKind.Formats .f32)
    (hacc : (0x00000000#32 : BitVec 32) = 0x00000000#32) (z : Fin 1) (q : Fin B) :
    shapeCast ⟨2, ![1, B]⟩ (multiReduction .add [0] ⟨1, ![B]⟩ Y 0x00000000#32 hred hφ hacc) hc (ix2 z q)
      = ∑ k : Fin A, Y (ix2 k q) := by
  refine (LibRowOps.shapeCast_row_apply _ hc z q).trans ?_
  exact LibKeepdims.sum_axis0_apply Y 0x00000000#32 hred hφ hacc q

/-- A row sum kept as an [A,1] column and spread along C lanes, at (p,l): the sum of row p. -/
theorem rowsum_lanes_apply {A B C : ℕ} (Y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = 0x00000000#32) (p : Fin A) (l : Fin C) :
    broadcastTo ⟨2, ![A, C]⟩ (shapeCast ⟨2, ![A, 1]⟩ (multiReduction .add [1] ⟨1, ![A]⟩ Y 0x00000000#32 hred hφ hacc) hcast) hb (ix2 p l)
      = ∑ q : Fin B, Y (ix2 p q) := by
  refine (LibColumnOps.broadcastTo_col_apply _ hb p l).trans ?_
  refine (LibKeepdims.shapeCast_col_apply _ hcast p (0 : Fin 1)).trans ?_
  exact LibKeepdims.sum_axis1_apply Y 0x00000000#32 hred hφ hacc p

/-- A lane mask: the 32-bit words of two lane numbers below 128 are equal exactly when the numbers are. -/
theorem lane_select {α : Type} (n m : ℕ) (hn : n < 128) (hm : m < 128) (a b : α) :
    Scalar.select (IntOp.cmpi .eq (BitVec.ofNat 32 n) (BitVec.ofNat 32 m)) a b = if n = m then a else b := by
  show (if BitVec.ofBool (BitVec.ofNat 32 n == BitVec.ofNat 32 m) = 1#1 then a else b) = _
  by_cases h : n = m
  · subst h
    rw [beq_self_eq_true, if_pos rfl]
    exact if_pos (by decide)
  · have hne : (BitVec.ofNat 32 n) ≠ (BitVec.ofNat 32 m) := by
      intro e; apply h
      have := congrArg BitVec.toNat e
      simp only [BitVec.toNat_ofNat] at this
      omega
    have hb : (BitVec.ofNat 32 n == BitVec.ofNat 32 m) = false := beq_eq_false_iff_ne.mpr hne
    rw [hb, if_neg h]
    exact if_neg (by decide)

/-- Six [1,B] rows stacked along axis 0, read at (f,q): row f at (0,q). -/
theorem concat6_apply {α : Type} {B : ℕ} (v0 v1 v2 v3 v4 v5 : (⟨2, ![1, B]⟩ : Shape).Idx → α)
    (h : Shape.Concatenates (([⟨⟨2, ![1, B]⟩, v0⟩, ⟨⟨2, ![1, B]⟩, v1⟩, ⟨⟨2, ![1, B]⟩, v2⟩, ⟨⟨2, ![1, B]⟩, v3⟩,
      ⟨⟨2, ![1, B]⟩, v4⟩, ⟨⟨2, ![1, B]⟩, v5⟩] : List ((s : Shape) × (s.Idx → α))).map (·.1)) ⟨2, ![6, B]⟩ (0 : Fin 2))
    (f : Fin 6) (q : Fin B) :
    concatenate ⟨2, ![6, B]⟩ (0 : Fin 2) [⟨⟨2, ![1, B]⟩, v0⟩, ⟨⟨2, ![1, B]⟩, v1⟩, ⟨⟨2, ![1, B]⟩, v2⟩, ⟨⟨2, ![1, B]⟩, v3⟩,
      ⟨⟨2, ![1, B]⟩, v4⟩, ⟨⟨2, ![1, B]⟩, v5⟩] h (ix2 f q)
      = (match f with
          | ⟨0, _⟩ => v0 | ⟨1, _⟩ => v1 | ⟨2, _⟩ => v2 | ⟨3, _⟩ => v3 | ⟨4, _⟩ => v4 | ⟨5, _⟩ => v5
          | ⟨_ + 6, hf⟩ => absurd hf (by omega)) (ix2 (0 : Fin 1) q) := by
  have side : ∀ (k : ℕ) (hk : k < 6) (b : Fin 2), b.cast (rfl : (2 : ℕ) = 2) ≠ (0 : Fin 2) →
      ((ix2 (0 : Fin 1) q : (⟨2, ![1, B]⟩ : Shape).Idx) b).val = ((ix2 (⟨k, hk⟩ : Fin 6) q : (⟨2, ![6, B]⟩ : Shape).Idx) (b.cast rfl)).val := by
    intro k hk b hb
    match b with
    | ⟨0, _⟩ => exact absurd rfl hb
    | ⟨1, _⟩ => rfl
  let xs : List ((s : Shape) × (s.Idx → α)) := [⟨⟨2, ![1, B]⟩, v0⟩, ⟨⟨2, ![1, B]⟩, v1⟩, ⟨⟨2, ![1, B]⟩, v2⟩, ⟨⟨2, ![1, B]⟩, v3⟩,
      ⟨⟨2, ![1, B]⟩, v4⟩, ⟨⟨2, ![1, B]⟩, v5⟩]
  have hlen : ∀ k, k < 6 → k < xs.length := fun k hk => hk
  match f with
  | ⟨0, hf⟩ => exact concatenate_apply_piece (0 : Fin 2) xs h (ix2 (⟨0, hf⟩ : Fin 6) q) 0 (hlen 0 (by omega)) _ v0 rfl rfl 0 rfl (ix2 (0 : Fin 1) q) (side 0 hf) rfl
  | ⟨1, hf⟩ => exact concatenate_apply_piece (0 : Fin 2) xs h (ix2 (⟨1, hf⟩ : Fin 6) q) 1 (hlen 1 (by omega)) _ v1 rfl rfl 1 rfl (ix2 (0 : Fin 1) q) (side 1 hf) rfl
  | ⟨2, hf⟩ => exact concatenate_apply_piece (0 : Fin 2) xs h (ix2 (⟨2, hf⟩ : Fin 6) q) 2 (hlen 2 (by omega)) _ v2 rfl rfl 2 rfl (ix2 (0 : Fin 1) q) (side 2 hf) rfl
  | ⟨3, hf⟩ => exact concatenate_apply_piece (0 : Fin 2) xs h (ix2 (⟨3, hf⟩ : Fin 6) q) 3 (hlen 3 (by omega)) _ v3 rfl rfl 3 rfl (ix2 (0 : Fin 1) q) (side 3 hf) rfl
  | ⟨4, hf⟩ => exact concatenate_apply_piece (0 : Fin 2) xs h (ix2 (⟨4, hf⟩ : Fin 6) q) 4 (hlen 4 (by omega)) _ v4 rfl rfl 4 rfl (ix2 (0 : Fin 1) q) (side 4 hf) rfl
  | ⟨5, hf⟩ => exact concatenate_apply_piece (0 : Fin 2) xs h (ix2 (⟨5, hf⟩ : Fin 6) q) 5 (hlen 5 (by omega)) _ v5 rfl rfl 5 rfl (ix2 (0 : Fin 1) q) (side 5 hf) rfl
  | ⟨_ + 6, hf⟩ => exact absurd hf (by omega)

end TwoLayer.Layout

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.KReg0.lean ====
/-
  What the kernel's first pass leaves in its two output arrays.

  At a grid point the body sees a [10,65536] block of the transposed input, the whole [10,6] transposed weights and
  the [6,1] bias column. It stores, as its activation block, entry (f,q) = max((Σ over the first eight input features
  + Σ over the last two of input · weight) + bias_f, 0), and, as its statistics block [1,6,128], in lane 0 of row f the
  sum over the block's 65536 columns of the activations, in lane 1 the sum of their squares, 0 + 0 in every other lane.
  Block t of the activation array covers columns t·65536 … t·65536 + 65535, block t of the statistics array is row
  block t; both families cover their arrays, so after the pass each array is the whole-array function of the pass's
  input arrays that these blocks are pieces of.
-/
import proofs.«111320_g2000302046306206_pallasbulk_911_14_alg».proof.Proof.Gen.KernelIdeal.Frame
import proofs.«111320_g2000302046306206_pallasbulk_911_14_alg».proof.Proof.KForms
import proofs.«111320_g2000302046306206_pallasbulk_911_14_alg».proof.Proof.KLayout
import proofs.«111320_g2000302046306206_pallasbulk_911_14_alg».proof.Proof.LibRowLayouts
import proofs.«111320_g2000302046306206_pallasbulk_911_14_alg».proof.Proof.LibColumnOps
import proofs.«111320_g2000302046306206_pallasbulk_911_14_alg».proof.Proof.LibKeepdims

set_option maxRecDepth 16384

noncomputable section

namespace Cert.KernelIdeal.KReg0

open Cert.KernelIdeal Cert.KernelIdeal.Gen
open Idealize.ShloMosaic Idealize.ShloMosaic.TcCoe Idealize.ShloMosaic.ValueIdx
open TwoLayer

/-! ## A load through a unit-stride rectangle, read at an index -/

/-- A load through a unit-stride rectangle reads, at j, the contents at offset + j on every axis. -/
theorem ld_unit_apply {S : Shape} {Val : EltTy → Type} {e : EltTy} (X : S.Idx → Val e) (off size : Fin S.rank → ℕ)
    (inb : ∀ a, off a + size a ≤ S.size a) (j : (Rect.unit (s := S) off size inb).shape.Idx) (i : S.Idx)
    (h : ∀ a, (i a).val = off a + (j a).val) : View.ld X (Rect.unit off size inb) j = X i := by
  show X ((Rect.unit off size inb).emb j) = X i
  refine congrArg X (funext fun a => Fin.ext ?_)
  rw [Rect.emb_apply, h a]
  show off a + 1 * (j a).val = off a + (j a).val
  omega

/-! ## The body's values over the three input blocks -/

/-- The weighted sum over the ten input features at (f,q), taken as eight plus two, from the input block x0 and the
    transposed weights x1. -/
def rowSum (x0 : FVec Ideal S10x65536 .f32) (x1 : FVec Ideal S10x6 .f32) (f : Fin 6) (q : Fin 65536) : EReal :=
  (∑ k : Fin 8, x0 (ix2 (lo8 k) q) * x1 (ix2 (lo8 k) f)) + (∑ k : Fin 2, x0 (ix2 (hi2 k) q) * x1 (ix2 (hi2 k) f))

/-- Entry (f,q) of the activation block: the weighted sum plus the bias, clamped below at zero. -/
def hidBlk (x0 : FVec Ideal S10x65536 .f32) (x1 : FVec Ideal S10x6 .f32) (x2 : FVec Ideal S6x1 .f32) (f : Fin 6) (q : Fin 65536) : EReal :=
  max (rowSum x0 x1 f q + x2 (ix2 f (0 : Fin 1))) (Ideal.ofBits .f32 0x00000000#32)

/-- The activation block before its change of format, as the body computes it. -/
def hblock (x0 : Vec Ideal S10x65536 .f32) (x1 : Vec Ideal S10x6 .f32) (x2 : Vec Ideal S6x1 .f32) : FVec Ideal S6x65536 .f32 :=
  k0_pay1 (k0_pay6 (View.ld x0 r0_0) (View.ld x0 r0_1) (View.ld x1 r0_2) (View.ld x1 r0_3)) (k0_pay7 (View.ld x0 r0_0) (View.ld x0 r0_1) (View.ld x1 r0_4) (View.ld x1 r0_5)) (k0_pay10 (k0_pay5 (View.ld x0 r0_1)) (k0_pay8 (View.ld x1 r0_7)) (k0_pay9 (View.ld x0 r0_0) (View.ld x1 r0_6))) (k0_pay11 (k0_pay4 (View.ld x0 r0_0)) (k0_pay5 (View.ld x0 r0_1)) (View.ld x1 r0_8) (View.ld x1 r0_9)) (k0_pay12 (k0_pay4 (View.ld x0 r0_0)) (k0_pay5 (View.ld x0 r0_1)) (View.ld x1 r0_10) (View.ld x1 r0_11)) (k0_pay13 (k0_pay4 (View.ld x0 r0_0)) (View.ld x1 r0_12)) (k0_pay14 (k0_pay5 (View.ld x0 r0_1)) (View.ld x1 r0_13)) (View.ld x2 r0_14)

/-- One row of the stack: the two weighted column sums of the loaded pieces, added. -/
theorem row_apply (x0 : Vec Ideal S10x65536 .f32) (x1 : Vec Ideal S10x6 .f32) (W8 : FVec Ideal S8x1 .f32) (W2 : FVec Ideal S2x1 .f32)
    (f : Fin 6) (hW8 : ∀ k : Fin 8, W8 (ix2 k (0 : Fin 1)) = x1 (ix2 (lo8 k) f)) (hW2 : ∀ k : Fin 2, W2 (ix2 k (0 : Fin 1)) = x1 (ix2 (hi2 k) f))
    (q : Fin 65536) :
    addf (shapeCast S1x65536 (multiReduction .add [0] S65536 (mulf (View.ld x0 r0_0 : FVec Ideal S8x65536 .f32) (broadcastTo S8x65536 W8 broadcasts_S8x1_S8x65536)) 0x00000000#32 reduces_S8x65536_S65536 (.inl rfl) rfl) shapeCasts_S65536_S1x65536)
        (shapeCast S1x65536 (multiReduction .add [0] S65536 (mulf (View.ld x0 r0_1 : FVec Ideal S2x65536 .f32) (broadcastTo S2x65536 W2 broadcasts_S2x1_S2x65536)) 0x00000000#32 reduces_S2x65536_S65536 (.inl rfl) rfl) shapeCasts_S65536_S1x65536)
        (ix2 (0 : Fin 1) q)
      = rowSum x0 x1 f q := by
  refine (addf_apply _ _ _).trans ?_
  unfold rowSum
  refine congrArg₂ (· + ·)
    ((Layout.weighted_colsum_row_apply (View.ld x0 r0_0 : FVec Ideal S8x65536 .f32) W8 broadcasts_S8x1_S8x65536 reduces_S8x65536_S65536 shapeCasts_S65536_S1x65536 (.inl rfl) rfl (0 : Fin 1) q).trans ?_)
    ((Layout.weighted_colsum_row_apply (View.ld x0 r0_1 : FVec Ideal S2x65536 .f32) W2 broadcasts_S2x1_S2x65536 reduces_S2x65536_S65536 shapeCasts_S65536_S1x65536 (.inl rfl) rfl (0 : Fin 1) q).trans ?_)
  · refine Finset.sum_congr rfl fun k _ => ?_
    rw [hW8 k]
    refine congrArg (· * _) ?_
    exact ld_unit_apply x0 _ _ _ _ (ix2 (lo8 k) q) fun a => by
      match a with
      | ⟨0, _⟩ => show k.val = 0 + k.val; omega
      | ⟨1, _⟩ => show q.val = 0 + q.val; omega
  · refine Finset.sum_congr rfl fun k _ => ?_
    rw [hW2 k]
    refine congrArg (· * _) ?_
    exact ld_unit_apply x0 _ _ _ _ (ix2 (hi2 k) q) fun a => by
      match a with
      | ⟨0, _⟩ => rfl
      | ⟨1, _⟩ => show q.val = 0 + q.val; omega

/-! ### The loaded column pieces of the transposed weights -/

theorem w8_0 (x1 : Vec Ideal S10x6 .f32) (k : Fin 8) :
    (View.ld x1 r0_2 : FVec Ideal S8x1 .f32) (ix2 k (0 : Fin 1)) = x1 (ix2 (lo8 k) (0 : Fin 6)) :=
  ld_unit_apply x1 _ _ _ _ (ix2 (lo8 k) (0 : Fin 6)) fun a => by
    match a with
    | ⟨0, _⟩ => show k.val = 0 + k.val; omega
    | ⟨1, _⟩ => rfl
theorem w2_0 (x1 : Vec Ideal S10x6 .f32) (k : Fin 2) :
    (View.ld x1 r0_3 : FVec Ideal S2x1 .f32) (ix2 k (0 : Fin 1)) = x1 (ix2 (hi2 k) (0 : Fin 6)) :=
  ld_unit_apply x1 _ _ _ _ (ix2 (hi2 k) (0 : Fin 6)) fun a => by
    match a with
    | ⟨0, _⟩ => rfl
    | ⟨1, _⟩ => rfl
theorem w8_1 (x1 : Vec Ideal S10x6 .f32) (k : Fin 8) :
    (View.ld x1 r0_4 : FVec Ideal S8x1 .f32) (ix2 k (0 : Fin 1)) = x1 (ix2 (lo8 k) (1 : Fin 6)) :=
  ld_unit_apply x1 _ _ _ _ (ix2 (lo8 k) (1 : Fin 6)) fun a => by
    match a with
    | ⟨0, _⟩ => show k.val = 0 + k.val; omega
    | ⟨1, _⟩ => rfl
theorem w2_1 (x1 : Vec Ideal S10x6 .f32) (k : Fin 2) :
    (View.ld x1 r0_5 : FVec Ideal S2x1 .f32) (ix2 k (0 : Fin 1)) = x1 (ix2 (hi2 k) (1 : Fin 6)) :=
  ld_unit_apply x1 _ _ _ _ (ix2 (hi2 k) (1 : Fin 6)) fun a => by
    match a with
    | ⟨0, _⟩ => rfl
    | ⟨1, _⟩ => rfl
theorem w8_2 (x1 : Vec Ideal S10x6 .f32) (k : Fin 8) :
    (View.ld x1 r0_6 : FVec Ideal S8x1 .f32) (ix2 k (0 : Fin 1)) = x1 (ix2 (lo8 k) (2 : Fin 6)) :=
  ld_unit_apply x1 _ _ _ _ (ix2 (lo8 k) (2 : Fin 6)) fun a => by
    match a with
    | ⟨0, _⟩ => show k.val = 0 + k.val; omega
    | ⟨1, _⟩ => rfl
theorem w2_2 (x1 : Vec Ideal S10x6 .f32) (k : Fin 2) :
    (View.ld x1 r0_7 : FVec Ideal S2x1 .f32) (ix2 k (0 : Fin 1)) = x1 (ix2 (hi2 k) (2 : Fin 6)) :=
  ld_unit_apply x1 _ _ _ _ (ix2 (hi2 k) (2 : Fin 6)) fun a => by
    match a with
    | ⟨0, _⟩ => rfl
    | ⟨1, _⟩ => rfl
theorem w8_3 (x1 : Vec Ideal S10x6 .f32) (k : Fin 8) :
    (View.ld x1 r0_8 : FVec Ideal S8x1 .f32) (ix2 k (0 : Fin 1)) = x1 (ix2 (lo8 k) (3 : Fin 6)) :=
  ld_unit_apply x1 _ _ _ _ (ix2 (lo8 k) (3 : Fin 6)) fun a => by
    match a with
    | ⟨0, _⟩ => show k.val = 0 + k.val; omega
    | ⟨1, _⟩ => rfl
theorem w2_3 (x1 : Vec Ideal S10x6 .f32) (k : Fin 2) :
    (View.ld x1 r0_9 : FVec Ideal S2x1 .f32) (ix2 k (0 : Fin 1)) = x1 (ix2 (hi2 k) (3 : Fin 6)) :=
  ld_unit_apply x1 _ _ _ _ (ix2 (hi2 k) (3 : Fin 6)) fun a => by
    match a with
    | ⟨0, _⟩ => rfl
    | ⟨1, _⟩ => rfl
theorem w8_4 (x1 : Vec Ideal S10x6 .f32) (k : Fin 8) :
    (View.ld x1 r0_10 : FVec Ideal S8x1 .f32) (ix2 k (0 : Fin 1)) = x1 (ix2 (lo8 k) (4 : Fin 6)) :=
  ld_unit_apply x1 _ _ _ _ (ix2 (lo8 k) (4 : Fin 6)) fun a => by
    match a with
    | ⟨0, _⟩ => show k.val = 0 + k.val; omega
    | ⟨1, _⟩ => rfl
theorem w2_4 (x1 : Vec Ideal S10x6 .f32) (k : Fin 2) :
    (View.ld x1 r0_11 : FVec Ideal S2x1 .f32) (ix2 k (0 : Fin 1)) = x1 (ix2 (hi2 k) (4 : Fin 6)) :=
  ld_unit_apply x1 _ _ _ _ (ix2 (hi2 k) (4 : Fin 6)) fun a => by
    match a with
    | ⟨0, _⟩ => rfl
    | ⟨1, _⟩ => rfl
theorem w8_5 (x1 : Vec Ideal S10x6 .f32) (k : Fin 8) :
    (View.ld x1 r0_12 : FVec Ideal S8x1 .f32) (ix2 k (0 : Fin 1)) = x1 (ix2 (lo8 k) (5 : Fin 6)) :=
  ld_unit_apply x1 _ _ _ _ (ix2 (lo8 k) (5 : Fin 6)) fun a => by
    match a with
    | ⟨0, _⟩ => show k.val = 0 + k.val; omega
    | ⟨1, _⟩ => rfl
theorem w2_5 (x1 : Vec Ideal S10x6 .f32) (k : Fin 2) :
    (View.ld x1 r0_13 : FVec Ideal S2x1 .f32) (ix2 k (0 : Fin 1)) = x1 (ix2 (hi2 k) (5 : Fin 6)) :=
  ld_unit_apply x1 _ _ _ _ (ix2 (hi2 k) (5 : Fin 6)) fun a => by
    match a with
    | ⟨0, _⟩ => rfl
    | ⟨1, _⟩ => rfl

/-! ### The six rows of the stack -/

theorem row0 (x0 : Vec Ideal S10x65536 .f32) (x1 : Vec Ideal S10x6 .f32) (q : Fin 65536) :
    (k0_pay6 (View.ld x0 r0_0) (View.ld x0 r0_1) (View.ld x1 r0_2) (View.ld x1 r0_3) : FVec Ideal S1x65536 .f32) (ix2 (0 : Fin 1) q) = rowSum x0 x1 (0 : Fin 6) q := by
  unfold k0_pay6 k0_pay4 k0_pay5
  dsimp only
  simp only [shapeCast_self]
  exact row_apply x0 x1 (View.ld x1 r0_2) (View.ld x1 r0_3) (0 : Fin 6) (w8_0 x1) (w2_0 x1) q

theorem row1 (x0 : Vec Ideal S10x65536 .f32) (x1 : Vec Ideal S10x6 .f32) (q : Fin 65536) :
    (k0_pay7 (View.ld x0 r0_0) (View.ld x0 r0_1) (View.ld x1 r0_4) (View.ld x1 r0_5) : FVec Ideal S1x65536 .f32) (ix2 (0 : Fin 1) q) = rowSum x0 x1 (1 : Fin 6) q := by
  unfold k0_pay7 k0_pay4 k0_pay5
  dsimp only
  simp only [shapeCast_self]
  exact row_apply x0 x1 (View.ld x1 r0_4) (View.ld x1 r0_5) (1 : Fin 6) (w8_1 x1) (w2_1 x1) q

theorem row2 (x0 : Vec Ideal S10x65536 .f32) (x1 : Vec Ideal S10x6 .f32) (q : Fin 65536) :
    (k0_pay10 (k0_pay5 (View.ld x0 r0_1)) (k0_pay8 (View.ld x1 r0_7)) (k0_pay9 (View.ld x0 r0_0) (View.ld x1 r0_6)) : FVec Ideal S1x65536 .f32) (ix2 (0 : Fin 1) q) = rowSum x0 x1 (2 : Fin 6) q := by
  unfold k0_pay10 k0_pay9 k0_pay8 k0_pay4 k0_pay5
  dsimp only
  simp only [shapeCast_self]
  exact row_apply x0 x1 (View.ld x1 r0_6) (View.ld x1 r0_7) (2 : Fin 6) (w8_2 x1) (w2_2 x1) q

theorem row3 (x0 : Vec Ideal S10x65536 .f32) (x1 : Vec Ideal S10x6 .f32) (q : Fin 65536) :
    (k0_pay11 (k0_pay4 (View.ld x0 r0_0)) (k0_pay5 (View.ld x0 r0_1)) (View.ld x1 r0_8) (View.ld x1 r0_9) : FVec Ideal S1x65536 .f32) (ix2 (0 : Fin 1) q) = rowSum x0 x1 (3 : Fin 6) q := by
  unfold k0_pay11 k0_pay4 k0_pay5
  dsimp only
  simp only [shapeCast_self]
  exact row_apply x0 x1 (View.ld x1 r0_8) (View.ld x1 r0_9) (3 : Fin 6) (w8_3 x1) (w2_3 x1) q

theorem row4 (x0 : Vec Ideal S10x65536 .f32) (x1 : Vec Ideal S10x6 .f32) (q : Fin 65536) :
    (k0_pay12 (k0_pay4 (View.ld x0 r0_0)) (k0_pay5 (View.ld x0 r0_1)) (View.ld x1 r0_10) (View.ld x1 r0_11) : FVec Ideal S1x65536 .f32) (ix2 (0 : Fin 1) q) = rowSum x0 x1 (4 : Fin 6) q := by
  unfold k0_pay12 k0_pay4 k0_pay5
  dsimp only
  simp only [shapeCast_self]
  exact row_apply x0 x1 (View.ld x1 r0_10) (View.ld x1 r0_11) (4 : Fin 6) (w8_4 x1) (w2_4 x1) q

theorem row5 (x0 : Vec Ideal S10x65536 .f32) (x1 : Vec Ideal S10x6 .f32) (q : Fin 65536) :
    (addf (k0_pay13 (k0_pay4 (View.ld x0 r0_0)) (View.ld x1 r0_12)) (shapeCast S1x65536 (multiReduction .add [0] S65536 (k0_pay14 (k0_pay5 (View.ld x0 r0_1)) (View.ld x1 r0_13)) 0x00000000#32 reduces_S2x65536_S65536 (.inl rfl) rfl) shapeCasts_S65536_S1x65536) : FVec Ideal S1x65536 .f32) (ix2 (0 : Fin 1) q) = rowSum x0 x1 (5 : Fin 6) q := by
  unfold k0_pay13 k0_pay14 k0_pay4 k0_pay5
  dsimp only
  simp only [shapeCast_self]
  exact row_apply x0 x1 (View.ld x1 r0_12) (View.ld x1 r0_13) (5 : Fin 6) (w8_5 x1) (w2_5 x1) q

/-- The activation block at (f,q). -/
theorem hblock_apply (x0 : Vec Ideal S10x65536 .f32) (x1 : Vec Ideal S10x6 .f32) (x2 : Vec Ideal S6x1 .f32) (f : Fin 6) (q : Fin 65536) :
    hblock x0 x1 x2 (ix2 f q) = hidBlk x0 x1 x2 f q := by
  have hb : (View.ld x2 r0_14 : FVec Ideal S6x1 .f32) (ix2 f (0 : Fin 1)) = x2 (ix2 f (0 : Fin 1)) :=
    ld_unit_apply x2 _ _ _ _ (ix2 f (0 : Fin 1)) fun a => by
      match a with
      | ⟨0, _⟩ => show f.val = 0 + f.val; omega
      | ⟨1, _⟩ => rfl
  unfold hblock hidBlk k0_pay1
  dsimp only
  simp only [shapeCast_self]
  refine (maximumf_apply _ _ _).trans ?_
  refine congrArg₂ max ?_ rfl
  refine (addf_apply _ _ _).trans ?_
  refine congrArg₂ (· + ·) ((Layout.concat6_apply _ _ _ _ _ _ _ f q).trans ?_) ((LibColumnOps.broadcastTo_col_apply _ _ f q).trans hb)
  match f with
  | ⟨0, _⟩ => exact row0 x0 x1 q
  | ⟨1, _⟩ => exact row1 x0 x1 q
  | ⟨2, _⟩ => exact row2 x0 x1 q
  | ⟨3, _⟩ => exact row3 x0 x1 q
  | ⟨4, _⟩ => exact row4 x0 x1 q
  | ⟨5, _⟩ => exact row5 x0 x1 q
  | ⟨_ + 6, hf⟩ => exact absurd hf (by omega)

/-! ## The statistics block -/

/-- The statistics block, as the body computes it. -/
def sblock (x0 : Vec Ideal S10x65536 .f32) (x1 : Vec Ideal S10x6 .f32) (x2 : Vec Ideal S6x1 .f32) : FVec Ideal S1x6x128 .f32 :=
  k0_pay3 (k0_pay6 (View.ld x0 r0_0) (View.ld x0 r0_1) (View.ld x1 r0_2) (View.ld x1 r0_3)) (k0_pay7 (View.ld x0 r0_0) (View.ld x0 r0_1) (View.ld x1 r0_4) (View.ld x1 r0_5)) (k0_pay10 (k0_pay5 (View.ld x0 r0_1)) (k0_pay8 (View.ld x1 r0_7)) (k0_pay9 (View.ld x0 r0_0) (View.ld x1 r0_6))) (k0_pay11 (k0_pay4 (View.ld x0 r0_0)) (k0_pay5 (View.ld x0 r0_1)) (View.ld x1 r0_8) (View.ld x1 r0_9)) (k0_pay12 (k0_pay4 (View.ld x0 r0_0)) (k0_pay5 (View.ld x0 r0_1)) (View.ld x1 r0_10) (View.ld x1 r0_11)) (k0_pay13 (k0_pay4 (View.ld x0 r0_0)) (View.ld x1 r0_12)) (k0_pay14 (k0_pay5 (View.ld x0 r0_1)) (View.ld x1 r0_13)) (View.ld x2 r0_14)

/-- Lane l of row f of the statistics block: the row's sum of activations in lane 0, of their squares in lane 1. -/
theorem sblock_apply (x0 : Vec Ideal S10x65536 .f32) (x1 : Vec Ideal S10x6 .f32) (x2 : Vec Ideal S6x1 .f32)
    (z : Fin 1) (f : Fin 6) (l : Fin 128) :
    sblock x0 x1 x2 (ix3 z f l)
      = (if l.val = 0 then ∑ q : Fin 65536, hidBlk x0 x1 x2 f q else Ideal.ofBits .f32 0x00000000#32)
        + (if l.val = 1 then ∑ q : Fin 65536, hidBlk x0 x1 x2 f q * hidBlk x0 x1 x2 f q else Ideal.ofBits .f32 0x00000000#32) := by
  unfold sblock k0_pay3
  dsimp only
  simp only [shapeCast_self]
  refine (LibRowLayouts.shapeCast_add_unit_apply _ _ z f l).trans ?_
  refine (addf_apply _ _ _).trans ?_
  refine congrArg₂ (· + ·) ?_ ?_
  · refine (select_apply _ _ _ _).trans ?_
    show Scalar.select (IntOp.cmpi .eq (iota .tc S6x128 32 [1] iota_S6x128_d1_w32 (ix2 f l)) (BitVec.ofNat 32 0)) _ _ = _
    rw [iota_single_apply]
    refine (Layout.lane_select l.val 0 l.isLt (by omega) _ _).trans ?_
    refine if_congr Iff.rfl ?_ rfl
    refine (Layout.rowsum_lanes_apply (hblock x0 x1 x2) reduces_S6x65536_S6 shapeCasts_S6_S6x1 broadcasts_S6x1_S6x128 (.inl rfl) rfl f l).trans ?_
    exact Finset.sum_congr rfl fun q _ => hblock_apply x0 x1 x2 f q
  · refine (select_apply _ _ _ _).trans ?_
    show Scalar.select (IntOp.cmpi .eq (iota .tc S6x128 32 [1] iota_S6x128_d1_w32 (ix2 f l)) (BitVec.ofNat 32 1)) _ _ = _
    rw [iota_single_apply]
    refine (Layout.lane_select l.val 1 l.isLt (by omega) _ _).trans ?_
    refine if_congr Iff.rfl ?_ rfl
    refine (Layout.rowsum_lanes_apply (mulf (hblock x0 x1 x2) (hblock x0 x1 x2)) reduces_S6x65536_S6 shapeCasts_S6_S6x1 broadcasts_S6x1_S6x128 (.inl rfl) rfl f l).trans ?_
    refine Finset.sum_congr rfl fun q _ => ?_
    refine (mulf_apply _ _ _).trans ?_
    rw [hblock_apply x0 x1 x2 f q]

/-! ## From the blocks to the arrays -/

section Arrays

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: the input and the activation blocks move along the columns with the point,
    the statistics blocks along the rows; the weights and the bias stay. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 3) = t.val ∧ win0_4.index t (1 : Fin 3) = 0 ∧ win0_4.index t (2 : Fin 3) = 0 :=
  (by decide +kernel : ∀ t : Fin grid0.N, _)

/-- The grid point as a block number. -/
def pt (t : Fin cfg0.N) : Fin 16 := ⟨t.val, by have h := t.isLt; have hN : cfg0.N = 16 := N_0; omega⟩

/-- The input block at point t: column q of the block is column t·65536 + q of the array. -/
theorem read_x (c : Dev nD) (t : Fin cfg0.N) (k : Fin 10) (q : Fin 65536) :
    (iblk0 V c 0 t : FVec Ideal S10x65536 .f32) (ix2 k q) = (V c main_v0 : FVec Ideal S10x1048576 .f32) (ix2 k (at65536 (pt t) q)) := by
  show V c main_v0 (((cfg0.win 0).blk t).view.emb (ix2 k q)) = V c main_v0 (ix2 k (at65536 (pt t) q))
  obtain ⟨e0, e1, -⟩ := index_facts t
  refine congrArg _ (funext fun a => Fin.ext ?_)
  match a with
  | ⟨0, _⟩ => show win0_0.index t (0 : Fin 2) * 10 + 1 * k.val = k.val; rw [e0]; omega
  | ⟨1, _⟩ => show win0_0.index t (1 : Fin 2) * 65536 + 1 * q.val = t.val * 65536 + q.val; rw [e1]; omega

/-- The weights' block is the whole array. -/
theorem read_w (c : Dev nD) (t : Fin cfg0.N) (k : Fin 10) (f : Fin 6) :
    (iblk0 V c 1 t : FVec Ideal S10x6 .f32) (ix2 k f) = (V c main_v1 : FVec Ideal S10x6 .f32) (ix2 k f) := by
  show V c main_v1 (((cfg0.win 1).blk t).view.emb (ix2 k f)) = V c main_v1 (ix2 k f)
  obtain ⟨-, -, e0, e1, -⟩ := index_facts t
  refine congrArg _ (funext fun a => Fin.ext ?_)
  match a with
  | ⟨0, _⟩ => show win0_1.index t (0 : Fin 2) * 10 + 1 * k.val = k.val; rw [e0]; omega
  | ⟨1, _⟩ => show win0_1.index t (1 : Fin 2) * 6 + 1 * f.val = f.val; rw [e1]; omega

/-- The bias block is the whole array. -/
theorem read_b (c : Dev nD) (t : Fin cfg0.N) (f : Fin 6) (z : Fin 1) :
    (iblk0 V c 2 t : FVec Ideal S6x1 .f32) (ix2 f z) = (V c main_v2 : FVec Ideal S6x1 .f32) (ix2 f z) := by
  show V c main_v2 (((cfg0.win 2).blk t).view.emb (ix2 f z)) = V c main_v2 (ix2 f z)
  obtain ⟨-, -, -, -, e0, e1, -⟩ := index_facts t
  refine congrArg _ (funext fun a => Fin.ext ?_)
  match a with
  | ⟨0, _⟩ => show win0_2.index t (0 : Fin 2) * 6 + 1 * f.val = f.val; rw [e0]; omega
  | ⟨1, _⟩ => show win0_2.index t (1 : Fin 2) * 1 + 1 * z.val = z.val; rw [e1]; omega

/-- The activation at (f,q) of the blocks at point t is the whole-array activation at column t·65536 + q. -/
theorem hidBlk_at (c : Dev nD) (t : Fin cfg0.N) (f : Fin 6) (q : Fin 65536) :
    hidBlk (iblk0 V c 0 t) (iblk0 V c 1 t) (iblk0 V c 2 t) f q
      = hidK (V c main_v0) (V c main_v1) (V c main_v2) f (at65536 (pt t) q) := by
  unfold hidBlk rowSum hidK
  refine congrArg₂ max (congrArg₂ (· + ·) (congrArg₂ (· + ·) ?_ ?_) (read_b V c t f 0)) rfl
  · exact Finset.sum_congr rfl fun k _ => congrArg₂ (· * ·) (read_x V c t (lo8 k) q) (read_w V c t (lo8 k) f)
  · exact Finset.sum_congr rfl fun k _ => congrArg₂ (· * ·) (read_x V c t (hi2 k) q) (read_w V c t (hi2 k) f)

/-- The activation array after the pass, as one function of the pass's input arrays. -/
def hidArr (c : Dev nD) : S6x1048576.Idx → EReal := fun i => hidK (V c main_v0) (V c main_v1) (V c main_v2) (i 0) (i 1)

/-- The statistics array after the pass. -/
def statArr (c : Dev nD) : S16x6x128.Idx → EReal := fun i => statK (V c main_v0) (V c main_v1) (V c main_v2) (i 0) (i 1) (i 2)

/-- What point t writes back to the activation array is block t of the whole-array activation. -/
theorem flushed_hid (c : Dev nD) (t : Fin cfg0.N) :
    (dat0 V c).flushed 3 t = ((cfg0.win 3).blk t).view.read (Elt Ideal) (hidArr V c) := by
  show (cfg0.win 3).cut (grid0.coords t) ((dat0 V c).after 3 t) = _
  rw [after0_3]
  unfold out0_3
  rw [View.canon_unit_zero zeros2]
  funext j
  obtain ⟨f, q, rfl⟩ : ∃ (f : Fin 6) (q : Fin 65536), j = ix2 f q := ⟨j 0, j 1, eq_ix2 (n0 := 6) (n1 := 65536) j⟩
  refine Eq.trans (b := hblock (iblk0 V c 0 t) (iblk0 V c 1 t) (iblk0 V c 2 t) (ix2 f q)) rfl ?_
  rw [hblock_apply, hidBlk_at]
  show _ = hidArr V c (((cfg0.win 3).blk t).view.emb (ix2 f q))
  unfold hidArr
  obtain ⟨-, -, -, -, -, -, e0, e1, -⟩ := index_facts t
  refine congrArg₂ (hidK (V c main_v0) (V c main_v1) (V c main_v2)) (Fin.ext ?_) (Fin.ext ?_)
  · show f.val = win0_3.index t (0 : Fin 2) * 6 + 1 * f.val; rw [e0]; omega
  · show t.val * 65536 + q.val = win0_3.index t (1 : Fin 2) * 65536 + 1 * q.val; rw [e1]; omega

/-- What point t writes back to the statistics array is block row t of the whole-array statistics. -/
theorem flushed_stat (c : Dev nD) (t : Fin cfg0.N) :
    (dat0 V c).flushed 4 t = ((cfg0.win 4).blk t).view.read (Elt Ideal) (statArr V c) := by
  show (cfg0.win 4).cut (grid0.coords t) ((dat0 V c).after 4 t) = _
  rw [after0_4]
  unfold out0_4
  rw [View.canon_unit_zero zeros3]
  funext j
  obtain ⟨z, f, l, rfl⟩ : ∃ (z : Fin 1) (f : Fin 6) (l : Fin 128), j = ix3 z f l := ⟨j 0, j 1, j 2, eq_ix3 (n0 := 1) (n1 := 6) (n2 := 128) j⟩
  refine Eq.trans (b := sblock (iblk0 V c 0 t) (iblk0 V c 1 t) (iblk0 V c 2 t) (ix3 z f l)) rfl ?_
  rw [sblock_apply]
  show _ = statArr V c (((cfg0.win 4).blk t).view.emb (ix3 z f l))
  unfold statArr statK
  obtain ⟨-, -, -, -, -, -, -, -, e0, e1, e2⟩ := index_facts t
  have hz : z.val = 0 := by have := z.isLt; omega
  have hi : ((((cfg0.win 4).blk t).view.emb (ix3 z f l)) 0 : Fin 16) = pt t := Fin.ext (by
    show win0_4.index t (0 : Fin 3) * 1 + 1 * z.val = t.val; rw [e0, hz]; omega)
  have hf : ((((cfg0.win 4).blk t).view.emb (ix3 z f l)) 1 : Fin 6) = f := Fin.ext (by
    show win0_4.index t (1 : Fin 3) * 6 + 1 * f.val = f.val; rw [e1]; omega)
  have hl : (((((cfg0.win 4).blk t).view.emb (ix3 z f l)) 2 : Fin 128)).val = l.val := by
    show win0_4.index t (2 : Fin 3) * 128 + 1 * l.val = l.val; rw [e2]; omega
  rw [hi, hf, hl]
  simp only [hidBlk_at]

/-- An index of the activation array is in point t's block iff each coordinate is in the block's range on its axis. -/
theorem mem_blk_hid (t : Fin cfg0.N) (i : S6x1048576.Idx) :
    i ∈ ((cfg0.win 3).blk t).view.set ↔ ∀ a : Fin 2, win0_3.index t a * S6x65536.size a ≤ (i a).val ∧ (i a).val < win0_3.index t a * S6x65536.size a + S6x65536.size a := by
  show i ∈ ((View.whole main_v3_0).slice (win0_3.rect t)).set ↔ _
  rw [View.set_slice_whole, Rect.mem_set_unit]
  exact Iff.rfl

/-- The same for the statistics array. -/
theorem mem_blk_stat (t : Fin cfg0.N) (i : S16x6x128.Idx) :
    i ∈ ((cfg0.win 4).blk t).view.set ↔ ∀ a : Fin 3, win0_4.index t a * S1x6x128.size a ≤ (i a).val ∧ (i a).val < win0_4.index t a * S1x6x128.size a + S1x6x128.size a := by
  show i ∈ ((View.whole main_v3_1).slice (win0_4.rect t)).set ↔ _
  rw [View.set_slice_whole, Rect.mem_set_unit]
  exact Iff.rfl

/-- Column b of the activation array is in the block of point b / 65536. -/
theorem cover_hid (i : S6x1048576.Idx) : ∃ t : Fin cfg0.N, (cfg0.win 3).flush t = true ∧ i ∈ ((cfg0.win 3).blk t).view.set := by
  have hi0 : (i 0).val < 6 := (i 0).isLt
  have hi1 : (i 1).val < 1048576 := (i 1).isLt
  have hN : cfg0.N = 16 := N_0
  obtain ⟨t, ht⟩ : ∃ t : Fin cfg0.N, t.val = (i 1).val / 65536 := ⟨⟨(i 1).val / 65536, by rw [hN]; omega⟩, rfl⟩
  refine ⟨t, flush0_3 t, ?_⟩
  rw [mem_blk_hid]
  obtain ⟨-, -, -, -, -, -, e0, e1, -⟩ := index_facts t
  intro a
  match a with
  | ⟨0, _⟩ => show win0_3.index t (0 : Fin 2) * 6 ≤ (i 0).val ∧ (i 0).val < win0_3.index t (0 : Fin 2) * 6 + 6; rw [e0]; omega
  | ⟨1, _⟩ => show win0_3.index t (1 : Fin 2) * 65536 ≤ (i 1).val ∧ (i 1).val < win0_3.index t (1 : Fin 2) * 65536 + 65536; rw [e1, ht]; omega

/-- Row block i of the statistics array is the block of point i. -/
theorem cover_stat (i : S16x6x128.Idx) : ∃ t : Fin cfg0.N, (cfg0.win 4).flush t = true ∧ i ∈ ((cfg0.win 4).blk t).view.set := by
  have hi0 : (i 0).val < 16 := (i 0).isLt
  have hi1 : (i 1).val < 6 := (i 1).isLt
  have hi2 : (i 2).val < 128 := (i 2).isLt
  have hN : cfg0.N = 16 := N_0
  obtain ⟨t, ht⟩ : ∃ t : Fin cfg0.N, t.val = (i 0).val := ⟨⟨(i 0).val, by rw [hN]; omega⟩, rfl⟩
  refine ⟨t, flush0_4 t, ?_⟩
  rw [mem_blk_stat]
  obtain ⟨-, -, -, -, -, -, -, -, e0, e1, e2⟩ := index_facts t
  intro a
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 6 ≤ (i 1).val ∧ (i 1).val < win0_4.index t (1 : Fin 3) * 6 + 6; rw [e1]; omega
  | ⟨2, _⟩ => show win0_4.index t (2 : Fin 3) * 128 ≤ (i 2).val ∧ (i 2).val < win0_4.index t (2 : Fin 3) * 128 + 128; rw [e2]; omega

/-- After the first pass the activation array is the whole-array activation of the pass's inputs. -/
theorem final_hid (c : Dev nD) : (dat0 V c).arrAt 3 cfg0.N = hidArr V c :=
  (dat0 V c).arrAt_eq_of_cover 3 (hidArr V c) (fun t _ => flushed_hid V c t) cover_hid

/-- After the first pass the statistics array holds every block's two sums. -/
theorem final_stat (c : Dev nD) : (dat0 V c).arrAt 4 cfg0.N = statArr V c :=
  (dat0 V c).arrAt_eq_of_cover 4 (statArr V c) (fun t _ => flushed_stat V c t) cover_stat

end Arrays

end Cert.KernelIdeal.KReg0

end
-- ==== Proof.KValue.lean ====
/-
  The idealized kernel's arrays read at an index in terms of the launch memory.

  The first pass reads the input transposed, entry (k,b) being x[b,k], the first layer's weights transposed, entry (k,f)
  being w1[f,k], and the bias as a column. The second pass reads the activation and statistics arrays the first pass
  left — the whole-array functions of the first pass's inputs — and gamma, beta, the second layer's weights as columns
  and its bias as a 1×1 cell: the same numbers at re-laid positions.
-/
import proofs.«111320_g2000302046306206_pallasbulk_911_14_alg».proof.Proof.KHost
import proofs.«111320_g2000302046306206_pallasbulk_911_14_alg».proof.Proof.KReg0
import proofs.«111320_g2000302046306206_pallasbulk_911_14_alg».proof.Proof.LibKeepdims

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL.Sem
open TwoLayer

/-- A matrix transposed, read at (p,q): the matrix at (q,p). -/
theorem transpose2_apply {α : Type} {A B : ℕ} (x : (⟨2, ![A, B]⟩ : Shape).Idx → α)
    (h : Shape.Transposes ⟨2, ![A, B]⟩ [1, 0] ⟨2, ![B, A]⟩) (p : Fin B) (q : Fin A) :
    transpose ⟨2, ![B, A]⟩ [1, 0] x h (ix2 p q) = x (ix2 q p) :=
  transpose_apply [1, 0] x h (ix2 p q) (ix2 q p) fun b => by
    match b with
    | ⟨0, _⟩ => rfl
    | ⟨1, _⟩ => rfl

/-- A [1,a] row viewed as the [a,1] column, read at (p,0): the row at (0,p). -/
theorem row_as_col_apply {α : Type} {a : ℕ} (x : (⟨2, ![1, a]⟩ : Shape).Idx → α)
    (h : (⟨2, ![1, a]⟩ : Shape).ShapeCasts ⟨2, ![a, 1]⟩) (p : Fin a) :
    shapeCast ⟨2, ![a, 1]⟩ x h (ix2 p (0 : Fin 1)) = x (ix2 (0 : Fin 1) p) := by
  refine shapeCast_apply x h _ _ ?_
  rw [Shape.rowMajor_val_two, Shape.rowMajor_val_two]
  show 0 * a + p.val = p.val * 1 + 0
  omega

/-- A one-entry vector viewed as the 1×1 cell. -/
theorem one_as_cell_apply {α : Type} (x : (⟨1, ![1]⟩ : Shape).Idx → α)
    (h : (⟨1, ![1]⟩ : Shape).ShapeCasts ⟨2, ![1, 1]⟩) :
    shapeCast ⟨2, ![1, 1]⟩ x h (ix2 (0 : Fin 1) (0 : Fin 1)) = x (ix1 (0 : Fin 1)) := by
  refine shapeCast_apply x h _ _ ?_
  rw [Shape.rowMajor_val_one, Shape.rowMajor_val_two]
  rfl

variable (m : (ℓ : Loc nD τ sig) → Buf (Elt Ideal) ℓ) (ρ : Dev nD → PrngReg)

theorem xt_apply (c : Dev nD) (k : Fin 10) (b : Fin 1048576) :
    (V1 m ρ c main_v0 : FVec Ideal S10x1048576 .f32) (ix2 k b) = (m ((c : Thread nD τ).loc main_arg0) : FVec Ideal S1048576x10 .f32) (ix2 b k) := by
  rw [KHost.entry0_xt]; exact transpose2_apply _ _ k b

theorem w1t_apply (c : Dev nD) (k : Fin 10) (f : Fin 6) :
    (V1 m ρ c main_v1 : FVec Ideal S10x6 .f32) (ix2 k f) = (m ((c : Thread nD τ).loc main_arg1) : FVec Ideal S6x10 .f32) (ix2 f k) := by
  rw [KHost.entry0_w1t]; exact transpose2_apply _ _ k f

theorem b1c_apply (c : Dev nD) (f : Fin 6) :
    (V1 m ρ c main_v2 : FVec Ideal S6x1 .f32) (ix2 f (0 : Fin 1)) = (m ((c : Thread nD τ).loc main_arg2) : FVec Ideal S6 .f32) (ix1 f) := by
  rw [KHost.entry0_b1c]; exact LibKeepdims.shapeCast_col_apply _ _ f 0

theorem gc_apply (c : Dev nD) (f : Fin 6) :
    (V3 m ρ c main_v4 : FVec Ideal S6x1 .f32) (ix2 f (0 : Fin 1)) = (m ((c : Thread nD τ).loc main_arg3) : FVec Ideal S6 .f32) (ix1 f) := by
  rw [KHost.entry1_g]; exact LibKeepdims.shapeCast_col_apply _ _ f 0

theorem btc_apply (c : Dev nD) (f : Fin 6) :
    (V3 m ρ c main_v5 : FVec Ideal S6x1 .f32) (ix2 f (0 : Fin 1)) = (m ((c : Thread nD τ).loc main_arg4) : FVec Ideal S6 .f32) (ix1 f) := by
  rw [KHost.entry1_bt]; exact LibKeepdims.shapeCast_col_apply _ _ f 0

theorem w2c_apply (c : Dev nD) (f : Fin 6) :
    (V3 m ρ c main_v6 : FVec Ideal S6x1 .f32) (ix2 f (0 : Fin 1)) = (m ((c : Thread nD τ).loc main_arg5) : FVec Ideal S1x6 .f32) (ix2 (0 : Fin 1) f) := by
  rw [KHost.entry1_w2c]; exact row_as_col_apply _ _ f

theorem b2c_apply (c : Dev nD) :
    (V3 m ρ c main_v7 : FVec Ideal S1x1 .f32) (ix2 (0 : Fin 1) (0 : Fin 1)) = (m ((c : Thread nD τ).loc main_arg6) : FVec Ideal S1 .f32) (ix1 (0 : Fin 1)) := by
  rw [KHost.entry1_b2c]; exact one_as_cell_apply _ _

/-- The activation array the second pass reads. -/
theorem h_apply (c : Dev nD) (f : Fin 6) (b : Fin 1048576) :
    (V3 m ρ c main_v3_0 : FVec Ideal S6x1048576 .bf16) (ix2 f b) = hidK (V1 m ρ c main_v0) (V1 m ρ c main_v1) (V1 m ρ c main_v2) f b := by
  rw [KHost.entry1_h, KReg0.final_hid]; rfl

/-- The statistics array the second pass reads. -/
theorem st_apply (c : Dev nD) (i : Fin 16) (f : Fin 6) (l : Fin 128) :
    (V3 m ρ c main_v3_1 : FVec Ideal S16x6x128 .f32) (ix3 i f l) = statK (V1 m ρ c main_v0) (V1 m ρ c main_v1) (V1 m ρ c main_v2) i f l := by
  rw [KHost.entry1_s, KReg0.final_stat]; rfl

end Cert.KernelIdeal.KValue

end
-- ==== Proof.KReg1.lean ====
/-
  What the kernel's second pass leaves in its output array.

  At a grid point the body sees a [6,131072] block of the cached activations, the whole [16,6,128] statistics array,
  the [6,1] columns gamma, beta and second-layer weights, and the [1,1] second-layer bias. From the statistics it
  totals the sixteen blocks' rows, forms each feature's mean and clamped variance, the scale gamma · rsqrt(variance +
  eps) and the shift beta - mean · scale, folds the scale into the second layer's weights and the shift into its
  bias, and stores, at sample q of the block, 0.5 · tanh(0.5 · y) + 0.5 with y = (the sum over the six features of
  activation times folded weight) plus the folded bias. Column q of block t is column t·131072 + q of the
  [6,1048576] activations and of the [1,1048576] output, the eight blocks fill the output, and so the output array
  ends holding that one function of the pass's input arrays.
-/
import proofs.«111320_g2000302046306206_pallasbulk_911_14_alg».proof.Proof.Gen.KernelIdeal.Frame
import proofs.«111320_g2000302046306206_pallasbulk_911_14_alg».proof.Proof.KForms
import proofs.«111320_g2000302046306206_pallasbulk_911_14_alg».proof.Proof.KLayout
import proofs.«111320_g2000302046306206_pallasbulk_911_14_alg».proof.Proof.LibRowLayouts
import proofs.«111320_g2000302046306206_pallasbulk_911_14_alg».proof.Proof.LibColumnOps
import proofs.«111320_g2000302046306206_pallasbulk_911_14_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.KReg1

open Cert.KernelIdeal Cert.KernelIdeal.Gen
open Idealize.ShloMosaic Idealize.ShloMosaic.TcCoe Idealize.ShloMosaic.ValueIdx
open TwoLayer

/-! ## The statistics' totals, mean, scale and folded weight, each at a feature -/

/-- The exact sum over axis 0 of an [A, B, C] array, at (p, q): the sum over k of the entry (k, p, q). -/
theorem sum_lead_axis_apply {A B C : ℕ} (src : FVec Ideal ⟨3, ![A, B, C]⟩ .f32)
    (hred : Shape.Reduces ⟨3, ![A, B, C]⟩ [0] ⟨2, ![B, C]⟩) (hφ : FKind.Formats .f32)
    (hacc : (0x00000000#32 : BitVec 32) = 0x00000000#32) (p : Fin B) (q : Fin C) :
    multiReduction .add [0] ⟨2, ![B, C]⟩ src 0x00000000#32 hred hφ hacc (ix2 p q) = ∑ k : Fin A, src (ix3 k p q) := by
  refine (Ideal.multiReduction_add_single src 0x00000000#32 hred hφ hacc (ix2 p q)).trans ?_
  show ∑ k : Fin A, src (hred.lift (ix2 p q) k) = _
  refine Finset.sum_congr rfl fun k _ => congrArg src ?_
  funext d
  match d with
  | ⟨0, _⟩ => exact Fin.ext rfl
  | ⟨1, _⟩ => exact Fin.ext rfl
  | ⟨2, _⟩ => exact Fin.ext rfl

/-- Row f, lane l of the statistics totalled over the sixteen blocks. -/
theorem tot_apply (st : FVec Ideal S16x6x128 .f32) (f : Fin 6) (l : Fin 128) :
    k1_pay2 (F := Ideal) st (ix2 f l) = totK st f l := by
  show multiReduction .add [0] S6x128 (shapeCast S16x6x128 st shapeCasts_S16x6x128_S16x6x128) 0x00000000#32
      reduces_S16x6x128_S6x128 (.inl rfl) rfl (ix2 f l) = _
  rw [shapeCast_self]
  exact sum_lead_axis_apply st reduces_S16x6x128_S6x128 (.inl rfl) rfl f l

/-- The mean of feature f: lane 0 of its total, times the word for 2^-20. -/
theorem mean_apply (st : FVec Ideal S16x6x128 .f32) (f : Fin 6) :
    k1_pay3 (F := Ideal) st (ix2 f (0 : Fin 1)) = meanK st f := by
  show extractStridedSlice S6x1 ![0, 0] (k1_pay2 (F := Ideal) st) slices_S6x128_o0_0_S6x1 (ix2 f (0 : Fin 1))
      * Ideal.ofBits .f32 0x35800000#32 = _
  refine congrArg (· * Ideal.ofBits .f32 0x35800000#32) ?_
  refine (extractStridedSlice_apply ![0, 0] (k1_pay2 (F := Ideal) st) slices_S6x128_o0_0_S6x1 (ix2 f (0 : Fin 1)) (ix2 f (0 : Fin 128)) fun a => ?_).trans
    (tot_apply st f 0)
  match a with
  | ⟨0, _⟩ => show f.val = 0 + f.val; omega
  | ⟨1, _⟩ => rfl

/-- The scale of feature f: gamma times the reciprocal root of the clamped variance plus eps. -/
theorem scale_apply (st : FVec Ideal S16x6x128 .f32) (g : FVec Ideal S6x1 .f32) (f : Fin 6) :
    k1_pay4 (F := Ideal) st g (ix2 f (0 : Fin 1)) = scaleK st g f := by
  have hsq : extractStridedSlice S6x1 ![0, 1] (k1_pay2 (F := Ideal) st) slices_S6x128_o0_1_S6x1 (ix2 f (0 : Fin 1)) = totK st f (1 : Fin 128) := by
    refine (extractStridedSlice_apply ![0, 1] (k1_pay2 (F := Ideal) st) slices_S6x128_o0_1_S6x1 (ix2 f (0 : Fin 1)) (ix2 f (1 : Fin 128)) fun a => ?_).trans
      (tot_apply st f 1)
    match a with
    | ⟨0, _⟩ => show f.val = 0 + f.val; omega
    | ⟨1, _⟩ => rfl
  show shapeCast S6x1 g shapeCasts_S6x1_S6x1 (ix2 f (0 : Fin 1))
      * Ideal.rsqrt (max (extractStridedSlice S6x1 ![0, 1] (k1_pay2 (F := Ideal) st) slices_S6x128_o0_1_S6x1 (ix2 f (0 : Fin 1))
            * Ideal.ofBits .f32 0x35800000#32
          - k1_pay3 (F := Ideal) st (ix2 f (0 : Fin 1)) * k1_pay3 (F := Ideal) st (ix2 f (0 : Fin 1)))
        (Ideal.ofBits .f32 0x00000000#32) + Ideal.ofBits .f32 0x3727C5AC#32) = _
  rw [shapeCast_self, hsq, mean_apply]
  rfl

/-- The second layer's weight of feature f with the scale folded in. -/
theorem w2e_apply (st : FVec Ideal S16x6x128 .f32) (g w2c : FVec Ideal S6x1 .f32) (f : Fin 6) :
    k1_pay5 (F := Ideal) st g w2c (ix2 f (0 : Fin 1)) = w2eK st g w2c f := by
  show shapeCast S6x1 w2c shapeCasts_S6x1_S6x1 (ix2 f (0 : Fin 1)) * k1_pay4 (F := Ideal) st g (ix2 f (0 : Fin 1)) = _
  rw [shapeCast_self, scale_apply]
  rfl

/-! ## The folded bias -/

/-- The summand of the folded bias at feature p: the second layer's weight times the shift beta - mean · scale. -/
theorem weighted_shift_apply (st : FVec Ideal S16x6x128 .f32) (g bt w2c : FVec Ideal S6x1 .f32) (p : Fin 6) :
    mulf (shapeCast S6x1 w2c shapeCasts_S6x1_S6x1)
        (subf (shapeCast S6x1 bt shapeCasts_S6x1_S6x1) (mulf (k1_pay3 (F := Ideal) st) (k1_pay4 (F := Ideal) st g))) (ix2 p (0 : Fin 1))
      = w2c (ix2 p (0 : Fin 1)) * shiftK st g bt p := by
  show shapeCast S6x1 w2c shapeCasts_S6x1_S6x1 (ix2 p (0 : Fin 1))
      * (shapeCast S6x1 bt shapeCasts_S6x1_S6x1 (ix2 p (0 : Fin 1))
          - k1_pay3 (F := Ideal) st (ix2 p (0 : Fin 1)) * k1_pay4 (F := Ideal) st g (ix2 p (0 : Fin 1))) = _
  rw [shapeCast_self, shapeCast_self, mean_apply, scale_apply]
  rfl

/-- The second layer's bias with the shift folded in: the sum over the [1,6,1] array of weight times shift, plus the
    bias cell. -/
theorem b2e_apply (st : FVec Ideal S16x6x128 .f32) (g bt w2c : FVec Ideal S6x1 .f32) (b2c : FVec Ideal S1x1 .f32) :
    k1_pay6 (F := Ideal) st g bt w2c b2c = b2eK st g bt w2c b2c := by
  show extractAt ![0, 0, 0] (shapeCast S1x1x1 (multiReduction .add [1, 2] S1
          (shapeCast S1x6x1 (mulf (shapeCast S6x1 w2c shapeCasts_S6x1_S6x1)
            (subf (shapeCast S6x1 bt shapeCasts_S6x1_S6x1) (mulf (k1_pay3 (F := Ideal) st) (k1_pay4 (F := Ideal) st g)))) shapeCasts_S6x1_S1x6x1)
          0x00000000#32 reduces_S1x6x1_S1 (.inl rfl) rfl) shapeCasts_S1_S1x1x1) inpos_S1x1x1_p0_0_0
      + extractAt ![0, 0] b2c inpos_S1x1_p0_0 = _
  unfold b2eK
  refine congrArg₂ (· + ·) ?_ ?_
  · refine (shapeCast_apply _ shapeCasts_S1_S1x1x1 _ (ix1 (0 : Fin 1)) ?_).trans ?_
    · rw [Shape.rowMajor_val_one, Shape.rowMajor_val_three]
      rfl
    refine (Ideal.multiReduction_add_total _ 0x00000000#32 reduces_S1x6x1_S1 (fun b => by
      match b with
      | ⟨0, _⟩ => rfl) (.inl rfl) rfl (ix1 (0 : Fin 1))).trans ?_
    refine Finset.sum_congr rfl fun j _ => ?_
    obtain ⟨a, p, b, rfl⟩ : ∃ (a : Fin 1) (p : Fin 6) (b : Fin 1), j = ix3 a p b :=
      ⟨j 0, j 1, j 2, eq_ix3 (n0 := 1) (n1 := 6) (n2 := 1) j⟩
    have hb : b = 0 := Subsingleton.elim b 0
    subst hb
    refine (LibRowLayouts.shapeCast_add_unit_apply _ shapeCasts_S6x1_S1x6x1 a p (0 : Fin 1)).trans ?_
    exact weighted_shift_apply st g bt w2c p
  · exact congrArg b2c (funext fun a => Fin.ext (by
      match a with
      | ⟨0, _⟩ => rfl
      | ⟨1, _⟩ => rfl))

/-! ## The body's value at one sample of a block -/

/-- The body's value from the activations at a sample, the statistics, the three columns and the bias cell. -/
def bodyVal (hq : Fin 6 → EReal) (st : (⟨3, ![16, 6, 128]⟩ : Shape).Idx → EReal) (g bt w2c : (⟨2, ![6, 1]⟩ : Shape).Idx → EReal)
    (b2c : (⟨2, ![1, 1]⟩ : Shape).Idx → EReal) : EReal :=
  Ideal.ofBits .f32 0x3F000000#32
      * Ideal.tanh (Ideal.ofBits .f32 0x3F000000#32 * ((∑ f : Fin 6, hq f * w2eK st g w2c f) + b2eK st g bt w2c b2c))
    + Ideal.ofBits .f32 0x3F000000#32

/-- The hyperbolic tangent of a vector, at an entry: the function at that entry. -/
theorem tanh_at {s : Shape} (x : FVec Ideal s .f32) (i : s.Idx) : tanh x i = Ideal.tanh (x i) := rfl

/-- The store's value at (z, q) from a folded-weight column W, a folded bias e and an activation block H:
    0.5 · tanh(0.5 · (Σ_f H(f,q) · W(f,0) + e)) + 0.5, the three halves as their word. -/
theorem store_apply (W : FVec Ideal S6x1 .f32) (e : Ideal .f32) (H : FVec Ideal S6x131072 .bf16) (z : Fin 1) (q : Fin 131072) :
    k1_pay1 (F := Ideal) W e H (ix2 z q)
      = Ideal.ofBits .f32 0x3F000000#32
          * Ideal.tanh (Ideal.ofBits .f32 0x3F000000#32 * ((∑ f : Fin 6, H (ix2 f q) * W (ix2 f (0 : Fin 1))) + e))
        + Ideal.ofBits .f32 0x3F000000#32 := by
  unfold k1_pay1
  dsimp only
  refine (addf_apply _ _ _).trans (congrArg₂ (· + ·) ?_ rfl)
  refine (mulf_apply _ _ _).trans (congrArg₂ (· * ·) rfl ?_)
  refine (tanh_at _ _).trans (congrArg Ideal.tanh ?_)
  refine (mulf_apply _ _ _).trans (congrArg₂ (· * ·) rfl ?_)
  refine (addf_apply _ _ _).trans (congrArg₂ (· + ·) ?_ rfl)
  exact Layout.weighted_colsum_row_apply (extf .f32 H bitsLt_bf16_f32) W broadcasts_S6x1_S6x131072 reduces_S6x131072_S131072
    shapeCasts_S131072_S1x131072 (.inl rfl) rfl z q

/-- THE BODY AT ONE SAMPLE: entry (z, q) of what the body stores, from its six loaded blocks. -/
theorem body_apply (h : FVec Ideal S6x131072 .bf16) (st : FVec Ideal S16x6x128 .f32) (g bt w2c : FVec Ideal S6x1 .f32)
    (b2c : FVec Ideal S1x1 .f32) (z : Fin 1) (q : Fin 131072) :
    k1_pay1 (F := Ideal) (k1_pay5 st g w2c) (k1_pay6 st g bt w2c b2c) (k1_pay7 h) (ix2 z q)
      = bodyVal (fun f => h (ix2 f q)) st g bt w2c b2c := by
  refine (store_apply (k1_pay5 st g w2c) (k1_pay6 st g bt w2c b2c) (k1_pay7 h) z q).trans ?_
  unfold bodyVal
  rw [b2e_apply]
  refine congrArg (fun s => Ideal.ofBits .f32 0x3F000000#32
    * Ideal.tanh (Ideal.ofBits .f32 0x3F000000#32 * (s + b2eK st g bt w2c b2c)) + Ideal.ofBits .f32 0x3F000000#32) ?_
  refine Finset.sum_congr rfl fun f _ => ?_
  rw [w2e_apply]
  refine congrArg (· * w2eK st g w2c f) ?_
  show shapeCast S6x131072 h shapeCasts_S6x131072_S6x131072 (ix2 f q) = h (ix2 f q)
  rw [shapeCast_self]

/-! ## From the blocks to the array -/

section Arrays

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: the activation and the output blocks move along the columns with the point;
    the statistics, the three columns and the bias cell stay. -/
theorem index_facts : ∀ t : Fin cfg1.N,
    win1_0.index t (0 : Fin 2) = 0 ∧ win1_0.index t (1 : Fin 2) = t.val
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = t.val :=
  (by decide +kernel : ∀ t : Fin grid1.N, _)

/-- The grid point as a block number. -/
def pt (t : Fin cfg1.N) : Fin 8 := ⟨t.val, by have h := t.isLt; have hN : cfg1.N = 8 := N_1; omega⟩

/-- The activation block at point t: column q of the block is column t·131072 + q of the array. -/
theorem read_h (c : Dev nD) (t : Fin cfg1.N) (f : Fin 6) (q : Fin 131072) :
    (iblk1 V c 0 t : FVec Ideal S6x131072 .bf16) (ix2 f q) = (V c main_v3_0 : FVec Ideal S6x1048576 .bf16) (ix2 f (at131072 (pt t) q)) := by
  show V c main_v3_0 (((cfg1.win 0).blk t).view.emb (ix2 f q)) = V c main_v3_0 (ix2 f (at131072 (pt t) q))
  obtain ⟨e0, e1, -⟩ := index_facts t
  refine congrArg _ (funext fun a => Fin.ext ?_)
  match a with
  | ⟨0, _⟩ => show win1_0.index t (0 : Fin 2) * 6 + 1 * f.val = f.val; rw [e0]; omega
  | ⟨1, _⟩ => show win1_0.index t (1 : Fin 2) * 131072 + 1 * q.val = t.val * 131072 + q.val; rw [e1]; omega

/-- The statistics' block is the whole array. -/
theorem read_st (c : Dev nD) (t : Fin cfg1.N) :
    (iblk1 V c 1 t : FVec Ideal S16x6x128 .f32) = (V c main_v3_1 : FVec Ideal S16x6x128 .f32) := by
  funext j
  show V c main_v3_1 (((cfg1.win 1).blk t).view.emb j) = V c main_v3_1 j
  obtain ⟨-, -, e0, e1, e2, -⟩ := index_facts t
  refine congrArg _ (funext fun a => Fin.ext ?_)
  match a with
  | ⟨0, _⟩ => show win1_1.index t (0 : Fin 3) * 16 + 1 * (j 0).val = (j 0).val; rw [e0]; omega
  | ⟨1, _⟩ => show win1_1.index t (1 : Fin 3) * 6 + 1 * (j 1).val = (j 1).val; rw [e1]; omega
  | ⟨2, _⟩ => show win1_1.index t (2 : Fin 3) * 128 + 1 * (j 2).val = (j 2).val; rw [e2]; omega

/-- The gamma column's block is the whole array. -/
theorem read_g (c : Dev nD) (t : Fin cfg1.N) :
    (iblk1 V c 2 t : FVec Ideal S6x1 .f32) = (V c main_v4 : FVec Ideal S6x1 .f32) := by
  funext j
  show V c main_v4 (((cfg1.win 2).blk t).view.emb j) = V c main_v4 j
  obtain ⟨-, -, -, -, -, e0, e1, -⟩ := index_facts t
  refine congrArg _ (funext fun a => Fin.ext ?_)
  match a with
  | ⟨0, _⟩ => show win1_2.index t (0 : Fin 2) * 6 + 1 * (j 0).val = (j 0).val; rw [e0]; omega
  | ⟨1, _⟩ => show win1_2.index t (1 : Fin 2) * 1 + 1 * (j 1).val = (j 1).val; rw [e1]; omega

/-- The beta column's block is the whole array. -/
theorem read_bt (c : Dev nD) (t : Fin cfg1.N) :
    (iblk1 V c 3 t : FVec Ideal S6x1 .f32) = (V c main_v5 : FVec Ideal S6x1 .f32) := by
  funext j
  show V c main_v5 (((cfg1.win 3).blk t).view.emb j) = V c main_v5 j
  obtain ⟨-, -, -, -, -, -, -, e0, e1, -⟩ := index_facts t
  refine congrArg _ (funext fun a => Fin.ext ?_)
  match a with
  | ⟨0, _⟩ => show win1_3.index t (0 : Fin 2) * 6 + 1 * (j 0).val = (j 0).val; rw [e0]; omega
  | ⟨1, _⟩ => show win1_3.index t (1 : Fin 2) * 1 + 1 * (j 1).val = (j 1).val; rw [e1]; omega

/-- The second-layer weights' block is the whole array. -/
theorem read_w2 (c : Dev nD) (t : Fin cfg1.N) :
    (iblk1 V c 4 t : FVec Ideal S6x1 .f32) = (V c main_v6 : FVec Ideal S6x1 .f32) := by
  funext j
  show V c main_v6 (((cfg1.win 4).blk t).view.emb j) = V c main_v6 j
  obtain ⟨-, -, -, -, -, -, -, -, -, e0, e1, -⟩ := index_facts t
  refine congrArg _ (funext fun a => Fin.ext ?_)
  match a with
  | ⟨0, _⟩ => show win1_4.index t (0 : Fin 2) * 6 + 1 * (j 0).val = (j 0).val; rw [e0]; omega
  | ⟨1, _⟩ => show win1_4.index t (1 : Fin 2) * 1 + 1 * (j 1).val = (j 1).val; rw [e1]; omega

/-- The second-layer bias cell's block is the whole array. -/
theorem read_b2 (c : Dev nD) (t : Fin cfg1.N) :
    (iblk1 V c 5 t : FVec Ideal S1x1 .f32) = (V c main_v7 : FVec Ideal S1x1 .f32) := by
  funext j
  show V c main_v7 (((cfg1.win 5).blk t).view.emb j) = V c main_v7 j
  obtain ⟨-, -, -, -, -, -, -, -, -, -, -, e0, e1, -⟩ := index_facts t
  refine congrArg _ (funext fun a => Fin.ext ?_)
  match a with
  | ⟨0, _⟩ => show win1_5.index t (0 : Fin 2) * 1 + 1 * (j 0).val = (j 0).val; rw [e0]; omega
  | ⟨1, _⟩ => show win1_5.index t (1 : Fin 2) * 1 + 1 * (j 1).val = (j 1).val; rw [e1]; omega

/-- THE BODY AT POINT t, SAMPLE q: the pass's value at sample t·131072 + q of the arrays as the region finds them. -/
theorem point_value (c : Dev nD) (t : Fin cfg1.N) (z : Fin 1) (q : Fin 131072) :
    k1_pay1 (F := Ideal) (k1_pay5 (iblk1 V c 1 t) (iblk1 V c 2 t) (iblk1 V c 4 t))
        (k1_pay6 (iblk1 V c 1 t) (iblk1 V c 2 t) (iblk1 V c 3 t) (iblk1 V c 4 t) (iblk1 V c 5 t)) (k1_pay7 (iblk1 V c 0 t)) (ix2 z q)
      = outK (V c main_v3_0) (V c main_v3_1) (V c main_v4) (V c main_v5) (V c main_v6) (V c main_v7) (at131072 (pt t) q) := by
  refine (body_apply (iblk1 V c 0 t) (iblk1 V c 1 t) (iblk1 V c 2 t) (iblk1 V c 3 t) (iblk1 V c 4 t) (iblk1 V c 5 t) z q).trans ?_
  exact congr (congr (congr (congr (congr (congrArg bodyVal (funext fun f => read_h V c t f q)) (read_st V c t)) (read_g V c t))
    (read_bt V c t)) (read_w2 V c t)) (read_b2 V c t)

/-- WHAT POINT t WRITES BACK is block t of the pass's values along the [1, 1048576] output. -/
theorem flushed_eq (c : Dev nD) (t : Fin cfg1.N) :
    (dat1 (F := Ideal) V c).flushed 6 t
      = ((cfg1.win 6).blk t).view.read (Elt Ideal)
          (fun j : S1x1048576.Idx => outK (V c main_v3_0) (V c main_v3_1) (V c main_v4) (V c main_v5) (V c main_v6) (V c main_v7) (j 1)) := by
  show (cfg1.win 6).cut (grid1.coords t) ((dat1 (F := Ideal) V c).after 6 t) = _
  rw [after1_6]
  unfold out1_6
  rw [View.canon_unit_zero zeros2]
  simp only [View.ld_unit_zero (S := S16x6x128) zeros3, View.ld_unit_zero (S := S6x1) zeros2,
    View.ld_unit_zero (S := S1x1) zeros2, View.ld_unit_zero (S := S6x131072) zeros2]
  obtain ⟨-, -, -, -, -, -, -, -, -, -, -, -, -, e0, e1⟩ := index_facts t
  funext j
  show k1_pay1 (F := Ideal) (k1_pay5 (iblk1 V c 1 t) (iblk1 V c 2 t) (iblk1 V c 4 t))
        (k1_pay6 (iblk1 V c 1 t) (iblk1 V c 2 t) (iblk1 V c 3 t) (iblk1 V c 4 t) (iblk1 V c 5 t)) (k1_pay7 (iblk1 V c 0 t)) j
    = outK (V c main_v3_0) (V c main_v3_1) (V c main_v4) (V c main_v5) (V c main_v6) (V c main_v7) ((((cfg1.win 6).blk t).view.emb j) 1)
  refine (congrArg (k1_pay1 (F := Ideal) (k1_pay5 (iblk1 V c 1 t) (iblk1 V c 2 t) (iblk1 V c 4 t))
        (k1_pay6 (iblk1 V c 1 t) (iblk1 V c 2 t) (iblk1 V c 3 t) (iblk1 V c 4 t) (iblk1 V c 5 t)) (k1_pay7 (iblk1 V c 0 t)))
    (eq_ix2 (n0 := 1) (n1 := 131072) j)).trans ?_
  refine (point_value V c t (j 0) (j 1)).trans ?_
  refine congrArg (outK (V c main_v3_0) (V c main_v3_1) (V c main_v4) (V c main_v5) (V c main_v6) (V c main_v7)) (Fin.ext ?_)
  show t.val * 131072 + (j 1).val = win1_6.index t (1 : Fin 2) * 131072 + 1 * (j 1).val
  rw [e1]; omega

/-- An index of the output array is in point t's block iff each coordinate is in the block's range on its axis. -/
theorem mem_blk (t : Fin cfg1.N) (i : S1x1048576.Idx) :
    i ∈ ((cfg1.win 6).blk t).view.set
      ↔ ∀ a : Fin 2, win1_6.index t a * S1x131072.size a ≤ (i a).val ∧ (i a).val < win1_6.index t a * S1x131072.size a + S1x131072.size a := by
  show i ∈ ((View.whole main_v8).slice (win1_6.rect t)).set ↔ _
  rw [View.set_slice_whole, Rect.mem_set_unit]
  exact Iff.rfl

/-- Column b of the output array is in the block of point b / 131072, which is written back. -/
theorem cover (i : S1x1048576.Idx) : ∃ t : Fin cfg1.N, (cfg1.win 6).flush t = true ∧ i ∈ ((cfg1.win 6).blk t).view.set := by
  have hi0 : (i 0).val < 1 := (i 0).isLt
  have hi1 : (i 1).val < 1048576 := (i 1).isLt
  have hN : cfg1.N = 8 := N_1
  obtain ⟨t, ht⟩ : ∃ t : Fin cfg1.N, t.val = (i 1).val / 131072 := ⟨⟨(i 1).val / 131072, by rw [hN]; omega⟩, rfl⟩
  refine ⟨t, flush1_6 t, ?_⟩
  rw [mem_blk]
  obtain ⟨-, -, -, -, -, -, -, -, -, -, -, -, -, e0, e1⟩ := index_facts t
  intro a
  match a with
  | ⟨0, _⟩ => show win1_6.index t (0 : Fin 2) * 1 ≤ (i 0).val ∧ (i 0).val < win1_6.index t (0 : Fin 2) * 1 + 1; rw [e0]; omega
  | ⟨1, _⟩ => show win1_6.index t (1 : Fin 2) * 131072 ≤ (i 1).val ∧ (i 1).val < win1_6.index t (1 : Fin 2) * 131072 + 131072; rw [e1, ht]; omega

end Arrays

/-- THE OUTPUT ARRAY after the second pass: at (0, b), the pass's value at sample b of the arrays as the region finds
    them — every point writes its block of that one function, and the eight blocks fill the array. -/
theorem out_final (V : (c : Dev nD) → (b : Ref sig .tc) → Buf (Elt Ideal) ((c : Thread nD τ).loc b)) (c : Dev nD) :
    (Gen.dat1 (F := Ideal) V c).arrAt 6 cfg1.N
      = fun j => TwoLayer.outK (V c main_v3_0) (V c main_v3_1) (V c main_v4) (V c main_v5) (V c main_v6) (V c main_v7) (j 1) :=
  (Gen.dat1 (F := Ideal) V c).arrAt_eq_of_cover 6
    (fun j : S1x1048576.Idx => TwoLayer.outK (V c main_v3_0) (V c main_v3_1) (V c main_v4) (V c main_v5) (V c main_v6) (V c main_v7) (j 1))
    (fun t _ => flushed_eq V c t) cover

end Cert.KernelIdeal.KReg1

end
-- ==== Proof.RRun.lean ====
/-
  The reference program's run with its RESULT named. The program is seven segments: five host stretches and two
  pipelined regions. After the last stretch every unscoped buffer of a core holds the last boundary's contents
  (the fold of the stretches and of the regions' write-backs from the launch memory), so in every final state the
  result buffer holds that fold read at the result, and the seven arguments are as launched.
-/
import proofs.«111320_g2000302046306206_pallasbulk_911_14_alg».proof.Proof.RefFrame

set_option maxRecDepth 16384

noncomputable section

namespace Cert.ReferenceIdeal.RRun

open Cert.ReferenceIdeal Cert.ReferenceIdeal.Gen Cert.ReferenceIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and each argument as launched. -/
theorem run_named : θ_run defs (onTc (τ := τ) (main (F := F))) ⟨m, fun _ => 0, ρ⟩ (fun r => ∀ c : Dev nD,
      r.2.mem ((c.tc : Thread nD τ).loc main_v33) = W7 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v33 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.ReferenceIdeal.RRun

end
-- ==== Proof.RHostForms.lean ====
/-
  The reference's batch normalisation folded into its second layer, as plain functions of the statistics array and
  of the small arguments, on the extended reals.

  Lane l of row f of the statistics is totalled over the 2048 blocks starting from the value of the zero word. The mean
  is the lane-0 total divided by the value of the word of 2^20, the variance max(lane-1 total / 2^20 - mean², 0), the
  scale gamma / sqrt(variance + eps), the shift beta - mean · scale; the folded weight is the second layer's weight
  times the scale and the folded bias the sum of weight times shift, from the zero word's value, plus the bias.
  Float literals are kept as their words.
-/
import Idealize.ShloMosaic.Lib.ValueIdx
import Idealize.ShloMosaic.PureOps.Ideal.Laws

noncomputable section

namespace TwoLayer

open Idealize.ShloMosaic Idealize.ShloMosaic.ValueIdx

/-- Lane l of row f totalled over the 2048 blocks, from the zero word's value. -/
def totR (st : (⟨3, ![2048, 6, 128]⟩ : Shape).Idx → EReal) (f : Fin 6) (l : Fin 128) : EReal :=
  Ideal.ofBits .f32 0x00000000#32 + ∑ i : Fin 2048, st (ix3 i f l)

/-- The batch mean of feature f. -/
def meanR (st : (⟨3, ![2048, 6, 128]⟩ : Shape).Idx → EReal) (f : Fin 6) : EReal :=
  Ideal.div (totR st f (0 : Fin 128)) (Ideal.ofBits .f32 0x49800000#32)

/-- The batch variance of feature f, clamped below at zero. -/
def varR (st : (⟨3, ![2048, 6, 128]⟩ : Shape).Idx → EReal) (f : Fin 6) : EReal :=
  max (Ideal.div (totR st f (1 : Fin 128)) (Ideal.ofBits .f32 0x49800000#32) - meanR st f * meanR st f) (Ideal.ofBits .f32 0x00000000#32)

/-- gamma / sqrt(variance + eps). -/
def scaleR (st : (⟨3, ![2048, 6, 128]⟩ : Shape).Idx → EReal) (g : (⟨1, ![6]⟩ : Shape).Idx → EReal) (f : Fin 6) : EReal :=
  Ideal.div (g (ix1 f)) (Ideal.sqrt (varR st f + Ideal.ofBits .f32 0x3727C5AC#32))

/-- beta - mean · scale. -/
def shiftR (st : (⟨3, ![2048, 6, 128]⟩ : Shape).Idx → EReal) (g bt : (⟨1, ![6]⟩ : Shape).Idx → EReal) (f : Fin 6) : EReal :=
  bt (ix1 f) - meanR st f * scaleR st g f

/-- The second layer's weight with the scale folded in. -/
def w2effR (st : (⟨3, ![2048, 6, 128]⟩ : Shape).Idx → EReal) (g : (⟨1, ![6]⟩ : Shape).Idx → EReal)
    (w2 : (⟨2, ![1, 6]⟩ : Shape).Idx → EReal) (f : Fin 6) : EReal :=
  w2 (ix2 (0 : Fin 1) f) * scaleR st g f

/-- The second layer's bias with the shift folded in. -/
def b2effR (st : (⟨3, ![2048, 6, 128]⟩ : Shape).Idx → EReal) (g bt : (⟨1, ![6]⟩ : Shape).Idx → EReal)
    (w2 : (⟨2, ![1, 6]⟩ : Shape).Idx → EReal) (b2 : (⟨1, ![1]⟩ : Shape).Idx → EReal) : EReal :=
  (Ideal.ofBits .f32 0x00000000#32 + ∑ f : Fin 6, w2 (ix2 (0 : Fin 1) f) * shiftR st g bt f) + b2 (ix1 (0 : Fin 1))

end TwoLayer

end
-- ==== Proof.LibIndexEq.lean ====
/-
  An index of a one- or two-axis shape is determined by its coordinates: if the coordinates of `f` are those of
  `a` (and `b`), then `f` is the index built from them. Used to identify an index that a program spells by a
  case split on the axis with the index built from literal coordinates.
-/
import Idealize.ShloMosaic.Lib.ValueIdx

namespace LibIndexEq

open Idealize.ShloMosaic Idealize.ShloMosaic.ValueIdx

/-- A two-axis index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A one-axis index with coordinate `a` is `ix1 a`. -/
theorem idx1_eq {n : ℕ} (f : (⟨1, ![n]⟩ : Shape).Idx) (a : Fin n) (h0 : (f 0).val = a.val) : f = ix1 a :=
  funext fun d => Fin.ext (by
    match d with
    | ⟨0, _⟩ => exact h0)

end LibIndexEq
-- ==== Proof.RHost.lean ====
/-
  The reference's host side at exact arithmetic: what the buffers the two regions read hold when each region is
  entered, and what the result buffer holds at the end, in terms of the launch memory and of the arrays the regions
  leave.

  Before the first region the input is transposed and padded by nothing, and the first layer's bias is viewed as a
  column; the weights are read as launched. Between the regions the statistics array the first region leaves is
  folded into the second layer: lanes 0 and 1 are totalled over the 2048 blocks, the mean and the clamped variance
  are taken per feature, gamma is divided by sqrt(variance + eps), beta loses mean times that scale, the second
  layer's weights are multiplied by the scale and its bias gains the sum of weight times shift. The first region's
  inputs are untouched. After the second region its [1, B] output row is transposed to [B, 1].
-/
import proofs.«111320_g2000302046306206_pallasbulk_911_14_alg».proof.Proof.RefFrame
import proofs.«111320_g2000302046306206_pallasbulk_911_14_alg».proof.Proof.RHostForms
import proofs.«111320_g2000302046306206_pallasbulk_911_14_alg».proof.Proof.LibKeepdims
import proofs.«111320_g2000302046306206_pallasbulk_911_14_alg».proof.Proof.LibIndexEq
import Idealize.ShloMosaic.Lib.StableHlo.Run
import Idealize.ShloMosaic.Lib.KernelVsHost
import Idealize.ShloMosaic.Lib.ValueIdx
import Idealize.ShloMosaic.Lib.Pipeline.Value
import Idealize.ShloMosaic.PureOps.Ideal.Laws

set_option maxRecDepth 16384

noncomputable section

namespace Cert.ReferenceIdeal.RHost

open Cert.ReferenceIdeal Cert.ReferenceIdeal.Gen Cert.ReferenceIdeal.GenP
open Idealize.ShloMosaic Idealize.ShloMosaic.TcCoe Idealize.ShloMosaic.StableHlo
open Idealize.ShloMosaic.ValueIdx
open Idealize.SL.Sem

/-! ## Each stretch over any contents -/

section Stretches
variable (X : Valuation τ sig (Elt Ideal))

theorem s0_xt : after (hostOps0 (F := Ideal)) X (Proc.devRef .tc main_v0)
    = transpose S10x1048576 [1, 0] (X (Proc.devRef .tc main_arg0)) transposes_S1048576x10_S10x1048576_1_0 := by
  after_results <;> rfl
theorem s0_keep1 : after (hostOps0 (F := Ideal)) X (Proc.devRef .tc main_arg1) = X (Proc.devRef .tc main_arg1) := by after_results <;> rfl
theorem s0_keep2 : after (hostOps0 (F := Ideal)) X (Proc.devRef .tc main_arg2) = X (Proc.devRef .tc main_arg2) := by after_results <;> rfl
theorem s0_keep3 : after (hostOps0 (F := Ideal)) X (Proc.devRef .tc main_arg3) = X (Proc.devRef .tc main_arg3) := by after_results <;> rfl
theorem s0_keep4 : after (hostOps0 (F := Ideal)) X (Proc.devRef .tc main_arg4) = X (Proc.devRef .tc main_arg4) := by after_results <;> rfl
theorem s0_keep5 : after (hostOps0 (F := Ideal)) X (Proc.devRef .tc main_arg5) = X (Proc.devRef .tc main_arg5) := by after_results <;> rfl
theorem s0_keep6 : after (hostOps0 (F := Ideal)) X (Proc.devRef .tc main_arg6) = X (Proc.devRef .tc main_arg6) := by after_results <;> rfl

theorem s01_xt : after (hostOps0_1 (F := Ideal)) X (Proc.devRef .tc main_v1)
    = pad S10x1048576 ![0, 0] ![0, 0] ![0, 0] (X (Proc.devRef .tc main_v0)) (sitofp .f32 (X (Proc.devRef .tc main_c)) : FVec Ideal S_ .f32)
        pads_S10x1048576_S10x1048576_000_000 h_S_ := by
  after_results <;> rfl
theorem s01_keep1 : after (hostOps0_1 (F := Ideal)) X (Proc.devRef .tc main_arg1) = X (Proc.devRef .tc main_arg1) := by after_results <;> rfl
theorem s01_keep2 : after (hostOps0_1 (F := Ideal)) X (Proc.devRef .tc main_arg2) = X (Proc.devRef .tc main_arg2) := by after_results <;> rfl
theorem s01_keep3 : after (hostOps0_1 (F := Ideal)) X (Proc.devRef .tc main_arg3) = X (Proc.devRef .tc main_arg3) := by after_results <;> rfl
theorem s01_keep4 : after (hostOps0_1 (F := Ideal)) X (Proc.devRef .tc main_arg4) = X (Proc.devRef .tc main_arg4) := by after_results <;> rfl
theorem s01_keep5 : after (hostOps0_1 (F := Ideal)) X (Proc.devRef .tc main_arg5) = X (Proc.devRef .tc main_arg5) := by after_results <;> rfl
theorem s01_keep6 : after (hostOps0_1 (F := Ideal)) X (Proc.devRef .tc main_arg6) = X (Proc.devRef .tc main_arg6) := by after_results <;> rfl

theorem s02_b1c : after (hostOps0_2 (F := Ideal)) X (Proc.devRef .tc main_v2)
    = shapeCast S6x1 (X (Proc.devRef .tc main_arg2)) shapeCasts_S6_S6x1 := by
  after_results <;> rfl
theorem s02_keep_xt : after (hostOps0_2 (F := Ideal)) X (Proc.devRef .tc main_v1) = X (Proc.devRef .tc main_v1) := by after_results <;> rfl
theorem s02_keep1 : after (hostOps0_2 (F := Ideal)) X (Proc.devRef .tc main_arg1) = X (Proc.devRef .tc main_arg1) := by after_results <;> rfl
theorem s02_keep3 : after (hostOps0_2 (F := Ideal)) X (Proc.devRef .tc main_arg3) = X (Proc.devRef .tc main_arg3) := by after_results <;> rfl
theorem s02_keep4 : after (hostOps0_2 (F := Ideal)) X (Proc.devRef .tc main_arg4) = X (Proc.devRef .tc main_arg4) := by after_results <;> rfl
theorem s02_keep5 : after (hostOps0_2 (F := Ideal)) X (Proc.devRef .tc main_arg5) = X (Proc.devRef .tc main_arg5) := by after_results <;> rfl
theorem s02_keep6 : after (hostOps0_2 (F := Ideal)) X (Proc.devRef .tc main_arg6) = X (Proc.devRef .tc main_arg6) := by after_results <;> rfl

theorem s2_out : after (hostOps2 (F := Ideal)) X (Proc.devRef .tc main_v33)
    = transpose S1048576x1 [1, 0] (X (Proc.devRef .tc main_v32)) transposes_S1x1048576_S1048576x1_1_0 := by
  after_results <;> rfl

end Stretches

/-! ## The statistics folded into the second layer, as the host writes them -/

/-- Lane l of the statistics totalled over the blocks, per feature: the lane sliced out, viewed as [2048, 6] and summed
    over the blocks from the zero word's value. -/
def totV (l : Fin 128) (hs : S2048x6x128.Slices ![0, 0, l.val] S2048x6x1) (st : FVec Ideal S2048x6x128 .f32) : FVec Ideal S6 .f32 :=
  Host.reduceAdd (shapeCast S2048x6 (extractStridedSlice S2048x6x1 ![0, 0, l.val] st hs) shapeCasts_S2048x6x1_S2048x6)
    (constant (F := Ideal) S_ .f32 0x00000000#32) reducesTo_S2048x6_S6_d0 h_S_

/-- The batch means. -/
def meanV (st : FVec Ideal S2048x6x128 .f32) : FVec Ideal S6 .f32 :=
  Host.divf (totV 0 slices_S2048x6x128_S2048x6x1_0_0_0 st) (broadcastInDim S6 ![] bcast_S_S6 (constant (F := Ideal) S_ .f32 0x49800000#32))

/-- The batch variances, clamped below at zero. -/
def varV (st : FVec Ideal S2048x6x128 .f32) : FVec Ideal S6 .f32 :=
  maximumf (subf (Host.divf (totV 1 slices_S2048x6x128_S2048x6x1_0_0_1 st) (broadcastInDim S6 ![] bcast_S_S6 (constant (F := Ideal) S_ .f32 0x49800000#32)))
      (mulf (meanV st) (meanV st)))
    (broadcastInDim S6 ![] bcast_S_S6 (constant (F := Ideal) S_ .f32 0x00000000#32))

/-- gamma / sqrt(variance + eps). -/
def scaleV (st : FVec Ideal S2048x6x128 .f32) (g : FVec Ideal S6 .f32) : FVec Ideal S6 .f32 :=
  Host.divf g (Host.sqrt (addf (varV st) (broadcastInDim S6 ![] bcast_S_S6 (constant (F := Ideal) S_ .f32 0x3727C5AC#32))))

/-- beta - mean · scale. -/
def shiftV (st : FVec Ideal S2048x6x128 .f32) (g bt : FVec Ideal S6 .f32) : FVec Ideal S6 .f32 :=
  subf bt (mulf (meanV st) (scaleV st g))

/-- The second layer's weight times the scale, as a column. -/
def w2effV (st : FVec Ideal S2048x6x128 .f32) (g : FVec Ideal S6 .f32) (w2 : FVec Ideal S1x6 .f32) : FVec Ideal S6x1 .f32 :=
  shapeCast S6x1 (mulf (shapeCast S6 w2 shapeCasts_S1x6_S6) (scaleV st g)) shapeCasts_S6_S6x1

/-- The sum of weight times shift plus the second layer's bias, as a 1×1 cell. -/
def b2effV (st : FVec Ideal S2048x6x128 .f32) (g bt : FVec Ideal S6 .f32) (w2 : FVec Ideal S1x6 .f32) (b2 : FVec Ideal S1 .f32) : FVec Ideal S1x1 .f32 :=
  shapeCast S1x1 (addf (Host.reduceAdd (mulf (shapeCast S6 w2 shapeCasts_S1x6_S6) (shiftV st g bt)) (constant (F := Ideal) S_ .f32 0x00000000#32) reducesTo_S6_S_d0 h_S_)
    (shapeCast S_ b2 shapeCasts_S1_S_)) shapeCasts_S_S1x1

section Stretch1
variable (X : Valuation τ sig (Elt Ideal))

theorem s1_keep_xt : after (hostOps1 (F := Ideal)) X (Proc.devRef .tc main_v1) = X (Proc.devRef .tc main_v1) := by after_results_simp
theorem s1_keep_w1 : after (hostOps1 (F := Ideal)) X (Proc.devRef .tc main_arg1) = X (Proc.devRef .tc main_arg1) := by after_results_simp
theorem s1_keep_b1c : after (hostOps1 (F := Ideal)) X (Proc.devRef .tc main_v2) = X (Proc.devRef .tc main_v2) := by after_results_simp
theorem s1_w2eff : after (hostOps1 (F := Ideal)) X (Proc.devRef .tc main_v26)
    = w2effV (X (Proc.devRef .tc main_v3)) (X (Proc.devRef .tc main_arg3)) (X (Proc.devRef .tc main_arg5)) := by
  after_results_simp
  rfl
theorem s1_b2eff : after (hostOps1 (F := Ideal)) X (Proc.devRef .tc main_v31)
    = b2effV (X (Proc.devRef .tc main_v3)) (X (Proc.devRef .tc main_arg3)) (X (Proc.devRef .tc main_arg4)) (X (Proc.devRef .tc main_arg5)) (X (Proc.devRef .tc main_arg6)) := by
  after_results_simp
  rfl

end Stretch1

/-! ## The run's boundaries -/

section Boundaries
variable (m : (ℓ : Loc nD τ sig) → Buf (Elt Ideal) ℓ) (ρ : Dev nD → PrngReg)

/-- The result buffer at the end: the second region's output row, transposed. -/
theorem result_eq (c : Dev nD) : W7 m ρ c (Proc.devRef .tc main_v33)
    = transpose S1048576x1 [1, 0] ((dat1 (F := Ideal) (V5 m ρ) c).arrAt 5 cfg1.N) transposes_S1x1048576_S1048576x1_1_0 :=
  (s2_out (W6 m ρ c)).trans (congrArg (fun x => transpose S1048576x1 [1, 0] x transposes_S1x1048576_S1048576x1_1_0) (W6_arr m ρ c 5))

/-- The second region is entered with the transposed input, the weights and the bias column the first was entered with:
    the first region only reads them and the stretch between the regions does not write them. -/
theorem entry1_xt (c : Dev nD) : V5 m ρ c main_v1 = V3 m ρ c main_v1 :=
  (s1_keep_xt (W4 m ρ c)).trans ((W4_arr m ρ c 0).trans (((dat0 (V3 m ρ) c).arrAt_in 0 rfl _).trans (A_eq0 (V3 m ρ) c 0)))
theorem entry1_b1c (c : Dev nD) : V5 m ρ c main_v2 = V3 m ρ c main_v2 :=
  (s1_keep_b1c (W4 m ρ c)).trans ((W4_arr m ρ c 2).trans (((dat0 (V3 m ρ) c).arrAt_in 2 rfl _).trans (A_eq0 (V3 m ρ) c 2)))

/-- The weights reach the first region as launched. -/
theorem entry0_w1 (c : Dev nD) : V3 m ρ c main_arg1 = m ((c : Thread nD τ).loc main_arg1) :=
  (s02_keep1 (W2 m ρ c)).trans ((s01_keep1 (W1 m ρ c)).trans (s0_keep1 (W0 m ρ c)))

theorem entry1_w1 (c : Dev nD) : V5 m ρ c main_arg1 = m ((c : Thread nD τ).loc main_arg1) :=
  (s1_keep_w1 (W4 m ρ c)).trans ((W4_arr m ρ c 1).trans (((dat0 (V3 m ρ) c).arrAt_in 1 rfl _).trans ((A_eq0 (V3 m ρ) c 1).trans (entry0_w1 m ρ c))))

/-- The bias column the first region reads is the bias viewed as a column. -/
theorem entry0_b1c (c : Dev nD) : V3 m ρ c main_v2 = shapeCast S6x1 (m ((c : Thread nD τ).loc main_arg2)) shapeCasts_S6_S6x1 := by
  refine (s02_b1c (W2 m ρ c)).trans (congrArg (fun x => shapeCast S6x1 x shapeCasts_S6_S6x1) ?_)
  exact (s01_keep2 (W1 m ρ c)).trans (s0_keep2 (W0 m ρ c))

theorem entry0_b1c_apply (c : Dev nD) (f : Fin 6) :
    (V3 m ρ c main_v2 : FVec Ideal S6x1 .f32) (ix2 f (0 : Fin 1)) = (m ((c : Thread nD τ).loc main_arg2) : FVec Ideal S6 .f32) (ix1 f) := by
  rw [entry0_b1c]
  exact LibKeepdims.shapeCast_col_apply _ _ f 0

/-- The transposed input the first region reads: the input transposed, then padded by nothing. -/
theorem entry0_xt (c : Dev nD) : V3 m ρ c main_v1
    = pad S10x1048576 ![0, 0] ![0, 0] ![0, 0]
        (transpose S10x1048576 [1, 0] (m ((c : Thread nD τ).loc main_arg0)) transposes_S1048576x10_S10x1048576_1_0)
        (sitofp .f32 (W1 m ρ c (Proc.devRef .tc main_c)) : FVec Ideal S_ .f32) pads_S10x1048576_S10x1048576_000_000 h_S_ := by
  refine (s02_keep_xt (W2 m ρ c)).trans ((s01_xt (W1 m ρ c)).trans ?_)
  rw [show W1 m ρ c (Proc.devRef .tc main_v0) = _ from s0_xt (W0 m ρ c)]

theorem entry0_xt_apply (c : Dev nD) (k : Fin 10) (b : Fin 1048576) :
    (V3 m ρ c main_v1 : FVec Ideal S10x1048576 .f32) (ix2 k b) = (m ((c : Thread nD τ).loc main_arg0) : FVec Ideal S1048576x10 .f32) (ix2 b k) := by
  rw [entry0_xt]
  refine (pad_apply_of_inside _ _ _ _ _ _ _ (ix2 k b) (ix2 k b) fun a => ?_).trans ?_
  · match a with
    | ⟨0, _⟩ => show k.val = 0 + k.val * (0 + 1); omega
    | ⟨1, _⟩ => show b.val = 0 + b.val * (0 + 1); omega
  · refine transpose_apply _ _ _ (ix2 k b) (ix2 b k) fun a => ?_
    match a with
    | ⟨0, _⟩ => rfl
    | ⟨1, _⟩ => rfl

end Boundaries

/-! ## The folded statistics read at an index -/

/-- Lane l totalled over the blocks, at feature f. -/
theorem totV_apply (l : Fin 128) (hs : S2048x6x128.Slices ![0, 0, l.val] S2048x6x1) (st : FVec Ideal S2048x6x128 .f32) (f : Fin 6) :
    totV l hs st (ix1 f) = TwoLayer.totR st f l := by
  have hR : S2048x6.Reduces [0] S6 := by decide
  unfold totV TwoLayer.totR
  refine (Ideal.hostReduceAdd_single reducesTo_S2048x6_S6_d0 hR _ _ (ix1 f)).trans ?_
  refine congrArg₂ (· + ·) rfl ?_
  show ∑ k : Fin 2048, _ = ∑ i : Fin 2048, st (ix3 i f l)
  refine Finset.sum_congr rfl fun k _ => ?_
  have hl : hR.lift (ix1 f) k = ix2 k f := by
    funext d
    match d with
    | ⟨0, _⟩ => exact Fin.ext rfl
    | ⟨1, _⟩ => exact Fin.ext rfl
  rw [hl]
  refine (shapeCast_apply _ _ (ix2 k f) (ix3 k f (0 : Fin 1)) ?_).trans ?_
  · rw [Shape.rowMajor_val_three, Shape.rowMajor_val_two]
    show (k.val * 6 + f.val) * 1 + 0 = k.val * 6 + f.val
    omega
  · refine extractStridedSlice_apply _ _ _ (ix3 k f (0 : Fin 1)) (ix3 k f l) fun a => ?_
    match a with
    | ⟨0, _⟩ => show k.val = 0 + k.val; omega
    | ⟨1, _⟩ => show f.val = 0 + f.val; omega
    | ⟨2, _⟩ => show l.val = l.val + 0; omega

theorem meanV_apply (st : FVec Ideal S2048x6x128 .f32) (f : Fin 6) : meanV st (ix1 f) = TwoLayer.meanR st f := by
  show Ideal.div (totV 0 slices_S2048x6x128_S2048x6x1_0_0_0 st (ix1 f)) (Ideal.ofBits .f32 0x49800000#32) = _
  rw [totV_apply]
  rfl

theorem varV_apply (st : FVec Ideal S2048x6x128 .f32) (f : Fin 6) : varV st (ix1 f) = TwoLayer.varR st f := by
  show max (Ideal.div (totV 1 slices_S2048x6x128_S2048x6x1_0_0_1 st (ix1 f)) (Ideal.ofBits .f32 0x49800000#32)
    - meanV st (ix1 f) * meanV st (ix1 f)) (Ideal.ofBits .f32 0x00000000#32) = _
  rw [totV_apply, meanV_apply]
  rfl

theorem scaleV_apply (st : FVec Ideal S2048x6x128 .f32) (g : FVec Ideal S6 .f32) (f : Fin 6) :
    scaleV st g (ix1 f) = TwoLayer.scaleR st g f := by
  show Ideal.div (g (ix1 f)) (Ideal.sqrt (varV st (ix1 f) + Ideal.ofBits .f32 0x3727C5AC#32)) = _
  rw [varV_apply]
  rfl

theorem shiftV_apply (st : FVec Ideal S2048x6x128 .f32) (g bt : FVec Ideal S6 .f32) (f : Fin 6) :
    shiftV st g bt (ix1 f) = TwoLayer.shiftR st g bt f := by
  show bt (ix1 f) - meanV st (ix1 f) * scaleV st g (ix1 f) = _
  rw [meanV_apply, scaleV_apply]
  rfl

/-- The second layer's weights [1, 6] viewed as a vector, at f. -/
theorem w2_vec_apply (w2 : FVec Ideal S1x6 .f32) (f : Fin 6) : shapeCast S6 w2 shapeCasts_S1x6_S6 (ix1 f) = w2 (ix2 (0 : Fin 1) f) := by
  refine shapeCast_apply _ _ (ix1 f) (ix2 (0 : Fin 1) f) ?_
  rw [Shape.rowMajor_val_two, Shape.rowMajor_val_one]
  show 0 * 6 + f.val = f.val
  omega

theorem w2effV_apply (st : FVec Ideal S2048x6x128 .f32) (g : FVec Ideal S6 .f32) (w2 : FVec Ideal S1x6 .f32) (f : Fin 6) :
    w2effV st g w2 (ix2 f (0 : Fin 1)) = TwoLayer.w2effR st g w2 f := by
  unfold w2effV
  rw [LibKeepdims.shapeCast_col_apply]
  show shapeCast S6 w2 shapeCasts_S1x6_S6 (ix1 f) * scaleV st g (ix1 f) = _
  rw [w2_vec_apply, scaleV_apply]
  rfl

/-- A one-axis index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem b2effV_apply (st : FVec Ideal S2048x6x128 .f32) (g bt : FVec Ideal S6 .f32) (w2 : FVec Ideal S1x6 .f32) (b2 : FVec Ideal S1 .f32) :
    b2effV st g bt w2 b2 (ix2 (0 : Fin 1) (0 : Fin 1)) = TwoLayer.b2effR st g bt w2 b2 := by
  have hn : S_.numel = 1 := by decide
  have h0 : (S_.rowMajor ix0).val = 0 := by have := (S_.rowMajor ix0).isLt; omega
  unfold b2effV TwoLayer.b2effR
  refine (shapeCast_apply _ _ (ix2 (0 : Fin 1) (0 : Fin 1)) ix0 ?_).trans ?_
  · rw [Shape.rowMajor_val_two, h0]
    rfl
  refine congrArg₂ (· + ·) ?_ ?_
  · refine (Ideal.hostReduceAdd_total reducesTo_S6_S_d0 (fun b => b.elim0) _ _ ix0).trans ?_
    refine congrArg₂ (· + ·) rfl ?_
    refine (sum_idx1 _).trans ?_
    refine Finset.sum_congr rfl fun k _ => ?_
    show shapeCast S6 w2 shapeCasts_S1x6_S6 (ix1 k) * shiftV st g bt (ix1 k) = _
    rw [w2_vec_apply, shiftV_apply]
  · refine shapeCast_apply _ _ ix0 (ix1 (0 : Fin 1)) ?_
    rw [Shape.rowMajor_val_one, h0]
    rfl

section Entry1
variable (m : (ℓ : Loc nD τ sig) → Buf (Elt Ideal) ℓ) (ρ : Dev nD → PrngReg)

/-- A small argument reaches the stretch between the regions as launched. -/
theorem mid_arg3 (c : Dev nD) : W4 m ρ c (Proc.devRef .tc main_arg3) = m ((c : Thread nD τ).loc main_arg3) :=
  (W4_of_ne m ρ c main_arg3 (by decide)).trans ((s02_keep3 (W2 m ρ c)).trans ((s01_keep3 (W1 m ρ c)).trans (s0_keep3 (W0 m ρ c))))
theorem mid_arg4 (c : Dev nD) : W4 m ρ c (Proc.devRef .tc main_arg4) = m ((c : Thread nD τ).loc main_arg4) :=
  (W4_of_ne m ρ c main_arg4 (by decide)).trans ((s02_keep4 (W2 m ρ c)).trans ((s01_keep4 (W1 m ρ c)).trans (s0_keep4 (W0 m ρ c))))
theorem mid_arg5 (c : Dev nD) : W4 m ρ c (Proc.devRef .tc main_arg5) = m ((c : Thread nD τ).loc main_arg5) :=
  (W4_of_ne m ρ c main_arg5 (by decide)).trans ((s02_keep5 (W2 m ρ c)).trans ((s01_keep5 (W1 m ρ c)).trans (s0_keep5 (W0 m ρ c))))
theorem mid_arg6 (c : Dev nD) : W4 m ρ c (Proc.devRef .tc main_arg6) = m ((c : Thread nD τ).loc main_arg6) :=
  (W4_of_ne m ρ c main_arg6 (by decide)).trans ((s02_keep6 (W2 m ρ c)).trans ((s01_keep6 (W1 m ρ c)).trans (s0_keep6 (W0 m ρ c))))

/-- The folded weight column the second region reads, at feature f. -/
theorem entry1_w2eff_apply (c : Dev nD) (f : Fin 6) :
    (V5 m ρ c main_v26 : FVec Ideal S6x1 .f32) (ix2 f (0 : Fin 1))
      = TwoLayer.w2effR ((dat0 (F := Ideal) (V3 m ρ) c).arrAt 3 cfg0.N) (m ((c : Thread nD τ).loc main_arg3))
          (m ((c : Thread nD τ).loc main_arg5)) f := by
  have e : V5 m ρ c main_v26 = w2effV ((dat0 (F := Ideal) (V3 m ρ) c).arrAt 3 cfg0.N) (m ((c : Thread nD τ).loc main_arg3))
      (m ((c : Thread nD τ).loc main_arg5)) := by
    refine (s1_w2eff (W4 m ρ c)).trans ?_
    rw [W4_arr m ρ c 3, mid_arg3, mid_arg5]
  rw [e]
  exact w2effV_apply _ _ _ f

/-- The folded bias cell the second region reads. -/
theorem entry1_b2eff_apply (c : Dev nD) :
    (V5 m ρ c main_v31 : FVec Ideal S1x1 .f32) (ix2 (0 : Fin 1) (0 : Fin 1))
      = TwoLayer.b2effR ((dat0 (F := Ideal) (V3 m ρ) c).arrAt 3 cfg0.N) (m ((c : Thread nD τ).loc main_arg3))
          (m ((c : Thread nD τ).loc main_arg4)) (m ((c : Thread nD τ).loc main_arg5)) (m ((c : Thread nD τ).loc main_arg6)) := by
  have e : V5 m ρ c main_v31 = b2effV ((dat0 (F := Ideal) (V3 m ρ) c).arrAt 3 cfg0.N) (m ((c : Thread nD τ).loc main_arg3))
      (m ((c : Thread nD τ).loc main_arg4)) (m ((c : Thread nD τ).loc main_arg5)) (m ((c : Thread nD τ).loc main_arg6)) := by
    refine (s1_b2eff (W4 m ρ c)).trans ?_
    rw [W4_arr m ρ c 3, mid_arg3, mid_arg4, mid_arg5, mid_arg6]
  rw [e]
  exact b2effV_apply _ _ _ _ _

end Entry1

end Cert.ReferenceIdeal.RHost

end
-- ==== Proof.RForms.lean ====
/-
  The reference's arrangement of the two-layer network, as plain functions of its arrays, index by index, on the
  extended reals.

  Layer one at feature f of sample b is the dot product of row f of the weights with column b of the transposed
  input, added to a zero accumulator, plus the bias, clamped below at zero. A block i of 512 consecutive samples
  contributes, to lane 0 of its statistics row f, the sum of the activations and, to lane 1, the sum of their squares;
  every other lane holds 0 + 0. The output at sample b is the logistic function — written as a quotient of
  exponentials of -|y| — of y = (the sum over the six features of activation times folded weight) plus the folded bias.
-/
import Idealize.ShloMosaic.Lib.ValueIdx
import Idealize.ShloMosaic.PureOps.Ideal.Laws

noncomputable section

namespace TwoLayer

open Idealize.ShloMosaic Idealize.ShloMosaic.ValueIdx

/-- Sample number q of block i, for blocks of 512 samples. -/
def at512 (i : Fin 2048) (q : Fin 512) : Fin 1048576 := ⟨i.val * 512 + q.val, by have := i.isLt; have := q.isLt; omega⟩

/-- Layer one with its clamp at zero, in the dot-product arrangement: max((0 + Σ_k w1[f,k]·xt[k,b]) + b1[f], 0). -/
def hidR (xt : (⟨2, ![10, 1048576]⟩ : Shape).Idx → EReal) (w1 : (⟨2, ![6, 10]⟩ : Shape).Idx → EReal)
    (b1c : (⟨2, ![6, 1]⟩ : Shape).Idx → EReal) (f : Fin 6) (b : Fin 1048576) : EReal :=
  max (((0 : EReal) + ∑ k : Fin 10, w1 (ix2 f k) * xt (ix2 k b)) + b1c (ix2 f (0 : Fin 1))) 0

/-- The statistics block i, row f, lane l: the block's sum of activations in lane 0, of their squares in lane 1. -/
def statR (xt : (⟨2, ![10, 1048576]⟩ : Shape).Idx → EReal) (w1 : (⟨2, ![6, 10]⟩ : Shape).Idx → EReal)
    (b1c : (⟨2, ![6, 1]⟩ : Shape).Idx → EReal) (i : Fin 2048) (f : Fin 6) (l : Fin 128) : EReal :=
  (if l.val = 0 then ∑ q : Fin 512, hidR xt w1 b1c f (at512 i q) else 0)
    + (if l.val = 1 then ∑ q : Fin 512, hidR xt w1 b1c f (at512 i q) * hidR xt w1 b1c f (at512 i q) else 0)

/-- The logistic function as the reference writes it: with e = exp(0 - |y|), (1 if y ≥ 0 else e) / (1 + e). -/
def sigR (y : EReal) : EReal :=
  Ideal.div (Scalar.select (Ideal.cmp .oge y 0) (1 : EReal) (Ideal.exp (0 - max y (-y)))) (1 + Ideal.exp (0 - max y (-y)))

/-- The output at sample b from the folded weights (a [6,1] column) and the folded bias (a [1,1] cell). -/
def outR (xt : (⟨2, ![10, 1048576]⟩ : Shape).Idx → EReal) (w1 : (⟨2, ![6, 10]⟩ : Shape).Idx → EReal)
    (b1c : (⟨2, ![6, 1]⟩ : Shape).Idx → EReal) (w2eff : (⟨2, ![6, 1]⟩ : Shape).Idx → EReal)
    (b2eff : (⟨2, ![1, 1]⟩ : Shape).Idx → EReal) (b : Fin 1048576) : EReal :=
  sigR ((∑ f : Fin 6, hidR xt w1 b1c f b * w2eff (ix2 f (0 : Fin 1))) + b2eff (ix2 (0 : Fin 1) (0 : Fin 1)))

end TwoLayer

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.RReg0.lean ====
/-
  Region 0 of the reference, read as one function of its arrays.

  The region walks 2048 blocks of 512 samples. At block i it takes columns i·512 … i·512 + 511 of the transposed
  input [10, 1048576], the whole weights [6, 10] and the whole bias column [6, 1], and writes block row i of the
  statistics array [2048, 6, 128]: at (i, f, l) the sum over the block's samples of layer one's clamped activation
  in lane l = 0, the sum of its squares in lane l = 1, and 0 + 0 in every other lane.

  The body masks the activations by comparing each sample's global number i·512 + q with 1048576 as signed 32-bit
  integers; since i < 2048 and q < 512 the number is below 1048576 < 2^31, the comparison holds at every sample and
  the mask returns the activation. The product of the weights with the block is a sum over the ten inputs added to a
  zero accumulator; the two lane choices compare a lane number below 128 with 0 and with 1.

  The blocks of the output tile its array (the index of the array at block row r is in the block of point r), so the
  array after the region is that function everywhere.
-/
import proofs.«111320_g2000302046306206_pallasbulk_911_14_alg».proof.Proof.RefFrame
import proofs.«111320_g2000302046306206_pallasbulk_911_14_alg».proof.Proof.RForms
import proofs.«111320_g2000302046306206_pallasbulk_911_14_alg».proof.Proof.LibKeepdims
import proofs.«111320_g2000302046306206_pallasbulk_911_14_alg».proof.Proof.LibColumnOps
import proofs.«111320_g2000302046306206_pallasbulk_911_14_alg».proof.Proof.LibRowLayouts
import proofs.«111320_g2000302046306206_pallasbulk_911_14_alg».proof.Proof.LibMatmulIdx
import proofs.«111320_g2000302046306206_pallasbulk_911_14_alg».proof.Proof.LibIndexEq
import Idealize.ShloMosaic.Lib.ValueIdx
import Idealize.ShloMosaic.Lib.Pipeline.Value
import Idealize.ShloMosaic.PureOps.Ideal.Laws

set_option maxRecDepth 16384

noncomputable section

namespace Cert.ReferenceIdeal.RReg0

open Cert.ReferenceIdeal Cert.ReferenceIdeal.Gen Idealize.ShloMosaic Idealize.ShloMosaic.TcCoe Idealize.SL.Sem
open Idealize.ShloMosaic.ValueIdx
open Idealize.ShloMosaic.Pipeline (Dat)

/-- The global number of sample q of block n, n·512 + q, is below 1048576 as a signed 32-bit integer. -/
theorem sample_number_lt (n q : ℕ) (hn : n < 2048) (hq : q < 512) :
    IntOp.cmpi .slt (IntOp.addi (Scalar.muli (BitVec.ofNat 32 n) 512#32) (BitVec.ofNat 32 q)) 1048576#32 = 1#1 := by
  have hx : (IntOp.addi (Scalar.muli (BitVec.ofNat 32 n) 512#32) (BitVec.ofNat 32 q)).toNat = n * 512 + q := by
    show (BitVec.ofNat 32 n * 512#32 + BitVec.ofNat 32 q).toNat = _
    rw [BitVec.toNat_add, BitVec.toNat_mul, BitVec.toNat_ofNat, BitVec.toNat_ofNat, BitVec.toNat_ofNat]
    omega
  generalize IntOp.addi (Scalar.muli (BitVec.ofNat 32 n) 512#32) (BitVec.ofNat 32 q) = X at hx ⊢
  have h1 : X.toInt = ((n * 512 + q : ℕ) : ℤ) := by
    rw [BitVec.toInt_eq_toNat_of_lt (by rw [hx]; omega), hx]
  have h2 : (1048576#32 : BitVec 32).toInt = 1048576 := by decide
  have h3 : BitVec.slt X 1048576#32 = true := by
    rw [BitVec.slt_eq_decide, h1, h2, decide_eq_true_eq]
    omega
  unfold IntOp.cmpi
  show BitVec.ofBool (BitVec.slt X 1048576#32) = 1#1
  rw [h3]
  rfl

/-- Two lane numbers below 128 are equal as 32-bit integers exactly when they are equal. -/
theorem lane_eq_iff (l k : ℕ) (hl : l < 128) (hk : k < 128) :
    IntOp.cmpi .eq (BitVec.ofNat 32 l) (BitVec.ofNat 32 k) = 1#1 ↔ l = k := by
  unfold IntOp.cmpi
  show BitVec.ofBool (BitVec.ofNat 32 l == BitVec.ofNat 32 k) = 1#1 ↔ _
  constructor
  · intro h
    have h' : (BitVec.ofNat 32 l == BitVec.ofNat 32 k) = true := by
      cases hb : (BitVec.ofNat 32 l == BitVec.ofNat 32 k) with
      | true => rfl
      | false => rw [hb] at h; exact absurd h (by decide)
    have h'' := congrArg BitVec.toNat (eq_of_beq h')
    rw [BitVec.toNat_ofNat, BitVec.toNat_ofNat] at h''
    omega
  · rintro rfl
    rw [beq_self_eq_true]
    rfl

/-- A choice on the equality of two lane numbers is a choice on the numbers. -/
theorem select_lane {α : Type} (l k : ℕ) (hl : l < 128) (hk : k < 128) (a b : α) :
    Scalar.select (IntOp.cmpi .eq (BitVec.ofNat 32 l) (BitVec.ofNat 32 k)) a b = if l = k then a else b := by
  unfold Scalar.select
  exact if_congr (lane_eq_iff l k hl hk) rfl rfl

theorem cmpi_apply {s : Shape} {w : Nat} (p : CmpIPredicate) (x y : IVec s w) (i : s.Idx) :
    cmpi p x y i = IntOp.cmpi p (x i) (y i) := rfl

theorem addi_apply {s : Shape} {w : Nat} (x y : IVec s w) (i : s.Idx) : addi x y i = IntOp.addi (x i) (y i) := rfl

/-- The activations of one block of 512 samples, masked by the samples' global numbers:
    max((w1·x into a zero accumulator) + b1, 0) where the global number i·512 + q is below 1048576, 0 elsewhere. -/
def actv (i : grid0.Coords) (v0 : Vec Ideal S6x10 .f32) (v1 : Vec Ideal S10x512 .f32) (v4 : Vec Ideal S6x1 .f32) : FVec Ideal S6x512 .f32 :=
  let arg0 : BitVec 32 := BitVec.ofNat 32 (i 0).val
  have v2 : FVec Ideal S10x512 .f32 := shapeCast S10x512 v1 shapeCasts_S10x512_S10x512
  have cst : FVec Ideal S6x512 .f32 := constant S6x512 .f32 0x00000000#32
  have v3 : FVec Ideal S6x512 .f32 := matmul (φ₁ := .f32) (φ₂ := .f32) dot_S6x10_S10x512_S6x512_1_0_0_1_n_n none v0 v2 cst
  have v5 : FVec Ideal S6x1 .f32 := shapeCast S6x1 v4 shapeCasts_S6x1_S6x1
  have v6 : FVec Ideal S6x512 .f32 := broadcastTo S6x512 v5 broadcasts_S6x1_S6x512
  have v7 : FVec Ideal S6x512 .f32 := addf v3 v6
  have cst_5 : Ideal .f32 := Scalar.ofBits .f32 0x00000000#32
  have v8 : FVec Ideal S6x512 .f32 := broadcast S6x512 cst_5
  have v9 : FVec Ideal S6x512 .f32 := maximumf v7 v8
  let v10 : BitVec 32 := Scalar.muli arg0 512#32
  have v11 : IVec S6x512 32 := iota .tc S6x512 32 [1] iota_S6x512_d1_w32
  have v12 : IVec S6x512 32 := broadcast S6x512 v10
  have v13 : IVec S6x512 32 := addi v12 v11
  have v14 : IVec S6x512 32 := broadcast S6x512 1048576#32
  have v15 : IVec S6x512 1 := cmpi .slt v13 v14
  have cst_6 : Ideal .f32 := Scalar.ofBits .f32 0x00000000#32
  have v16 : FVec Ideal S6x512 .f32 := broadcast S6x512 cst_6
  have v17 : FVec Ideal S6x512 .f32 := select v15 v9 v16
  v17

/-- The statistics rows of a block of activations: each row's sum in lane 0, the sum of its squares in lane 1,
    0 + 0 in the other lanes. -/
def lanes (v17 : FVec Ideal S6x512 .f32) : FVec Ideal S6x128 .f32 :=
  have v18 : FVec Ideal S6 .f32 := multiReduction .add [1] S6 v17 0x00000000#32 reduces_S6x512_S6 (.inl rfl) rfl
  have v19 : FVec Ideal S6x1 .f32 := shapeCast S6x1 v18 shapeCasts_S6_S6x1
  have v20 : FVec Ideal S6x512 .f32 := mulf v17 v17
  have v21 : FVec Ideal S6 .f32 := multiReduction .add [1] S6 v20 0x00000000#32 reduces_S6x512_S6 (.inl rfl) rfl
  have v22 : FVec Ideal S6x1 .f32 := shapeCast S6x1 v21 shapeCasts_S6_S6x1
  have v23 : IVec S6x128 32 := iota .tc S6x128 32 [1] iota_S6x128_d1_w32
  have v24 : IVec S6x128 32 := broadcast S6x128 0#32
  have v25 : IVec S6x128 1 := cmpi .eq v23 v24
  have cst_9 : Ideal .f32 := Scalar.ofBits .f32 0x00000000#32
  have v26 : FVec Ideal S6x1 .f32 := shapeCast S6x1 v19 shapeCasts_S6x1_S6x1
  have v27 : FVec Ideal S6x128 .f32 := broadcastTo S6x128 v26 broadcasts_S6x1_S6x128
  have v28 : FVec Ideal S6x128 .f32 := broadcast S6x128 cst_9
  have v29 : FVec Ideal S6x128 .f32 := select v25 v27 v28
  have v30 : IVec S6x128 32 := broadcast S6x128 1#32
  have v31 : IVec S6x128 1 := cmpi .eq v23 v30
  have cst_10 : Ideal .f32 := Scalar.ofBits .f32 0x00000000#32
  have v32 : FVec Ideal S6x1 .f32 := shapeCast S6x1 v22 shapeCasts_S6x1_S6x1
  have v33 : FVec Ideal S6x128 .f32 := broadcastTo S6x128 v32 broadcasts_S6x1_S6x128
  have v34 : FVec Ideal S6x128 .f32 := broadcast S6x128 cst_10
  have v35 : FVec Ideal S6x128 .f32 := select v31 v33 v34
  have v36 : FVec Ideal S6x128 .f32 := addf v29 v35
  v36

/-- The body's value is the statistics rows of the masked activations, cast to a block of one row of the output. -/
theorem pay_split (i : grid0.Coords) (x1 : Vec Ideal S6x10 .f32) (x0 : Vec Ideal S10x512 .f32) (x2 : Vec Ideal S6x1 .f32) :
    k0_pay1 (k0_pay2 i x1 x0 x2) = shapeCast S1x6x128 (lanes (actv i x1 x0 x2)) shapeCasts_S6x128_S1x6x128 := rfl

/-- Layer one with its clamp on a block of 512 samples, at feature f and sample q of the block. -/
def hidBlk (x0 : (⟨2, ![10, 512]⟩ : Shape).Idx → EReal) (x1 : (⟨2, ![6, 10]⟩ : Shape).Idx → EReal)
    (x2 : (⟨2, ![6, 1]⟩ : Shape).Idx → EReal) (f : Fin 6) (q : Fin 512) : EReal :=
  max (((0 : EReal) + ∑ k : Fin 10, x1 (ix2 f k) * x0 (ix2 k q)) + x2 (ix2 f (0 : Fin 1))) 0

/-- The statistics of a block: the sum over its samples of the activations in lane 0, of their squares in lane 1. -/
def statBlk (x0 : (⟨2, ![10, 512]⟩ : Shape).Idx → EReal) (x1 : (⟨2, ![6, 10]⟩ : Shape).Idx → EReal)
    (x2 : (⟨2, ![6, 1]⟩ : Shape).Idx → EReal) (f : Fin 6) (l : Fin 128) : EReal :=
  (if l.val = 0 then ∑ q : Fin 512, hidBlk x0 x1 x2 f q else 0)
    + (if l.val = 1 then ∑ q : Fin 512, hidBlk x0 x1 x2 f q * hidBlk x0 x1 x2 f q else 0)

/-- The mask is everywhere true, so the masked activation at (f, q) is layer one's. -/
theorem actv_apply (i : grid0.Coords) (x1 : Vec Ideal S6x10 .f32) (x0 : Vec Ideal S10x512 .f32) (x2 : Vec Ideal S6x1 .f32)
    (f : Fin 6) (q : Fin 512) : actv i x1 x0 x2 (ix2 f q) = hidBlk x0 x1 x2 f q := by
  have hc : (cmpi .slt (addi (broadcast S6x512 (Scalar.muli (BitVec.ofNat 32 (i 0).val) 512#32)) (iota .tc S6x512 32 [1] iota_S6x512_d1_w32)) (broadcast S6x512 1048576#32)) (ix2 f q) = 1#1 := by
    show IntOp.cmpi .slt (IntOp.addi (Scalar.muli (BitVec.ofNat 32 (i 0).val) 512#32) (iota .tc S6x512 32 [1] iota_S6x512_d1_w32 (ix2 f q))) 1048576#32 = 1#1
    rw [iota_single_apply]
    exact sample_number_lt (i 0).val q.val (i 0).isLt q.isLt
  have hm := LibMatmulIdx.matmul2_apply (φ₁ := .f32) (φ₂ := .f32) dot_S6x10_S10x512_S6x512_1_0_0_1_n_n rfl rfl (fun j k => rfl)
    (fun j k => DotDims.lhsIdx_val_of_single _ rfl j k) (fun j k => DotDims.rhsIdx_val_of_single _ rfl j k) (fun j k => rfl)
    none x1 (shapeCast S10x512 x0 shapeCasts_S10x512_S10x512) (ix2 f q)
  unfold actv
  dsimp only
  rw [select_apply, hc, select_one, maximumf_apply, addf_apply, broadcast_apply]
  unfold hidBlk
  refine congrArg₂ max (congrArg₂ (· + ·) (hm.trans ?_) ?_) Ideal.ofBits_zero_f32
  · rw [shapeCast_self, zero_add]
  · rw [LibColumnOps.broadcastTo_col_apply, shapeCast_self]

/-- The statistics rows at (f, l): the row's sum in lane 0, the sum of its squares in lane 1. -/
theorem lanes_apply (a : FVec Ideal S6x512 .f32) (f : Fin 6) (l : Fin 128) :
    lanes a (ix2 f l) = (if l.val = 0 then ∑ q : Fin 512, a (ix2 f q) else 0)
      + (if l.val = 1 then ∑ q : Fin 512, a (ix2 f q) * a (ix2 f q) else 0) := by
  have hs (b : FVec Ideal S6x512 .f32) : broadcastTo S6x128 (shapeCast S6x1 (shapeCast S6x1 (multiReduction .add [1] S6 b 0x00000000#32 reduces_S6x512_S6 (.inl rfl) rfl) shapeCasts_S6_S6x1) shapeCasts_S6x1_S6x1) broadcasts_S6x1_S6x128 (ix2 f l) = ∑ q : Fin 512, b (ix2 f q) := by
    rw [shapeCast_self]
    exact LibColumnOps.rowsum_bcast_apply b reduces_S6x512_S6 shapeCasts_S6_S6x1 broadcasts_S6x1_S6x128 (.inl rfl) rfl f l
  have hsel (k : ℕ) (hk : k < 128) (u v : EReal) : Scalar.select (cmpi .eq (iota .tc S6x128 32 [1] iota_S6x128_d1_w32) (broadcast S6x128 (BitVec.ofNat 32 k)) (ix2 f l)) u v = if l.val = k then u else v := by
    show Scalar.select (IntOp.cmpi .eq (iota .tc S6x128 32 [1] iota_S6x128_d1_w32 (ix2 f l)) (BitVec.ofNat 32 k)) u v = _
    rw [iota_single_apply]
    exact select_lane l.val k l.isLt hk u v
  unfold lanes
  dsimp only
  rw [addf_apply, select_apply, select_apply, hsel 0 (by omega), hsel 1 (by omega), hs, hs, broadcast_apply]
  simp only [mulf_apply, Ideal.ofBits_def, Ideal.ofBits_zero_f32]

/-- The body's value at row f, lane l of its one block row: the block's statistics. -/
theorem pay_apply (i : grid0.Coords) (x0 : Vec Ideal S10x512 .f32) (x1 : Vec Ideal S6x10 .f32) (x2 : Vec Ideal S6x1 .f32)
    (z : Fin 1) (f : Fin 6) (l : Fin 128) :
    k0_pay1 (k0_pay2 i x1 x0 x2) (ix3 z f l) = statBlk x0 x1 x2 f l := by
  rw [pay_split, LibRowLayouts.shapeCast_add_unit_apply, lanes_apply]
  simp only [actv_apply]
  rfl

/-! ## From blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: point t reads column block t of the transposed input, the whole weights and
    the whole bias column, and writes block row t of the statistics. -/
theorem index_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a block number. -/
def blockOf (t : Fin cfg0.N) : Fin 2048 := ⟨t.val, lt_of_lt_of_eq t.isLt N_0⟩

/-- The block statistics of blocks that are block i of the arrays are the statistics of block i. -/
theorem statBlk_eq_statR (xt : (⟨2, ![10, 1048576]⟩ : Shape).Idx → EReal) (w1 : (⟨2, ![6, 10]⟩ : Shape).Idx → EReal)
    (b1c : (⟨2, ![6, 1]⟩ : Shape).Idx → EReal) (x0 : (⟨2, ![10, 512]⟩ : Shape).Idx → EReal)
    (x1 : (⟨2, ![6, 10]⟩ : Shape).Idx → EReal) (x2 : (⟨2, ![6, 1]⟩ : Shape).Idx → EReal) (i : Fin 2048) (f : Fin 6) (l : Fin 128)
    (h0 : ∀ k q, x0 (ix2 k q) = xt (ix2 k (TwoLayer.at512 i q))) (h1 : ∀ f k, x1 (ix2 f k) = w1 (ix2 f k))
    (h2 : ∀ f, x2 (ix2 f (0 : Fin 1)) = b1c (ix2 f (0 : Fin 1))) :
    statBlk x0 x1 x2 f l = TwoLayer.statR xt w1 b1c i f l := by
  unfold statBlk TwoLayer.statR hidBlk TwoLayer.hidR
  simp only [h0, h1, h2]

/-- The body's value at an index of its block. -/
theorem pay_apply_idx (i : grid0.Coords) (x0 : Vec Ideal S10x512 .f32) (x1 : Vec Ideal S6x10 .f32) (x2 : Vec Ideal S6x1 .f32)
    (y : S1x6x128.Idx) : k0_pay1 (k0_pay2 i x1 x0 x2) y = statBlk x0 x1 x2 (y 1) (y 2) :=
  (congrArg (k0_pay1 (k0_pay2 i x1 x0 x2)) (eq_ix3 y)).trans (pay_apply i x0 x1 x2 (y 0) (y 1) (y 2))

section Array
variable (V : (c : Dev nD) → (b : Ref sig .tc) → Buf (Elt Ideal) ((c : Thread nD τ).loc b))

/-- Point t's block of the transposed input is its columns t·512 … t·512 + 511. -/
theorem blk0_apply (c : Dev nD) (t : Fin cfg0.N) (k : Fin 10) (q : Fin 512) :
    (GenP.iblk0 V c 0 t : Vec Ideal S10x512 .f32) (ix2 k q)
      = (V c main_v1 : S10x1048576.Idx → EReal) (ix2 k (TwoLayer.at512 (blockOf t) q)) := by
  obtain ⟨e00, e01, -⟩ := index_facts t
  unfold GenP.iblk0
  rw [View.read_apply]
  show V c main_v1 _ = V c main_v1 _
  congr 1
  funext a
  apply Fin.ext
  match a with
  | ⟨0, _⟩ => show win0_0.index t (0 : Fin 2) * 10 + 1 * k.val = k.val; rw [e00]; omega
  | ⟨1, _⟩ => show win0_0.index t (1 : Fin 2) * 512 + 1 * q.val = t.val * 512 + q.val; rw [e01]; omega

/-- Point t's block of the weights is the weights. -/
theorem blk1_apply (c : Dev nD) (t : Fin cfg0.N) (f : Fin 6) (k : Fin 10) :
    (GenP.iblk0 V c 1 t : Vec Ideal S6x10 .f32) (ix2 f k) = (V c main_arg1 : S6x10.Idx → EReal) (ix2 f k) := by
  obtain ⟨-, -, e10, e11, -⟩ := index_facts t
  unfold GenP.iblk0
  rw [View.read_apply]
  show V c main_arg1 _ = V c main_arg1 _
  congr 1
  funext a
  apply Fin.ext
  match a with
  | ⟨0, _⟩ => show win0_1.index t (0 : Fin 2) * 6 + 1 * f.val = f.val; rw [e10]; omega
  | ⟨1, _⟩ => show win0_1.index t (1 : Fin 2) * 10 + 1 * k.val = k.val; rw [e11]; omega

/-- Point t's block of the bias column is the bias column. -/
theorem blk2_apply (c : Dev nD) (t : Fin cfg0.N) (f : Fin 6) :
    (GenP.iblk0 V c 2 t : Vec Ideal S6x1 .f32) (ix2 f (0 : Fin 1)) = (V c main_v2 : S6x1.Idx → EReal) (ix2 f (0 : Fin 1)) := by
  obtain ⟨-, -, -, -, e20, e21, -⟩ := index_facts t
  unfold GenP.iblk0
  rw [View.read_apply]
  show V c main_v2 _ = V c main_v2 _
  congr 1
  funext a
  apply Fin.ext
  match a with
  | ⟨0, _⟩ => show win0_2.index t (0 : Fin 2) * 6 + 1 * f.val = f.val; rw [e20]; omega
  | ⟨1, _⟩ => show win0_2.index t (1 : Fin 2) * 1 + 1 * 0 = 0; rw [e21]

end Array

section Final
variable (V : (c : Dev nD) → (b : Ref sig .tc) → Buf (Elt Ideal) ((c : Thread nD τ).loc b))

/-- What point t writes back is block row t of the statistics of the arrays as the region finds them. -/
theorem flushed_eq (c : Dev nD) (t : Fin cfg0.N) :
    (GenP.dat0 (F := Ideal) V c).flushed 3 t
      = ((cfg0.win 3).blk t).view.read (Elt Ideal)
          (fun j => TwoLayer.statR (V c main_v1) (V c main_arg1) (V c main_v2) (j 0) (j 1) (j 2)) := by
  show (cfg0.win 3).cut (grid0.coords t) ((GenP.dat0 V c).after 3 t) = _
  rw [GenP.after0_3]
  unfold GenP.out0_3
  rw [View.canon_unit_zero hz3]
  simp only [View.ld_unit_zero (S := S6x10) hz2, View.ld_unit_zero (S := S10x512) hz2, View.ld_unit_zero (S := S6x1) hz2]
  obtain ⟨-, -, -, -, -, -, e30, e31, e32⟩ := index_facts t
  funext y
  have he : ((cfg0.win 3).blk t).view.emb y = ix3 (blockOf t) (y 1) (y 2) := by
    funext a
    apply Fin.ext
    match a with
    | ⟨0, _⟩ => show win0_3.index t (0 : Fin 3) * 1 + 1 * (y 0).val = t.val; have hy : (y 0).val < 1 := (y 0).isLt; rw [e30]; omega
    | ⟨1, _⟩ => show win0_3.index t (1 : Fin 3) * 6 + 1 * (y 1).val = (y 1).val; rw [e31]; omega
    | ⟨2, _⟩ => show win0_3.index t (2 : Fin 3) * 128 + 1 * (y 2).val = (y 2).val; rw [e32]; omega
  refine (pay_apply_idx (grid0.coords t) _ _ _ y).trans ?_
  refine (statBlk_eq_statR (V c main_v1) (V c main_arg1) (V c main_v2) _ _ _ (blockOf t) (y 1) (y 2)
    (blk0_apply V c t) (blk1_apply V c t) (blk2_apply V c t)).trans ?_
  show _ = TwoLayer.statR (V c main_v1) (V c main_arg1) (V c main_v2) ((((cfg0.win 3).blk t).view.emb y) 0)
    ((((cfg0.win 3).blk t).view.emb y) 1) ((((cfg0.win 3).blk t).view.emb y) 2)
  rw [he]
  rfl

/-- An index of the statistics array is in point t's block iff each coordinate is in the block's range on its axis. -/
theorem mem_blk (t : Fin cfg0.N) (i : S2048x6x128.Idx) :
    i ∈ ((cfg0.win 3).blk t).view.set ↔ ∀ a : Fin 3, win0_3.index t a * S1x6x128.size a ≤ (i a).val
      ∧ (i a).val < win0_3.index t a * S1x6x128.size a + S1x6x128.size a := by
  show i ∈ ((View.whole main_v3).slice (win0_3.rect t)).set ↔ _
  rw [View.set_slice_whole, Rect.mem_set_unit]
  exact Iff.rfl

/-- Every index of the statistics array is in the block of the point numbered by its block row. -/
theorem covered (i : S2048x6x128.Idx) :
    ∃ t : Fin cfg0.N, (cfg0.win 3).flush t = true ∧ i ∈ ((cfg0.win 3).blk t).view.set := by
  have hi0 : (i 0).val < 2048 := (i 0).isLt
  have hi1 : (i 1).val < 6 := (i 1).isLt
  have hi2 : (i 2).val < 128 := (i 2).isLt
  obtain ⟨-, -, -, -, -, -, e30, e31, e32⟩ := index_facts ⟨(i 0).val, lt_of_lt_of_eq hi0 N_0.symm⟩
  refine ⟨⟨(i 0).val, lt_of_lt_of_eq hi0 N_0.symm⟩, flush0_3 _, ?_⟩
  rw [mem_blk]
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    rw [e30]; show (i 0).val * 1 ≤ (i 0).val ∧ (i 0).val < (i 0).val * 1 + 1; omega
  | ⟨1, _⟩ =>
    show win0_3.index ⟨(i 0).val, _⟩ (1 : Fin 3) * 6 ≤ (i 1).val ∧ (i 1).val < win0_3.index ⟨(i 0).val, _⟩ (1 : Fin 3) * 6 + 6
    rw [e31]; omega
  | ⟨2, _⟩ =>
    show win0_3.index ⟨(i 0).val, _⟩ (2 : Fin 3) * 128 ≤ (i 2).val ∧ (i 2).val < win0_3.index ⟨(i 0).val, _⟩ (2 : Fin 3) * 128 + 128
    rw [e32]; omega

/-- Region 0 leaves, in the statistics array at (i, f, l), the statistics of block i of the arrays it was entered with. -/
theorem stats_final (c : Dev nD) :
    (GenP.dat0 (F := Ideal) V c).arrAt 3 cfg0.N
      = fun j => TwoLayer.statR (V c main_v1) (V c main_arg1) (V c main_v2) (j 0) (j 1) (j 2) :=
  (GenP.dat0 (F := Ideal) V c).arrAt_eq_of_cover 3 _ (fun t _ => flushed_eq V c t) (fun i => covered i)

end Final

end Cert.ReferenceIdeal.RReg0

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.RReg1.lean ====
/-
  The second region of the reference program, read as one function of its arrays.

  At every block i of 512 consecutive samples the region's body forms, for sample q of the block, the six layer-one
  activations (the dot product of a weight row with the sample's column, plus the bias, clamped below at zero),
  multiplies each by its folded weight, sums the six products, adds the folded bias and applies the logistic function
  written as a quotient of exponentials of -|y|. The block's column q is column i * 512 + q of the [10, 1048576] input
  and of the [1, 1048576] output, the 2048 blocks fill the output, and so the output array ends holding, at (0, b),
  the two-layer network's value at sample b.
-/
import proofs.«111320_g2000302046306206_pallasbulk_911_14_alg».proof.Proof.RefFrame
import proofs.«111320_g2000302046306206_pallasbulk_911_14_alg».proof.Proof.RForms
import proofs.«111320_g2000302046306206_pallasbulk_911_14_alg».proof.Proof.LibKeepdims
import proofs.«111320_g2000302046306206_pallasbulk_911_14_alg».proof.Proof.LibColumnOps
import proofs.«111320_g2000302046306206_pallasbulk_911_14_alg».proof.Proof.LibRowOps
import proofs.«111320_g2000302046306206_pallasbulk_911_14_alg».proof.Proof.LibMatmulIdx
import proofs.«111320_g2000302046306206_pallasbulk_911_14_alg».proof.Proof.LibReciprocalScale
import proofs.«111320_g2000302046306206_pallasbulk_911_14_alg».proof.Proof.LibIndexEq
import Idealize.ShloMosaic.Lib.ValueIdx
import Idealize.ShloMosaic.Lib.Pipeline.Value
import Idealize.ShloMosaic.PureOps.Ideal.Laws

set_option maxRecDepth 16384

noncomputable section

namespace Cert.ReferenceIdeal.RReg1

open Cert.ReferenceIdeal Cert.ReferenceIdeal.Gen
open Idealize.ShloMosaic Idealize.ShloMosaic.TcCoe Idealize.ShloMosaic.ValueIdx Idealize.SL.Sem
open Idealize.ShloMosaic.Pipeline (Dat)

/-! ## The body's value at one sample of a block -/

/-- The logistic tail of the body: from the pre-activation row y, the row (1 if y ≥ 0 else e) / (1 + e) with
    e = exp(0 - |y|). -/
def sigTail (y : FVec Ideal S1x512 .f32) : FVec Ideal S1x512 .f32 :=
  divf (select (cmpf .oge y (broadcast S1x512 (Scalar.ofBits .f32 0x00000000#32)))
      (broadcast S1x512 (Scalar.ofBits .f32 0x3F800000#32))
      (exp (subf (broadcast S1x512 (Scalar.ofBits .f32 0x00000000#32)) (absf y))))
    (addf (broadcast S1x512 (Scalar.ofBits .f32 0x3F800000#32))
      (exp (subf (broadcast S1x512 (Scalar.ofBits .f32 0x00000000#32)) (absf y))))

/-- At an entry the tail is the logistic function of the pre-activation there: the two constant words are 0 and 1. -/
theorem sigTail_apply (y : FVec Ideal S1x512 .f32) (j : S1x512.Idx) : sigTail y j = TwoLayer.sigR (y j) := by
  show Ideal.div (Scalar.select (Ideal.cmp .oge (y j) (Ideal.ofBits .f32 0x00000000#32)) (Ideal.ofBits .f32 0x3F800000#32)
        (Ideal.exp (Ideal.ofBits .f32 0x00000000#32 - max (y j) (-(y j)))))
      (Ideal.ofBits .f32 0x3F800000#32 + Ideal.exp (Ideal.ofBits .f32 0x00000000#32 - max (y j) (-(y j)))) = _
  rw [Ideal.ofBits_zero_f32, LibReciprocalScale.ofBits_one_f32]
  rfl

/-- The six activations of a block, each times its folded weight: the product of the weights with the block into a
    zero accumulator, plus the bias column, clamped below at zero, times the folded-weight column. -/
def hidW (x1 : FVec Ideal S6x10 .f32) (x0 : FVec Ideal S10x512 .f32) (x2 x3 : FVec Ideal S6x1 .f32) : FVec Ideal S6x512 .f32 :=
  mulf (maximumf (addf (matmul dot_S6x10_S10x512_S6x512_1_0_0_1_n_n none x1 (shapeCast S10x512 x0 shapeCasts_S10x512_S10x512)
          (constant S6x512 .f32 0x00000000#32))
        (broadcastTo S6x512 (shapeCast S6x1 x2 shapeCasts_S6x1_S6x1) broadcasts_S6x1_S6x512))
      (broadcast S6x512 (Scalar.ofBits .f32 0x00000000#32)))
    (broadcastTo S6x512 (shapeCast S6x1 x3 shapeCasts_S6x1_S6x1) broadcasts_S6x1_S6x512)

/-- The product of the [6,10] weights with a [10,512] block into the zero accumulator, at (f, q): the dot product of row f
    with column q. -/
theorem dot_apply (x1 : FVec Ideal S6x10 .f32) (x0 : FVec Ideal S10x512 .f32) (f : Fin 6) (q : Fin 512) :
    matmul dot_S6x10_S10x512_S6x512_1_0_0_1_n_n none x1 x0 (constant S6x512 .f32 0x00000000#32) (ix2 f q)
      = ∑ k : Fin 10, x1 (ix2 f k) * x0 (ix2 k q) :=
  LibMatmulIdx.matmul2_apply dot_S6x10_S10x512_S6x512_1_0_0_1_n_n rfl rfl
    (fun _ _ => rfl) (fun j k => DotDims.lhsIdx_val_of_single _ rfl j k)
    (fun j k => DotDims.rhsIdx_val_of_single _ rfl j k) (fun _ _ => rfl) none x1 x0 (ix2 f q)

/-- Entry (f, q) of the weighted activations: max((0 + Σ_k w[f,k]·x[k,q]) + b[f], 0) · v[f]. -/
theorem hidW_apply (x1 : FVec Ideal S6x10 .f32) (x0 : FVec Ideal S10x512 .f32) (x2 x3 : FVec Ideal S6x1 .f32) (f : Fin 6) (q : Fin 512) :
    hidW x1 x0 x2 x3 (ix2 f q)
      = max (((0 : EReal) + ∑ k : Fin 10, x1 (ix2 f k) * x0 (ix2 k q)) + x2 (ix2 f (0 : Fin 1))) 0 * x3 (ix2 f (0 : Fin 1)) := by
  show max (matmul dot_S6x10_S10x512_S6x512_1_0_0_1_n_n none x1 (shapeCast S10x512 x0 shapeCasts_S10x512_S10x512)
          (constant S6x512 .f32 0x00000000#32) (ix2 f q)
        + broadcastTo S6x512 (shapeCast S6x1 x2 shapeCasts_S6x1_S6x1) broadcasts_S6x1_S6x512 (ix2 f q))
      (Ideal.ofBits .f32 0x00000000#32)
      * broadcastTo S6x512 (shapeCast S6x1 x3 shapeCasts_S6x1_S6x1) broadcasts_S6x1_S6x512 (ix2 f q) = _
  rw [shapeCast_self, shapeCast_self, shapeCast_self, LibColumnOps.broadcastTo_col_apply, LibColumnOps.broadcastTo_col_apply,
    Ideal.ofBits_zero_f32, dot_apply, zero_add]

/-- The pre-activation row of the body: the weighted activations summed over the six features, as a [1,512] row, plus the
    folded bias cell spread along the row. -/
def preRow (x1 : FVec Ideal S6x10 .f32) (x0 : FVec Ideal S10x512 .f32) (x2 x3 : FVec Ideal S6x1 .f32) (x4 : FVec Ideal S1x1 .f32) :
    FVec Ideal S1x512 .f32 :=
  addf (shapeCast S1x512 (multiReduction .add [0] S512 (hidW x1 x0 x2 x3) 0x00000000#32 reduces_S6x512_S512 (.inl rfl) rfl)
      shapeCasts_S512_S1x512)
    (broadcastTo S1x512 (shapeCast S1x1 x4 shapeCasts_S1x1_S1x1) broadcasts_S1x1_S1x512)

/-- The pre-activation at sample q of the block: Σ_f max((0 + Σ_k w[f,k]·x[k,q]) + b[f], 0) · v[f], plus the folded bias. -/
theorem preRow_apply (x1 : FVec Ideal S6x10 .f32) (x0 : FVec Ideal S10x512 .f32) (x2 x3 : FVec Ideal S6x1 .f32) (x4 : FVec Ideal S1x1 .f32)
    (z : Fin 1) (q : Fin 512) :
    preRow x1 x0 x2 x3 x4 (ix2 z q)
      = (∑ f : Fin 6, max (((0 : EReal) + ∑ k : Fin 10, x1 (ix2 f k) * x0 (ix2 k q)) + x2 (ix2 f (0 : Fin 1))) 0 * x3 (ix2 f (0 : Fin 1)))
        + x4 (ix2 (0 : Fin 1) (0 : Fin 1)) := by
  show shapeCast S1x512 (multiReduction .add [0] S512 (hidW x1 x0 x2 x3) 0x00000000#32 reduces_S6x512_S512 (.inl rfl) rfl)
        shapeCasts_S512_S1x512 (ix2 z q)
      + broadcastTo S1x512 (shapeCast S1x1 x4 shapeCasts_S1x1_S1x1) broadcasts_S1x1_S1x512 (ix2 z q) = _
  have hz : z = 0 := Subsingleton.elim z 0
  subst hz
  rw [shapeCast_self, LibColumnOps.broadcastTo_col_apply, LibRowOps.shapeCast_row_apply]
  refine congrArg (· + x4 (ix2 (0 : Fin 1) (0 : Fin 1))) ?_
  refine (LibKeepdims.sum_axis0_apply (hidW x1 x0 x2 x3) 0x00000000#32 reduces_S6x512_S512 (.inl rfl) rfl q).trans ?_
  exact Finset.sum_congr rfl fun f _ => hidW_apply x1 x0 x2 x3 f q

/-- The body's stored value is the logistic tail of the pre-activation row. -/
theorem pay_eq (x1 : FVec Ideal S6x10 .f32) (x0 : FVec Ideal S10x512 .f32) (x2 x3 : FVec Ideal S6x1 .f32) (x4 : FVec Ideal S1x1 .f32) :
    k1_pay1 x1 x0 x2 x3 x4 = sigTail (preRow x1 x0 x2 x3 x4) := rfl

/-- THE BODY AT ONE SAMPLE: entry (z, q) of what the body stores is the logistic function of the pre-activation of the
    block's column q. -/
theorem pay_apply (x1 : FVec Ideal S6x10 .f32) (x0 : FVec Ideal S10x512 .f32) (x2 x3 : FVec Ideal S6x1 .f32) (x4 : FVec Ideal S1x1 .f32)
    (z : Fin 1) (q : Fin 512) :
    k1_pay1 (F := Ideal) x1 x0 x2 x3 x4 (ix2 z q)
      = TwoLayer.sigR ((∑ f : Fin 6, max (((0 : EReal) + ∑ k : Fin 10, x1 (ix2 f k) * x0 (ix2 k q)) + x2 (ix2 f (0 : Fin 1))) 0
          * x3 (ix2 f (0 : Fin 1))) + x4 (ix2 (0 : Fin 1) (0 : Fin 1))) := by
  rw [pay_eq, sigTail_apply, preRow_apply]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: at point t the two column-block windows sit at block (0, t), the four
    whole-array windows at block (0, 0). -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val :=
  (by decide +kernel : ∀ t : Fin grid1.N, _)

/-- A grid point as a block number. -/
def blockOf (t : Fin cfg1.N) : Fin 2048 := ⟨t.val, lt_of_lt_of_eq t.isLt N_1⟩

/-- Column q of the input block at point t is column t * 512 + q of the [10, 1048576] input. -/
theorem inBlock_apply (c : Dev nD) (t : Fin cfg1.N) (k : Fin 10) (q : Fin 512) :
    GenP.iblk1 (F := Ideal) V c 0 t (ix2 k q)
      = (V c main_v1 : S10x1048576.Idx → EReal) (ix2 k (TwoLayer.at512 (blockOf t) q)) := by
  obtain ⟨e0, e1, -⟩ := idx_facts t
  show (V c main_v1 : S10x1048576.Idx → EReal) (((cfg1.win 0).blk t).view.emb (ix2 k q)) = _
  refine congrArg (V c main_v1 : S10x1048576.Idx → EReal) ?_
  funext a; apply Fin.ext
  match a with
  | ⟨0, _⟩ => show win1_0.index t (0 : Fin 2) * 10 + 1 * k.val = k.val; rw [e0]; omega
  | ⟨1, _⟩ => show win1_0.index t (1 : Fin 2) * 512 + 1 * q.val = t.val * 512 + q.val; rw [e1]; omega

/-- The weights' block at every point is the whole [6, 10] array. -/
theorem weights_apply (c : Dev nD) (t : Fin cfg1.N) (f : Fin 6) (k : Fin 10) :
    GenP.iblk1 (F := Ideal) V c 1 t (ix2 f k) = (V c main_arg1 : S6x10.Idx → EReal) (ix2 f k) := by
  obtain ⟨-, -, e0, e1, -⟩ := idx_facts t
  show (V c main_arg1 : S6x10.Idx → EReal) (((cfg1.win 1).blk t).view.emb (ix2 f k)) = _
  refine congrArg (V c main_arg1 : S6x10.Idx → EReal) ?_
  funext a; apply Fin.ext
  match a with
  | ⟨0, _⟩ => show win1_1.index t (0 : Fin 2) * 6 + 1 * f.val = f.val; rw [e0]; omega
  | ⟨1, _⟩ => show win1_1.index t (1 : Fin 2) * 10 + 1 * k.val = k.val; rw [e1]; omega

/-- The bias column's block at every point is the whole [6, 1] array. -/
theorem bias_apply (c : Dev nD) (t : Fin cfg1.N) (f : Fin 6) (z : Fin 1) :
    GenP.iblk1 (F := Ideal) V c 2 t (ix2 f z) = (V c main_v2 : S6x1.Idx → EReal) (ix2 f z) := by
  obtain ⟨-, -, -, -, e0, e1, -⟩ := idx_facts t
  show (V c main_v2 : S6x1.Idx → EReal) (((cfg1.win 2).blk t).view.emb (ix2 f z)) = _
  refine congrArg (V c main_v2 : S6x1.Idx → EReal) ?_
  funext a; apply Fin.ext
  match a with
  | ⟨0, _⟩ => show win1_2.index t (0 : Fin 2) * 6 + 1 * f.val = f.val; rw [e0]; omega
  | ⟨1, _⟩ => show win1_2.index t (1 : Fin 2) * 1 + 1 * z.val = z.val; rw [e1]; omega

/-- The folded-weight column's block at every point is the whole [6, 1] array. -/
theorem foldedWeights_apply (c : Dev nD) (t : Fin cfg1.N) (f : Fin 6) (z : Fin 1) :
    GenP.iblk1 (F := Ideal) V c 3 t (ix2 f z) = (V c main_v26 : S6x1.Idx → EReal) (ix2 f z) := by
  obtain ⟨-, -, -, -, -, -, e0, e1, -⟩ := idx_facts t
  show (V c main_v26 : S6x1.Idx → EReal) (((cfg1.win 3).blk t).view.emb (ix2 f z)) = _
  refine congrArg (V c main_v26 : S6x1.Idx → EReal) ?_
  funext a; apply Fin.ext
  match a with
  | ⟨0, _⟩ => show win1_3.index t (0 : Fin 2) * 6 + 1 * f.val = f.val; rw [e0]; omega
  | ⟨1, _⟩ => show win1_3.index t (1 : Fin 2) * 1 + 1 * z.val = z.val; rw [e1]; omega

/-- The folded-bias cell's block at every point is the whole [1, 1] array. -/
theorem foldedBias_apply (c : Dev nD) (t : Fin cfg1.N) (y z : Fin 1) :
    GenP.iblk1 (F := Ideal) V c 4 t (ix2 y z) = (V c main_v31 : S1x1.Idx → EReal) (ix2 y z) := by
  obtain ⟨-, -, -, -, -, -, -, -, e0, e1, -⟩ := idx_facts t
  show (V c main_v31 : S1x1.Idx → EReal) (((cfg1.win 4).blk t).view.emb (ix2 y z)) = _
  refine congrArg (V c main_v31 : S1x1.Idx → EReal) ?_
  funext a; apply Fin.ext
  match a with
  | ⟨0, _⟩ => show win1_4.index t (0 : Fin 2) * 1 + 1 * y.val = y.val; rw [e0]; omega
  | ⟨1, _⟩ => show win1_4.index t (1 : Fin 2) * 1 + 1 * z.val = z.val; rw [e1]; omega

/-- THE BODY AT POINT t, SAMPLE q: the network's value at sample t * 512 + q of the arrays as the region finds them. -/
theorem point_value (c : Dev nD) (t : Fin cfg1.N) (z : Fin 1) (q : Fin 512) :
    k1_pay1 (F := Ideal) (GenP.iblk1 V c 1 t) (GenP.iblk1 V c 0 t) (GenP.iblk1 V c 2 t) (GenP.iblk1 V c 3 t) (GenP.iblk1 V c 4 t) (ix2 z q)
      = TwoLayer.outR (V c main_v1) (V c main_arg1) (V c main_v2) (V c main_v26) (V c main_v31) (TwoLayer.at512 (blockOf t) q) := by
  refine (pay_apply (GenP.iblk1 V c 1 t) (GenP.iblk1 V c 0 t) (GenP.iblk1 V c 2 t) (GenP.iblk1 V c 3 t) (GenP.iblk1 V c 4 t) z q).trans ?_
  unfold TwoLayer.outR TwoLayer.hidR
  refine congrArg TwoLayer.sigR ?_
  rw [foldedBias_apply V c t 0 0]
  refine congrArg (· + (V c main_v31 : S1x1.Idx → EReal) (ix2 (0 : Fin 1) (0 : Fin 1))) ?_
  refine Finset.sum_congr rfl fun f _ => ?_
  rw [bias_apply V c t f 0, foldedWeights_apply V c t f 0]
  refine congrArg (fun s => max (((0 : EReal) + s) + (V c main_v2 : S6x1.Idx → EReal) (ix2 f (0 : Fin 1))) 0
    * (V c main_v26 : S6x1.Idx → EReal) (ix2 f (0 : Fin 1))) ?_
  refine Finset.sum_congr rfl fun k _ => ?_
  rw [weights_apply V c t f k, inBlock_apply V c t k q]

/-- WHAT POINT t WRITES BACK is block t of the network's values along the [1, 1048576] output. -/
theorem flushed_eq (c : Dev nD) (t : Fin cfg1.N) :
    (GenP.dat1 (F := Ideal) V c).flushed 5 t
      = ((cfg1.win 5).blk t).view.read (Elt Ideal)
          (fun j : S1x1048576.Idx => TwoLayer.outR (V c main_v1) (V c main_arg1) (V c main_v2) (V c main_v26) (V c main_v31) (j 1)) := by
  show (cfg1.win 5).cut (grid1.coords t) ((GenP.dat1 (F := Ideal) V c).after 5 t) = _
  rw [GenP.after1_5]
  unfold GenP.out1_5
  rw [View.canon_unit_zero zero_offsets]
  simp only [View.ld_unit_zero (S := S6x10) zero_offsets, View.ld_unit_zero (S := S10x512) zero_offsets,
    View.ld_unit_zero (S := S6x1) zero_offsets, View.ld_unit_zero (S := S1x1) zero_offsets]
  obtain ⟨-, -, -, -, -, -, -, -, -, -, e0, e1⟩ := idx_facts t
  funext j
  show k1_pay1 (F := Ideal) (GenP.iblk1 V c 1 t) (GenP.iblk1 V c 0 t) (GenP.iblk1 V c 2 t) (GenP.iblk1 V c 3 t) (GenP.iblk1 V c 4 t) j
    = TwoLayer.outR (V c main_v1) (V c main_arg1) (V c main_v2) (V c main_v26) (V c main_v31) ((((cfg1.win 5).blk t).view.emb j) 1)
  refine (congrArg (k1_pay1 (F := Ideal) (GenP.iblk1 V c 1 t) (GenP.iblk1 V c 0 t) (GenP.iblk1 V c 2 t) (GenP.iblk1 V c 3 t) (GenP.iblk1 V c 4 t))
    (eq_ix2 (n0 := 1) (n1 := 512) j)).trans ?_
  refine (point_value V c t (j 0) (j 1)).trans ?_
  refine congrArg (TwoLayer.outR (V c main_v1) (V c main_arg1) (V c main_v2) (V c main_v26) (V c main_v31)) (Fin.ext ?_)
  show t.val * 512 + (j 1).val = win1_5.index t (1 : Fin 2) * 512 + 1 * (j 1).val
  rw [e1]; omega

/-- An index of the output array is in point t's block iff each coordinate is in the block's range on its axis. -/
theorem mem_blk (t : Fin cfg1.N) (i : S1x1048576.Idx) :
    i ∈ ((cfg1.win 5).blk t).view.set
      ↔ ∀ a : Fin 2, win1_5.index t a * S1x512.size a ≤ (i a).val ∧ (i a).val < win1_5.index t a * S1x512.size a + S1x512.size a := by
  show i ∈ ((View.whole main_v32).slice (win1_5.rect t)).set ↔ _
  rw [View.set_slice_whole, Rect.mem_set_unit]
  exact Iff.rfl

/-- Every column b of the output lies in the block of point b / 512, which is written back. -/
theorem cover (i : S1x1048576.Idx) :
    ∃ t : Fin cfg1.N, (cfg1.win 5).flush t = true ∧ i ∈ ((cfg1.win 5).blk t).view.set := by
  have h0 : (i 0).val < 1 := (i 0).isLt
  have h1 : (i 1).val < 1048576 := (i 1).isLt
  have hN : cfg1.N = 2048 := N_1
  have hlt : (i 1).val / 512 < cfg1.N := by rw [hN]; omega
  obtain ⟨-, -, -, -, -, -, -, -, -, -, e0, e1⟩ := idx_facts ⟨(i 1).val / 512, hlt⟩
  refine ⟨⟨(i 1).val / 512, hlt⟩, flush1_5 _, ?_⟩
  rw [mem_blk]
  intro a
  match a with
  | ⟨0, _⟩ =>
    show win1_5.index ⟨(i 1).val / 512, hlt⟩ (0 : Fin 2) * 1 ≤ (i 0).val
      ∧ (i 0).val < win1_5.index ⟨(i 1).val / 512, hlt⟩ (0 : Fin 2) * 1 + 1
    rw [e0]; omega
  | ⟨1, _⟩ =>
    show win1_5.index ⟨(i 1).val / 512, hlt⟩ (1 : Fin 2) * 512 ≤ (i 1).val
      ∧ (i 1).val < win1_5.index ⟨(i 1).val / 512, hlt⟩ (1 : Fin 2) * 512 + 512
    rw [e1]
    show (i 1).val / 512 * 512 ≤ (i 1).val ∧ (i 1).val < (i 1).val / 512 * 512 + 512
    omega

/-- THE OUTPUT ARRAY after the region: at (0, b), the two-layer network's value at sample b of the arrays as the region
    finds them — every point writes its block of that one function, and the blocks fill the array. -/
theorem out_final (V : (c : Dev nD) → (b : Ref sig .tc) → Buf (Elt Ideal) ((c : Thread nD τ).loc b)) (c : Dev nD) :
    (GenP.dat1 (F := Ideal) V c).arrAt 5 cfg1.N
      = fun j => TwoLayer.outR (V c main_v1) (V c main_arg1) (V c main_v2) (V c main_v26) (V c main_v31) (j 1) :=
  (GenP.dat1 (F := Ideal) V c).arrAt_eq_of_cover 5
    (fun j : S1x1048576.Idx => TwoLayer.outR (V c main_v1) (V c main_arg1) (V c main_v2) (V c main_v26) (V c main_v31) (j 1))
    (fun t _ => flushed_eq V c t) cover

end Cert.ReferenceIdeal.RReg1

end
-- ==== Proof.Words.lean ====
/-
  The float words the two programs spell, as the extended reals they denote at exact arithmetic.

  0x00000000 is 0, 0x3F800000 is 1, 0x3F000000 is 1/2, 0x49800000 is 2^20 = 1048576 (the batch size), 0x35800000 is
  2^-20 (its reciprocal, exact because the batch size is a power of two), and 0x3727C5AC — the single-precision
  neighbour of 1e-5 — is a positive real, which is all that is used of it.
-/
import Idealize.ShloMosaic.PureOps.Ideal

noncomputable section

namespace TwoLayer.Words

open Idealize.ShloMosaic

theorem zero : Ideal.ofBits .f32 0x00000000#32 = 0 := by
  simp [Ideal.ofBits, Ideal.ieee]

theorem one : Ideal.ofBits .f32 0x3F800000#32 = 1 := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem batch : Ideal.ofBits .f32 0x49800000#32 = ((1048576 : ℝ) : EReal) := by
  simp [Ideal.ofBits, Ideal.ieee, -EReal.coe_mul]; norm_num

theorem inv_batch : Ideal.ofBits .f32 0x35800000#32 = ((1 / 1048576 : ℝ) : EReal) := by
  simp [Ideal.ofBits, Ideal.ieee, -EReal.coe_mul]; norm_num

theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end TwoLayer.Words

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.Bridge.lean ====
/-
  The laws that join the kernel's arrangement of the two-layer network to the reference's, on the extended reals.

  None of them needs the inputs to be finite. A sum over ten features is the sum over the first eight plus the sum
  over the last two; a sum over the batch may be taken in sixteen blocks of 65536 or in 2048 blocks of 512 (addition
  on the extended reals is commutative and associative). For v > 0, the infinity included, g · rsqrt v = g / sqrt v.
  For every y, the infinities included, 1/2 · tanh(y/2) + 1/2 is the quotient (1 if y ≥ 0 else e) / (1 + e) with
  e = exp(-|y|): at a real y both are the logistic function, at +∞ both are 1 and at -∞ both are 0.
-/
import Mathlib.Analysis.SpecialFunctions.Trigonometric.Basic
import Mathlib.Analysis.SpecialFunctions.Sqrt
import proofs.«111320_g2000302046306206_pallasbulk_911_14_alg».proof.Proof.KForms
import proofs.«111320_g2000302046306206_pallasbulk_911_14_alg».proof.Proof.RForms
import proofs.«111320_g2000302046306206_pallasbulk_911_14_alg».proof.Proof.RHostForms
import proofs.«111320_g2000302046306206_pallasbulk_911_14_alg».proof.Proof.Words
import proofs.«111320_g2000302046306206_pallasbulk_911_14_alg».proof.Proof.LibTileSums

noncomputable section

namespace TwoLayer

open Idealize.ShloMosaic Idealize.ShloMosaic.ValueIdx

/-! ## Sums regrouped -/

section Sums
variable {M : Type*} [AddCommMonoid M]

/-- A sum over N = n·b positions taken block by block. -/
theorem sum_blocks (n b N : ℕ) (hN : N = n * b) (F : Fin N → M) (pos : Fin n → Fin b → Fin N)
    (hpos : ∀ i q, (pos i q).val = i.val * b + q.val) :
    ∑ i : Fin n, ∑ q : Fin b, F (pos i q) = ∑ c : Fin N, F c := by
  classical
  let g : ℕ → M := fun k => if h : k < N then F ⟨k, h⟩ else 0
  have hg : ∀ c : Fin N, g c.val = F c := fun c => by simp [g, c.isLt]
  calc ∑ i : Fin n, ∑ q : Fin b, F (pos i q)
      = ∑ i : Fin n, ∑ q : Fin b, g (b * i.val + q.val) := by
        refine Finset.sum_congr rfl fun i _ => Finset.sum_congr rfl fun q _ => ?_
        have e : b * i.val + q.val = (pos i q).val := by rw [hpos, Nat.mul_comm]
        rw [e, hg]
    _ = ∑ k ∈ Finset.range n, ∑ q : Fin b, g (b * k + q.val) :=
        Fin.sum_univ_eq_sum_range (fun k => ∑ q : Fin b, g (b * k + q.val)) n
    _ = ∑ c : Fin N, g c.val := (LibTileSums.sum_tiles n b N hN g).symm
    _ = ∑ c : Fin N, F c := Finset.sum_congr rfl fun c _ => hg c

/-- A sum over ten features as the first eight plus the last two. -/
theorem sum_eight_two (a : Fin 10 → M) : (∑ k : Fin 8, a (lo8 k)) + (∑ k : Fin 2, a (hi2 k)) = ∑ k : Fin 10, a k := by
  have h := Fin.sum_univ_add (a := 8) (b := 2) a
  exact h.symm

/-- A sum over the [1,6,1] array of a function of the middle coordinate is the sum over the six features. -/
theorem sum_unit_six_unit (a : Fin 6 → M) : ∑ j : (⟨3, ![1, 6, 1]⟩ : Shape).Idx, a (j 1) = ∑ f : Fin 6, a f := by
  refine Fintype.sum_equiv
    { toFun := fun j => j 1
      invFun := fun f => ix3 (0 : Fin 1) f (0 : Fin 1)
      left_inv := fun j => funext fun d => by
        match d with
        | ⟨0, _⟩ => exact Subsingleton.elim (α := Fin 1) _ _
        | ⟨1, _⟩ => rfl
        | ⟨2, _⟩ => exact Subsingleton.elim (α := Fin 1) _ _
      right_inv := fun f => rfl } _ _ fun j => rfl

end Sums

/-! ## The scale -/

/-- For v > 0 on the extended reals, a product with the reciprocal square root is the quotient by the square root. -/
theorem mul_rsqrt_eq_div_sqrt (g v : EReal) (hv : 0 < v) : g * Ideal.rsqrt v = Ideal.div g (Ideal.sqrt v) := by
  induction v using EReal.rec with
  | bot => exact absurd hv (by simp)
  | top => rw [Ideal.rsqrt_top, Ideal.sqrt_top, Ideal.div, if_neg (by simp), EReal.inv_top]
  | coe r =>
    have hr : 0 < r := by exact_mod_cast hv
    have hs : 0 < Real.sqrt r := Real.sqrt_pos.mpr hr
    rw [Ideal.rsqrt_coe, if_neg (not_lt.mpr hr.le), if_neg hr.ne', Ideal.sqrt_coe, if_neg (not_lt.mpr hr.le), Ideal.div,
      if_neg (by exact_mod_cast hs.ne'), EReal.coe_inv]

/-! ## The logistic function, written two ways -/

/-- On the reals: 1/2 · tanh(r/2) + 1/2 = (1 if r ≥ 0 else e) / (1 + e), e = exp(-|r|). -/
theorem logistic_real (r : ℝ) :
    1 / 2 * Real.tanh (1 / 2 * r) + 1 / 2
      = (if 0 ≤ r then 1 else Real.exp (0 - max r (-r))) * (1 / (1 + Real.exp (0 - max r (-r)))) := by
  have hu : 0 < Real.exp (1 / 2 * r) := Real.exp_pos _
  have hr : Real.exp r = Real.exp (1 / 2 * r) * Real.exp (1 / 2 * r) := by rw [← Real.exp_add]; congr 1; ring
  have hnr : Real.exp (-r) = (Real.exp (1 / 2 * r))⁻¹ * (Real.exp (1 / 2 * r))⁻¹ := by
    rw [← Real.exp_neg, ← Real.exp_add]; congr 1; ring
  have ht : Real.tanh (1 / 2 * r) = (Real.exp (1 / 2 * r) - (Real.exp (1 / 2 * r))⁻¹) / (Real.exp (1 / 2 * r) + (Real.exp (1 / 2 * r))⁻¹) := by
    rw [Real.tanh_eq_sinh_div_cosh, Real.sinh_eq, Real.cosh_eq, Real.exp_neg]; field_simp
  by_cases h : 0 ≤ r
  · rw [if_pos h, max_eq_left (by linarith), zero_sub, hnr, ht]
    field_simp
    ring
  · have h' : r < 0 := not_le.mp h
    rw [if_neg h, max_eq_right (by linarith), zero_sub, neg_neg, hr, ht]
    field_simp
    ring

/-- On the extended reals, with the word of 1/2: the kernel's form of the logistic function is the reference's. -/
theorem logistic_eq (y : EReal) :
    Ideal.ofBits .f32 0x3F000000#32 * Ideal.tanh (Ideal.ofBits .f32 0x3F000000#32 * y) + Ideal.ofBits .f32 0x3F000000#32 = sigR y := by
  rw [Words.half]
  unfold sigR Ideal.cmp Scalar.select
  induction y using EReal.rec with
  | bot =>
    have h1 : ((1 / 2 : ℝ) : EReal) * ⊥ = ⊥ := EReal.coe_mul_bot_of_pos (by norm_num)
    have h2 : max (⊥ : EReal) (-⊥) = ⊤ := by rw [EReal.neg_bot]; exact max_eq_right bot_le
    have h3 : (0 : EReal) - ⊤ = ⊥ := by rw [sub_eq_add_neg, EReal.neg_top, EReal.add_bot]
    have h4 : ¬ ((0 : EReal) ≤ ⊥) := by simp
    rw [h1, Ideal.tanh_bot, h2, h3, Ideal.exp_bot, add_zero]
    simp only [h4, decide_false, BitVec.ofBool_false]
    rw [if_neg (by decide), Ideal.div, if_neg one_ne_zero, zero_mul, mul_neg, mul_one, ← EReal.coe_neg, ← EReal.coe_add]
    norm_num
  | top =>
    have h1 : ((1 / 2 : ℝ) : EReal) * ⊤ = ⊤ := EReal.coe_mul_top_of_pos (by norm_num)
    have h2 : max (⊤ : EReal) (-⊤) = ⊤ := max_eq_left le_top
    have h3 : (0 : EReal) - ⊤ = ⊥ := by rw [sub_eq_add_neg, EReal.neg_top, EReal.add_bot]
    have h4 : (0 : EReal) ≤ ⊤ := le_top
    rw [h1, Ideal.tanh_top, h2, h3, Ideal.exp_bot, add_zero]
    simp only [h4, decide_true, BitVec.ofBool_true]
    rw [if_pos trivial, Ideal.div, if_neg one_ne_zero, inv_one, mul_one, mul_one, ← EReal.coe_add,
      show ((1 / 2 : ℝ) + 1 / 2) = 1 by norm_num, EReal.coe_one]
  | coe r =>
    have hm : max (r : EReal) (-(r : EReal)) = ((max r (-r) : ℝ) : EReal) := by
      rw [← EReal.coe_neg]; exact (EReal.coe_strictMono.monotone.map_max).symm
    have hs : (0 : EReal) - ((max r (-r) : ℝ) : EReal) = ((0 - max r (-r) : ℝ) : EReal) := by
      rw [EReal.coe_sub, EReal.coe_zero]
    have hden : (1 : EReal) + ((Real.exp (0 - max r (-r)) : ℝ) : EReal) = ((1 + Real.exp (0 - max r (-r)) : ℝ) : EReal) := by
      rw [EReal.coe_add, EReal.coe_one]
    have hne : (1 + Real.exp (0 - max r (-r)) : ℝ) ≠ 0 := by have := Real.exp_pos (0 - max r (-r)); linarith
    rw [← EReal.coe_mul, Ideal.tanh_coe, ← EReal.coe_mul, ← EReal.coe_add, hm, hs, Ideal.exp_coe, hden, Ideal.div_coe hne,
      logistic_real r]
    by_cases h : 0 ≤ r
    · have h' : (0 : EReal) ≤ (r : EReal) := by exact_mod_cast h
      simp only [h', decide_true, BitVec.ofBool_true]
      rw [if_pos h, if_pos trivial, EReal.coe_mul, EReal.coe_one]
    · have h' : ¬ ((0 : EReal) ≤ (r : EReal)) := by exact_mod_cast h
      have hz : ¬ ((0 : BitVec 1) = 1) := by decide
      simp only [h', decide_false, BitVec.ofBool_false]
      rw [if_neg h, if_neg hz, EReal.coe_mul]

/-! ## The two arrangements, entry by entry -/

section Chain

variable (xtK : (⟨2, ![10, 1048576]⟩ : Shape).Idx → EReal) (w1t : (⟨2, ![10, 6]⟩ : Shape).Idx → EReal)
  (b1cK : (⟨2, ![6, 1]⟩ : Shape).Idx → EReal)
  (xtR : (⟨2, ![10, 1048576]⟩ : Shape).Idx → EReal) (w1 : (⟨2, ![6, 10]⟩ : Shape).Idx → EReal)
  (b1cR : (⟨2, ![6, 1]⟩ : Shape).Idx → EReal)
  (hx : ∀ k b, xtK (ix2 k b) = xtR (ix2 k b)) (hw : ∀ k f, w1t (ix2 k f) = w1 (ix2 f k))
  (hb : ∀ f, b1cK (ix2 f (0 : Fin 1)) = b1cR (ix2 f (0 : Fin 1)))

include hx hw hb in
/-- Layer one with its clamp: eight plus two against the dot product into a zero accumulator. -/
theorem hid_eq (f : Fin 6) (b : Fin 1048576) : hidK xtK w1t b1cK f b = hidR xtR w1 b1cR f b := by
  unfold hidK hidR
  rw [Words.zero, sum_eight_two (fun k => xtK (ix2 k b) * w1t (ix2 k f)), zero_add, hb f]
  refine congrArg (fun s => max (s + b1cR (ix2 f (0 : Fin 1))) 0) ?_
  exact Finset.sum_congr rfl fun k _ => by rw [hx, hw, mul_comm]

variable (stK : (⟨3, ![16, 6, 128]⟩ : Shape).Idx → EReal) (stR : (⟨3, ![2048, 6, 128]⟩ : Shape).Idx → EReal)
  (hsK : ∀ i f l, stK (ix3 i f l) = statK xtK w1t b1cK i f l)
  (hsR : ∀ i f l, stR (ix3 i f l) = statR xtR w1 b1cR i f l)

include hx hw hb hsK in
/-- The kernel's lane-0 total is the sum of the activations over the whole batch, its lane-1 total the sum of squares. -/
theorem totK_zero (f : Fin 6) : totK stK f (0 : Fin 128) = ∑ b : Fin 1048576, hidR xtR w1 b1cR f b := by
  unfold totK
  rw [← sum_blocks 16 65536 1048576 rfl (fun b => hidR xtR w1 b1cR f b) at65536 (fun i q => rfl)]
  refine Finset.sum_congr rfl fun i _ => ?_
  rw [hsK]; unfold statK
  rw [if_pos (show ((0 : Fin 128) : ℕ) = 0 from rfl), if_neg (show ¬ ((0 : Fin 128) : ℕ) = 1 by decide), Words.zero, add_zero]
  exact Finset.sum_congr rfl fun q _ => hid_eq xtK w1t b1cK xtR w1 b1cR hx hw hb f _

include hx hw hb hsK in
theorem totK_one (f : Fin 6) : totK stK f (1 : Fin 128) = ∑ b : Fin 1048576, hidR xtR w1 b1cR f b * hidR xtR w1 b1cR f b := by
  unfold totK
  rw [← sum_blocks 16 65536 1048576 rfl (fun b => hidR xtR w1 b1cR f b * hidR xtR w1 b1cR f b) at65536 (fun i q => rfl)]
  refine Finset.sum_congr rfl fun i _ => ?_
  rw [hsK]; unfold statK
  rw [if_neg (show ¬ ((1 : Fin 128) : ℕ) = 0 by decide), if_pos (show ((1 : Fin 128) : ℕ) = 1 from rfl), Words.zero, zero_add]
  exact Finset.sum_congr rfl fun q _ => by rw [hid_eq xtK w1t b1cK xtR w1 b1cR hx hw hb f _]

include hsR in
/-- The same two totals on the reference's side, from its zero word. -/
theorem totR_zero (f : Fin 6) : totR stR f (0 : Fin 128) = ∑ b : Fin 1048576, hidR xtR w1 b1cR f b := by
  unfold totR
  rw [Words.zero, zero_add, ← sum_blocks 2048 512 1048576 rfl (fun b => hidR xtR w1 b1cR f b) at512 (fun i q => rfl)]
  refine Finset.sum_congr rfl fun i _ => ?_
  rw [hsR]; unfold statR
  rw [if_pos (show ((0 : Fin 128) : ℕ) = 0 from rfl), if_neg (show ¬ ((0 : Fin 128) : ℕ) = 1 by decide), add_zero]

include hsR in
theorem totR_one (f : Fin 6) : totR stR f (1 : Fin 128) = ∑ b : Fin 1048576, hidR xtR w1 b1cR f b * hidR xtR w1 b1cR f b := by
  unfold totR
  rw [Words.zero, zero_add, ← sum_blocks 2048 512 1048576 rfl (fun b => hidR xtR w1 b1cR f b * hidR xtR w1 b1cR f b) at512 (fun i q => rfl)]
  refine Finset.sum_congr rfl fun i _ => ?_
  rw [hsR]; unfold statR
  rw [if_neg (show ¬ ((1 : Fin 128) : ℕ) = 0 by decide), if_pos (show ((1 : Fin 128) : ℕ) = 1 from rfl), zero_add]

/-- A product with 2^-20 is the quotient by 2^20, on every extended real. -/
theorem mul_inv_batch (s : EReal) : s * Ideal.ofBits .f32 0x35800000#32 = Ideal.div s (Ideal.ofBits .f32 0x49800000#32) := by
  rw [Words.inv_batch, Words.batch, Ideal.div_coe (by norm_num : (1048576 : ℝ) ≠ 0)]

include hx hw hb hsK hsR in
theorem mean_eq (f : Fin 6) : meanK stK f = meanR stR f := by
  unfold meanK meanR
  rw [mul_inv_batch, totK_zero xtK w1t b1cK xtR w1 b1cR hx hw hb stK hsK f, totR_zero xtR w1 b1cR stR hsR f]

include hx hw hb hsK hsR in
theorem var_eq (f : Fin 6) : varK stK f = varR stR f := by
  unfold varK varR
  rw [mul_inv_batch, totK_one xtK w1t b1cK xtR w1 b1cR hx hw hb stK hsK f, totR_one xtR w1 b1cR stR hsR f,
    mean_eq xtK w1t b1cK xtR w1 b1cR hx hw hb stK stR hsK hsR f]

/-- The variance plus eps is positive. -/
theorem var_eps_pos (f : Fin 6) : 0 < varR stR f + Ideal.ofBits .f32 0x3727C5AC#32 := by
  obtain ⟨e, he, hw⟩ := Words.eps_pos
  have h0 : (0 : EReal) ≤ varR stR f := by unfold varR; rw [Words.zero]; exact le_max_right _ _
  rw [hw]
  exact lt_of_lt_of_le (by exact_mod_cast he) (le_add_of_nonneg_left h0)

variable (gc btc w2c : (⟨2, ![6, 1]⟩ : Shape).Idx → EReal) (b2c : (⟨2, ![1, 1]⟩ : Shape).Idx → EReal)
  (g bt : (⟨1, ![6]⟩ : Shape).Idx → EReal) (w2 : (⟨2, ![1, 6]⟩ : Shape).Idx → EReal) (b2 : (⟨1, ![1]⟩ : Shape).Idx → EReal)
  (hg : ∀ f, gc (ix2 f (0 : Fin 1)) = g (ix1 f)) (hbt : ∀ f, btc (ix2 f (0 : Fin 1)) = bt (ix1 f))
  (hw2 : ∀ f, w2c (ix2 f (0 : Fin 1)) = w2 (ix2 (0 : Fin 1) f)) (hb2 : b2c (ix2 (0 : Fin 1) (0 : Fin 1)) = b2 (ix1 (0 : Fin 1)))

include hx hw hb hsK hsR hg in
theorem scale_eq (f : Fin 6) : scaleK stK gc f = scaleR stR g f := by
  unfold scaleK scaleR
  rw [var_eq xtK w1t b1cK xtR w1 b1cR hx hw hb stK stR hsK hsR f, hg f]
  exact mul_rsqrt_eq_div_sqrt _ _ (var_eps_pos stR f)

include hx hw hb hsK hsR hg hbt in
theorem shift_eq (f : Fin 6) : shiftK stK gc btc f = shiftR stR g bt f := by
  unfold shiftK shiftR
  rw [hbt f, mean_eq xtK w1t b1cK xtR w1 b1cR hx hw hb stK stR hsK hsR f,
    scale_eq xtK w1t b1cK xtR w1 b1cR hx hw hb stK stR hsK hsR gc g hg f]

include hx hw hb hsK hsR hg hw2 in
theorem w2e_eq (f : Fin 6) : w2eK stK gc w2c f = w2effR stR g w2 f := by
  unfold w2eK w2effR
  rw [hw2 f, scale_eq xtK w1t b1cK xtR w1 b1cR hx hw hb stK stR hsK hsR gc g hg f]

include hx hw hb hsK hsR hg hbt hw2 hb2 in
theorem b2e_eq : b2eK stK gc btc w2c b2c = b2effR stR g bt w2 b2 := by
  unfold b2eK b2effR
  rw [sum_unit_six_unit (fun f => w2c (ix2 f (0 : Fin 1)) * shiftK stK gc btc f), Words.zero, zero_add, hb2]
  refine congrArg (· + b2 (ix1 (0 : Fin 1))) (Finset.sum_congr rfl fun f _ => ?_)
  rw [hw2 f, shift_eq xtK w1t b1cK xtR w1 b1cR hx hw hb stK stR hsK hsR gc btc g bt hg hbt f]

variable (hA : (⟨2, ![6, 1048576]⟩ : Shape).Idx → EReal) (hh : ∀ f b, hA (ix2 f b) = hidK xtK w1t b1cK f b)
  (w2eff : (⟨2, ![6, 1]⟩ : Shape).Idx → EReal) (b2eff : (⟨2, ![1, 1]⟩ : Shape).Idx → EReal)
  (hw2eff : ∀ f, w2eff (ix2 f (0 : Fin 1)) = w2effR stR g w2 f)
  (hb2eff : b2eff (ix2 (0 : Fin 1) (0 : Fin 1)) = b2effR stR g bt w2 b2)

include hx hw hb hsK hsR hg hbt hw2 hb2 hh hw2eff hb2eff in
/-- The two programs' outputs at sample b are one extended real. -/
theorem out_eq (b : Fin 1048576) : outK hA stK gc btc w2c b2c b = outR xtR w1 b1cR w2eff b2eff b := by
  unfold outK outR
  rw [logistic_eq, hb2eff, b2e_eq xtK w1t b1cK xtR w1 b1cR hx hw hb stK stR hsK hsR gc btc w2c b2c g bt w2 b2 hg hbt hw2 hb2]
  refine congrArg (fun s => sigR (s + b2effR stR g bt w2 b2)) (Finset.sum_congr rfl fun f _ => ?_)
  rw [hh, hid_eq xtK w1t b1cK xtR w1 b1cR hx hw hb f b, hw2eff f,
    w2e_eq xtK w1t b1cK xtR w1 b1cR hx hw hb stK stR hsK hsR gc w2c g w2 hg hw2 f]

end Chain

end TwoLayer

end
-- ==== Proof.Final.lean ====
/-
  The two idealized programs end with one result.

  The kernel's result at (b,0) is its second pass's output row at b: the kernel's arrangement of the network evaluated on
  the arrays its passes read, which are the launch arrays re-laid (the input and the first layer's weights transposed, the
  small vectors as columns). The reference's result at (b,0) is its second region's output row at b: the reference's
  arrangement evaluated on the transposed input, the weights, the bias column and the folded weight and bias its host
  arithmetic computes from the first region's statistics. The arrays correspond entry by entry when the launch arrays
  agree, and then the two arrangements are one extended real at every sample.
-/
import proofs.«111320_g2000302046306206_pallasbulk_911_14_alg».proof.Defs
import proofs.«111320_g2000302046306206_pallasbulk_911_14_alg».proof.Proof.KRun
import proofs.«111320_g2000302046306206_pallasbulk_911_14_alg».proof.Proof.KValue
import proofs.«111320_g2000302046306206_pallasbulk_911_14_alg».proof.Proof.KReg1
import proofs.«111320_g2000302046306206_pallasbulk_911_14_alg».proof.Proof.RRun
import proofs.«111320_g2000302046306206_pallasbulk_911_14_alg».proof.Proof.RHost
import proofs.«111320_g2000302046306206_pallasbulk_911_14_alg».proof.Proof.RReg0
import proofs.«111320_g2000302046306206_pallasbulk_911_14_alg».proof.Proof.RReg1
import proofs.«111320_g2000302046306206_pallasbulk_911_14_alg».proof.Proof.Bridge
import proofs.«111320_g2000302046306206_pallasbulk_911_14_alg».proof.Proof.Gen.Pre_finite_inputs
import proofs.«111320_g2000302046306206_pallasbulk_911_14_alg».proof.Proof.Gen.KernelIdeal
import proofs.«111320_g2000302046306206_pallasbulk_911_14_alg».proof.Proof.Gen.ReferenceIdeal

set_option maxRecDepth 16384

noncomputable section

namespace Cert.Proof.Final

open Idealize.ShloMosaic Idealize.ShloMosaic.TcCoe Idealize.ShloMosaic.ValueIdx Idealize.SL.Sem
open TwoLayer

section Value

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)

/-- The kernel's result at (b,z). -/
theorem kernel_result_apply (c : Dev Cert.KernelIdeal.nD) (b : Fin 1048576) (z : Fin 1) :
    (Cert.KernelIdeal.Gen.W5 m ρ c (Proc.devRef .tc Cert.KernelIdeal.main_v9) : FVec Ideal Cert.KernelIdeal.S1048576x1 .f32) (ix2 b z)
      = outK (Cert.KernelIdeal.Gen.V3 m ρ c Cert.KernelIdeal.main_v3_0) (Cert.KernelIdeal.Gen.V3 m ρ c Cert.KernelIdeal.main_v3_1) (Cert.KernelIdeal.Gen.V3 m ρ c Cert.KernelIdeal.main_v4)
          (Cert.KernelIdeal.Gen.V3 m ρ c Cert.KernelIdeal.main_v5) (Cert.KernelIdeal.Gen.V3 m ρ c Cert.KernelIdeal.main_v6) (Cert.KernelIdeal.Gen.V3 m ρ c Cert.KernelIdeal.main_v7) b := by
  rw [Cert.KernelIdeal.KHost.result_eq, Cert.KernelIdeal.KReg1.out_final (Cert.KernelIdeal.Gen.V3 m ρ) c]
  exact Cert.KernelIdeal.KValue.transpose2_apply _ _ b z

/-- The reference's result at (b,z), on the arrays its first region was entered with and the folded weight and bias. -/
theorem reference_result_apply (c : Dev Cert.ReferenceIdeal.nD) (b : Fin 1048576) (z : Fin 1) :
    (Cert.ReferenceIdeal.GenP.W7 m' ρ' c (Proc.devRef .tc Cert.ReferenceIdeal.main_v33) : FVec Ideal Cert.ReferenceIdeal.S1048576x1 .f32) (ix2 b z)
      = outR (Cert.ReferenceIdeal.GenP.V3 m' ρ' c Cert.ReferenceIdeal.main_v1) (Cert.ReferenceIdeal.GenP.V3 m' ρ' c Cert.ReferenceIdeal.main_arg1) (Cert.ReferenceIdeal.GenP.V3 m' ρ' c Cert.ReferenceIdeal.main_v2)
          (Cert.ReferenceIdeal.GenP.V5 m' ρ' c Cert.ReferenceIdeal.main_v26) (Cert.ReferenceIdeal.GenP.V5 m' ρ' c Cert.ReferenceIdeal.main_v31) b := by
  rw [Cert.ReferenceIdeal.RHost.result_eq, Cert.ReferenceIdeal.RReg1.out_final (Cert.ReferenceIdeal.GenP.V5 m' ρ') c, Cert.ReferenceIdeal.RHost.entry1_xt, Cert.ReferenceIdeal.RHost.entry1_b1c,
    Cert.ReferenceIdeal.RHost.entry1_w1, ← Cert.ReferenceIdeal.RHost.entry0_w1 m' ρ' c]
  exact Cert.KernelIdeal.KValue.transpose2_apply _ _ b z

variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include hagree in
/-- From launch arrays that agree, the reference's result array is the kernel's. -/
theorem value_eq (c : Dev Cert.KernelIdeal.nD) :
    Cert.ReferenceIdeal.GenP.W7 m' ρ' c (Proc.devRef .tc Cert.ReferenceIdeal.main_v33) = Cert.KernelIdeal.Gen.W5 m ρ c (Proc.devRef .tc Cert.KernelIdeal.main_v9) := by
  obtain ⟨a0, a1, a2, a3, a4, a5, a6⟩ := hagree c
  funext i
  obtain ⟨b, z, rfl⟩ : ∃ (b : Fin 1048576) (z : Fin 1), i = ix2 b z := ⟨i 0, i 1, eq_ix2 (n0 := 1048576) (n1 := 1) i⟩
  refine (reference_result_apply m' ρ' c b z).trans (Eq.trans ?_ (kernel_result_apply m ρ c b z).symm)
  refine (out_eq
    (Cert.KernelIdeal.Gen.V1 m ρ c Cert.KernelIdeal.main_v0) (Cert.KernelIdeal.Gen.V1 m ρ c Cert.KernelIdeal.main_v1) (Cert.KernelIdeal.Gen.V1 m ρ c Cert.KernelIdeal.main_v2)
    (Cert.ReferenceIdeal.GenP.V3 m' ρ' c Cert.ReferenceIdeal.main_v1) (Cert.ReferenceIdeal.GenP.V3 m' ρ' c Cert.ReferenceIdeal.main_arg1) (Cert.ReferenceIdeal.GenP.V3 m' ρ' c Cert.ReferenceIdeal.main_v2)
    ?hx ?hw ?hb
    (Cert.KernelIdeal.Gen.V3 m ρ c Cert.KernelIdeal.main_v3_1) ((Cert.ReferenceIdeal.GenP.dat0 (F := Ideal) (Cert.ReferenceIdeal.GenP.V3 m' ρ') c).arrAt 3 Cert.ReferenceIdeal.cfg0.N)
    (Cert.KernelIdeal.KValue.st_apply m ρ c) ?hsR
    (Cert.KernelIdeal.Gen.V3 m ρ c Cert.KernelIdeal.main_v4) (Cert.KernelIdeal.Gen.V3 m ρ c Cert.KernelIdeal.main_v5) (Cert.KernelIdeal.Gen.V3 m ρ c Cert.KernelIdeal.main_v6) (Cert.KernelIdeal.Gen.V3 m ρ c Cert.KernelIdeal.main_v7)
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
    ?hg ?hbt ?hw2 ?hb2
    (Cert.KernelIdeal.Gen.V3 m ρ c Cert.KernelIdeal.main_v3_0) (Cert.KernelIdeal.KValue.h_apply m ρ c)
    (Cert.ReferenceIdeal.GenP.V5 m' ρ' c Cert.ReferenceIdeal.main_v26) (Cert.ReferenceIdeal.GenP.V5 m' ρ' c Cert.ReferenceIdeal.main_v31)
    (Cert.ReferenceIdeal.RHost.entry1_w2eff_apply m' ρ' c) (Cert.ReferenceIdeal.RHost.entry1_b2eff_apply m' ρ' c) b).symm
  case hx =>
    intro k b
    exact (Cert.KernelIdeal.KValue.xt_apply m ρ c k b).trans ((congrFun a0 (ix2 b k)).symm.trans (Cert.ReferenceIdeal.RHost.entry0_xt_apply m' ρ' c k b).symm)
  case hw =>
    intro k f
    refine (Cert.KernelIdeal.KValue.w1t_apply m ρ c k f).trans ((congrFun a1 (ix2 f k)).symm.trans ?_)
    exact (congrFun (Cert.ReferenceIdeal.RHost.entry0_w1 m' ρ' c) (ix2 f k)).symm
  case hb =>
    intro f
    exact (Cert.KernelIdeal.KValue.b1c_apply m ρ c f).trans ((congrFun a2 (ix1 f)).symm.trans (Cert.ReferenceIdeal.RHost.entry0_b1c_apply m' ρ' c f).symm)
  case hsR =>
    intro i f l
    rw [Cert.ReferenceIdeal.RReg0.stats_final (Cert.ReferenceIdeal.GenP.V3 m' ρ') c]
    rfl
  case hg =>
    intro f
    exact (Cert.KernelIdeal.KValue.gc_apply m ρ c f).trans (congrFun a3 (ix1 f)).symm
  case hbt =>
    intro f
    exact (Cert.KernelIdeal.KValue.btc_apply m ρ c f).trans (congrFun a4 (ix1 f)).symm
  case hw2 =>
    intro f
    exact (Cert.KernelIdeal.KValue.w2c_apply m ρ c f).trans (congrFun a5 (ix2 (0 : Fin 1) f)).symm
  case hb2 =>
    exact (Cert.KernelIdeal.KValue.b2c_apply m ρ c).trans (congrFun a6 (ix1 (0 : Fin 1))).symm

end Value

/-- Both idealized programs, run from memories that agree on the arguments, end with one result and their arguments
    unchanged: the kernel's run names its result, the reference's run names its own, and the two are equal. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Gen.W5 m ρ c (Proc.devRef .tc Cert.KernelIdeal.main_v9), Cert.KernelIdeal.KRun.run_named m ρ, ?_⟩
  exact (θ_run Cert.ReferenceIdeal.defs _ _).mono (fun r h c => ⟨(h c).1.trans (value_eq m ρ m' ρ' hagree c), (h c).2⟩)
    (Cert.ReferenceIdeal.RRun.run_named m' ρ')

end Cert.Proof.Final

end
-- ==== Proof.lean ====
/-
  The certificate of a two-layer network with batch normalisation: a kernel in two passes against a reference in two
  passes with host arithmetic in between, equal at exact arithmetic on the extended reals.

  Both programs compute, for a batch of 2^20 samples with ten features, h = max(W1 x + b1, 0) with six hidden features,
  the batch statistics of h (sum and sum of squares per feature), the batch normalisation's scale and shift folded into
  the second layer's weight and bias, and the logistic function of the folded second layer. They differ in arrangement
  only. The kernel sums the ten input features as eight plus two, caches h at a narrower float format (the identity at
  exact arithmetic), takes the statistics in sixteen blocks of 65536 samples, multiplies by 2^-20 for the mean, scales by
  gamma · rsqrt(variance + eps), and writes the logistic function as 1/2 · tanh(y/2) + 1/2. The reference takes a dot
  product into a zero accumulator, masks samples past the batch (there are none: the comparison is always true), takes the
  statistics in 2048 blocks of 512, divides by 2^20, scales by gamma / sqrt(variance + eps), recomputes h in its second
  pass, and writes the logistic function as (1 if y ≥ 0 else e) / (1 + e) with e = exp(-|y|). The laws joining them — sums
  regrouped, a product with an exact reciprocal against a quotient, the two scales for a positive variance plus eps, the
  two logistic forms — hold for every extended real, so the inputs' finiteness is never used.

  The three frames are the programs' frame theorems; the idealization rewrote nothing, so it is preserved trivially; the
  algebraic claim runs both programs with their results named and shows the two results one function of the arguments.
-/
import proofs.«111320_g2000302046306206_pallasbulk_911_14_alg».proof.Defs
import proofs.«111320_g2000302046306206_pallasbulk_911_14_alg».proof.Proof.Gen.Kernel
import proofs.«111320_g2000302046306206_pallasbulk_911_14_alg».proof.Proof.Gen.Kernel.Frame
import proofs.«111320_g2000302046306206_pallasbulk_911_14_alg».proof.Proof.Gen.KernelIdeal
import proofs.«111320_g2000302046306206_pallasbulk_911_14_alg».proof.Proof.Gen.KernelIdeal.Frame
import proofs.«111320_g2000302046306206_pallasbulk_911_14_alg».proof.Proof.Gen.ReferenceIdeal
import proofs.«111320_g2000302046306206_pallasbulk_911_14_alg».proof.Proof.Gen.Pre_finite_inputs
import proofs.«111320_g2000302046306206_pallasbulk_911_14_alg».proof.Proof.RefFrame
import proofs.«111320_g2000302046306206_pallasbulk_911_14_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.GenP.frame m ρ,
    trivial,
    Cert.Proof.Final.algebraic⟩

end Cert.Proof

end
